-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1536 : Shape := ⟨2, ![32768, 1536]⟩
abbrev S576x1536 : Shape := ⟨2, ![576, 1536]⟩
abbrev S8 : Shape := ⟨1, ![8]⟩
abbrev S8x3 : Shape := ⟨2, ![8, 3]⟩
abbrev S32768 : Shape := ⟨1, ![32768]⟩
abbrev S_ : Shape := ⟨0, ![]⟩

class Facts : Prop where
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S576x1536 : S_.BroadcastsInDim S576x1536 (![] : Fin 0 → Fin S576x1536.rank)
  reducesTo_S576x1536_S_d0_1 : S576x1536.ReducesTo [0, 1] S_

variable [Facts]

def fn {F : FTy → Type} [FloatOps F] (main_arg0 : FVec F S32768x1536 .f32) (main_arg1 : FVec F S576x1536 .f32) (main_arg2 : IVec S8 32) (main_arg3 : IVec S8x3 32) (main_arg4 : IVec S32768 32) (main_arg5 : IVec S32768 32) : IVec S_ 1 :=
  let main_v0 : FVec F S32768x1536 .f32 := Host.absf main_arg0
  let main_cst : FVec F S_ .f32 := constant S_ .f32 0x7F800000#32
  let main_v1 : FVec F S32768x1536 .f32 := broadcastInDim S32768x1536 ![] bcast_S_S32768x1536 main_cst
  let main_v2 : IVec S32768x1536 1 := cmpf .olt main_v0 main_v1
  let main_c : IVec S_ 1 := constantI S_ 1 1#1
  let main_v3 : IVec S_ 1 := (fun x v => Host.reduce IntOp.andi x v reducesTo_S32768x1536_S_d0_1 h_S_) main_v2 main_c
  let main_v4 : FVec F S576x1536 .f32 := Host.absf main_arg1
  let main_cst_0 : FVec F S_ .f32 := constant S_ .f32 0x7F800000#32
  let main_v5 : FVec F S576x1536 .f32 := broadcastInDim S576x1536 ![] bcast_S_S576x1536 main_cst_0
  let main_v6 : IVec S576x1536 1 := cmpf .olt main_v4 main_v5
  let main_c_1 : IVec S_ 1 := constantI S_ 1 1#1
  let main_v7 : IVec S_ 1 := (fun x v => Host.reduce IntOp.andi x v reducesTo_S576x1536_S_d0_1 h_S_) main_v6 main_c_1
  let main_v8 : IVec S_ 1 := andi main_v3 main_v7
  main_v8
-- ==== Kernel.lean ====
abbrev S32768x1536 : Shape := ⟨2, ![32768, 1536]⟩
abbrev S576x1536 : Shape := ⟨2, ![576, 1536]⟩
abbrev S8 : Shape := ⟨1, ![8]⟩
abbrev S8x3 : Shape := ⟨2, ![8, 3]⟩
abbrev S32768 : Shape := ⟨1, ![32768]⟩
abbrev S8x1 : Shape := ⟨2, ![8, 1]⟩
abbrev S1 : Shape := ⟨1, ![1]⟩
abbrev S7 : Shape := ⟨1, ![7]⟩
abbrev S_ : Shape := ⟨0, ![]⟩
abbrev S32768x1 : Shape := ⟨2, ![32768, 1]⟩
abbrev S1x1 : Shape := ⟨2, ![1, 1]⟩
abbrev S32768x8 : Shape := ⟨2, ![32768, 8]⟩
abbrev S512x1536 : Shape := ⟨2, ![512, 1536]⟩
abbrev S512x8 : Shape := ⟨2, ![512, 8]⟩
abbrev S512x1 : Shape := ⟨2, ![512, 1]⟩
abbrev S512x576 : Shape := ⟨2, ![512, 576]⟩

abbrev nBuf : Space → Nat
  | .hbm => 229
  | .vmem => 7
  | .smem => 0
  | _ => 0

abbrev hbmTy0_0 (i : Nat) : BufTy := match i % 128 with
  | 0 => ⟨S32768x1536, .f32⟩
  | 1 => ⟨S576x1536, .f32⟩
  | 2 => ⟨S8, .i32⟩
  | 3 => ⟨S8x3, .i32⟩
  | 4 => ⟨S32768, .i32⟩
  | 5 => ⟨S32768, .i32⟩
  | 6 => ⟨S8x1, .i32⟩
  | 7 => ⟨S8, .i32⟩
  | 8 => ⟨S1, .i32⟩
  | 9 => ⟨S7, .i32⟩
  | 10 => ⟨S8, .i32⟩
  | 11 => ⟨S_, .i32⟩
  | 12 => ⟨S1, .i32⟩
  | 13 => ⟨S_, .i32⟩
  | 14 => ⟨S8, .i32⟩
  | 15 => ⟨S_, .i32⟩
  | 16 => ⟨S_, .i32⟩
  | 17 => ⟨S8, .i32⟩
  | 18 => ⟨S_, .i32⟩
  | 19 => ⟨S32768, .i32⟩
  | 20 => ⟨S_, .i32⟩
  | 21 => ⟨S8, .i32⟩
  | 22 => ⟨S8, .i1⟩
  | 23 => ⟨S_, .i32⟩
  | 24 => ⟨S8, .i32⟩
  | 25 => ⟨S8, .i32⟩
  | 26 => ⟨S8, .i32⟩
  | 27 => ⟨S8x1, .i32⟩
  | 28 => ⟨S_, .i32⟩
  | 29 => ⟨S8, .i32⟩
  | 30 => ⟨S32768, .i32⟩
  | 31 => ⟨S_, .i32⟩
  | 32 => ⟨S_, .i32⟩
  | 33 => ⟨S32768, .i32⟩
  | 34 => ⟨S_, .i32⟩
  | 35 => ⟨S32768, .i32⟩
  | 36 => ⟨S32768, .i32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S1, .i32⟩
  | 46 => ⟨S_, .i32⟩
  | 47 => ⟨S32768x1, .i32⟩
  | 48 => ⟨S32768x1, .i1⟩
  | 49 => ⟨S1x1, .i32⟩
  | 50 => ⟨S32768x1, .i32⟩
  | 51 => ⟨S32768x1, .i1⟩
  | 52 => ⟨S32768x1, .i1⟩
  | 53 => ⟨S_, .i1⟩
  | 54 => ⟨S32768, .i1⟩
  | 55 => ⟨S32768, .i32⟩
  | 56 => ⟨S_, .i32⟩
  | 57 => ⟨S32768, .i32⟩
  | 58 => ⟨S32768, .i32⟩
  | 59 => ⟨S32768, .f32⟩
  | 60 => ⟨S8x1, .i32⟩
  | 61 => ⟨S8, .i32⟩
  | 62 => ⟨S1, .i32⟩
  | 63 => ⟨S7, .i32⟩
  | 64 => ⟨S8, .i32⟩
  | 65 => ⟨S_, .i32⟩
  | 66 => ⟨S1, .i32⟩
  | 67 => ⟨S_, .i32⟩
  | 68 => ⟨S8, .i32⟩
  | 69 => ⟨S_, .i32⟩
  | 70 => ⟨S_, .i32⟩
  | 71 => ⟨S8, .i32⟩
  | 72 => ⟨S_, .i32⟩
  | 73 => ⟨S32768, .i32⟩
  | 74 => ⟨S_, .i32⟩
  | 75 => ⟨S8, .i32⟩
  | 76 => ⟨S8, .i1⟩
  | 77 => ⟨S_, .i32⟩
  | 78 => ⟨S8, .i32⟩
  | 79 => ⟨S8, .i32⟩
  | 80 => ⟨S8, .i32⟩
  | 81 => ⟨S8x1, .i32⟩
  | 82 => ⟨S_, .i32⟩
  | 83 => ⟨S8, .i32⟩
  | 84 => ⟨S32768, .i32⟩
  | 85 => ⟨S_, .i32⟩
  | 86 => ⟨S_, .i32⟩
  | 87 => ⟨S32768, .i32⟩
  | 88 => ⟨S_, .i32⟩
  | 89 => ⟨S32768, .i32⟩
  | 90 => ⟨S32768, .i32⟩
  | 91 => ⟨S_, .i32⟩
  | 92 => ⟨S32768, .i32⟩
  | 93 => ⟨S32768, .i1⟩
  | 94 => ⟨S_, .i32⟩
  | 95 => ⟨S32768, .i32⟩
  | 96 => ⟨S32768, .i32⟩
  | 97 => ⟨S32768, .i32⟩
  | 98 => ⟨S32768x1, .i32⟩
  | 99 => ⟨S1, .i32⟩
  | 100 => ⟨S_, .i32⟩
  | 101 => ⟨S32768x1, .i32⟩
  | 102 => ⟨S32768x1, .i1⟩
  | 103 => ⟨S1x1, .i32⟩
  | 104 => ⟨S32768x1, .i32⟩
  | 105 => ⟨S32768x1, .i1⟩
  | 106 => ⟨S32768x1, .i1⟩
  | 107 => ⟨S_, .i1⟩
  | 108 => ⟨S32768, .i1⟩
  | 109 => ⟨S32768, .i32⟩
  | 110 => ⟨S_, .i32⟩
  | 111 => ⟨S32768, .i32⟩
  | 112 => ⟨S32768, .i32⟩
  | 113 => ⟨S32768, .f32⟩
  | 114 => ⟨S32768, .f32⟩
  | 115 => ⟨S_, .f32⟩
  | 116 => ⟨S32768, .f32⟩
  | 117 => ⟨S32768, .f32⟩
  | 118 => ⟨S32768, .f32⟩
  | 119 => ⟨S_, .f32⟩
  | 120 => ⟨S32768, .f32⟩
  | 121 => ⟨S32768, .f32⟩
  | 122 => ⟨S_, .f32⟩
  | 123 => ⟨S32768, .f32⟩
  | 124 => ⟨S32768, .f32⟩
  | 125 => ⟨S32768, .f32⟩
  | 126 => ⟨S_, .f32⟩
  | 127 => ⟨S32768, .f32⟩
  | _ => ⟨S32768x1536, .f32⟩

abbrev hbmTy0_1 (i : Nat) : BufTy := match i % 128 with
  | 0 => ⟨S32768, .f32⟩
  | 1 => ⟨S32768, .f32⟩
  | 2 => ⟨S_, .f32⟩
  | 3 => ⟨S32768, .f32⟩
  | 4 => ⟨S32768, .f32⟩
  | 5 => ⟨S_, .f32⟩
  | 6 => ⟨S32768, .f32⟩
  | 7 => ⟨S32768, .f32⟩
  | 8 => ⟨S_, .f32⟩
  | 9 => ⟨S32768, .f32⟩
  | 10 => ⟨S32768, .f32⟩
  | 11 => ⟨S_, .f32⟩
  | 12 => ⟨S32768, .f32⟩
  | 13 => ⟨S32768, .f32⟩
  | 14 => ⟨S_, .f32⟩
  | 15 => ⟨S32768, .f32⟩
  | 16 => ⟨S32768, .f32⟩
  | 17 => ⟨S_, .f32⟩
  | 18 => ⟨S32768, .f32⟩
  | 19 => ⟨S32768, .f32⟩
  | 20 => ⟨S_, .f32⟩
  | 21 => ⟨S32768, .f32⟩
  | 22 => ⟨S32768, .f32⟩
  | 23 => ⟨S_, .f32⟩
  | 24 => ⟨S32768, .f32⟩
  | 25 => ⟨S32768, .f32⟩
  | 26 => ⟨S_, .f32⟩
  | 27 => ⟨S32768, .f32⟩
  | 28 => ⟨S32768, .f32⟩
  | 29 => ⟨S_, .f32⟩
  | 30 => ⟨S32768, .f32⟩
  | 31 => ⟨S32768, .f32⟩
  | 32 => ⟨S_, .f32⟩
  | 33 => ⟨S_, .f32⟩
  | 34 => ⟨S_, .f32⟩
  | 35 => ⟨S32768, .f32⟩
  | 36 => ⟨S32768, .f32⟩
  | 37 => ⟨S_, .f32⟩
  | 38 => ⟨S32768, .f32⟩
  | 39 => ⟨S32768, .f32⟩
  | 40 => ⟨S_, .f32⟩
  | 41 => ⟨S_, .f32⟩
  | 42 => ⟨S_, .f32⟩
  | 43 => ⟨S32768, .f32⟩
  | 44 => ⟨S32768, .f32⟩
  | 45 => ⟨S_, .f32⟩
  | 46 => ⟨S32768, .f32⟩
  | 47 => ⟨S32768, .f32⟩
  | 48 => ⟨S32768, .f32⟩
  | 49 => ⟨S32768, .i32⟩
  | 50 => ⟨S32768, .f32⟩
  | 51 => ⟨S32768, .i32⟩
  | 52 => ⟨S_, .i32⟩
  | 53 => ⟨S32768, .i32⟩
  | 54 => ⟨S32768, .i32⟩
  | 55 => ⟨S_, .i32⟩
  | 56 => ⟨S32768, .i32⟩
  | 57 => ⟨S32768, .i32⟩
  | 58 => ⟨S_, .i32⟩
  | 59 => ⟨S32768, .i32⟩
  | 60 => ⟨S32768, .i32⟩
  | 61 => ⟨S_, .i32⟩
  | 62 => ⟨S32768, .i32⟩
  | 63 => ⟨S32768, .i32⟩
  | 64 => ⟨S32768, .f32⟩
  | 65 => ⟨S32768, .f32⟩
  | 66 => ⟨S32768, .f32⟩
  | 67 => ⟨S32768, .f32⟩
  | 68 => ⟨S_, .i32⟩
  | 69 => ⟨S32768, .i32⟩
  | 70 => ⟨S32768, .i32⟩
  | 71 => ⟨S32768, .i32⟩
  | 72 => ⟨S32768, .f32⟩
  | 73 => ⟨S_, .i32⟩
  | 74 => ⟨S32768, .i32⟩
  | 75 => ⟨S32768, .i32⟩
  | 76 => ⟨S32768, .i32⟩
  | 77 => ⟨S32768, .f32⟩
  | 78 => ⟨S_, .i32⟩
  | 79 => ⟨S32768, .i32⟩
  | 80 => ⟨S32768, .i32⟩
  | 81 => ⟨S32768, .i32⟩
  | 82 => ⟨S32768, .f32⟩
  | 83 => ⟨S_, .i32⟩
  | 84 => ⟨S32768, .i32⟩
  | 85 => ⟨S32768, .i32⟩
  | 86 => ⟨S32768, .i32⟩
  | 87 => ⟨S32768, .f32⟩
  | 88 => ⟨S_, .f32⟩
  | 89 => ⟨S32768, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x8, .f32⟩
  | 99 => ⟨S576x1536, .bf16⟩
  | 100 => ⟨S32768x1536, .f32⟩
  | _ => ⟨S32768x1536, .f32⟩

abbrev hbmTy (i : Nat) : BufTy := match i / 128 with
  | 0 => hbmTy0_0 i
  | 1 => hbmTy0_1 i
  | _ => ⟨S32768x1536, .f32⟩

abbrev bufTy : (tb : Table) → Fin (tcTables nBuf tb) → BufTy
  | .hbm, ⟨i, _⟩ => hbmTy i
  | .local _ .vmem, ⟨0, _⟩ => ⟨S512x1536, .f32⟩
  | .local _ .vmem, ⟨1, _⟩ => ⟨S512x1536, .f32⟩
  | .local _ .vmem, ⟨2, _⟩ => ⟨S576x1536, .bf16⟩
  | .local _ .vmem, ⟨3, _⟩ => ⟨S512x8, .f32⟩
  | .local _ .vmem, ⟨4, _⟩ => ⟨S512x8, .f32⟩
  | .local _ .vmem, ⟨5, _⟩ => ⟨S512x1536, .f32⟩
  | .local _ .vmem, ⟨6, _⟩ => ⟨S512x1536, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_call1_call0_c : Ref sig .tc := ⟨.hbm, 15, rfl⟩
abbrev main_call1_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call2_call0_c : Ref sig .tc := ⟨.hbm, 31, rfl⟩
abbrev main_call2_call0_v0 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call4_v0 : Ref sig .tc := ⟨.hbm, 62, rfl⟩
abbrev main_call4_v1 : Ref sig .tc := ⟨.hbm, 63, rfl⟩
abbrev main_v22 : Ref sig .tc := ⟨.hbm, 64, rfl⟩
abbrev main_c_6 : Ref sig .tc := ⟨.hbm, 65, rfl⟩
abbrev main_v23 : Ref sig .tc := ⟨.hbm, 66, rfl⟩
abbrev main_c_7 : Ref sig .tc := ⟨.hbm, 67, rfl⟩
abbrev main_v24 : Ref sig .tc := ⟨.hbm, 68, rfl⟩
abbrev main_call5_call0_c : Ref sig .tc := ⟨.hbm, 69, rfl⟩
abbrev main_call5_call0_v0 : Ref sig .tc := ⟨.hbm, 70, rfl⟩
abbrev main_v25 : Ref sig .tc := ⟨.hbm, 71, rfl⟩
abbrev main_c_8 : Ref sig .tc := ⟨.hbm, 72, rfl⟩
abbrev main_v26 : Ref sig .tc := ⟨.hbm, 73, rfl⟩
abbrev main_c_9 : Ref sig .tc := ⟨.hbm, 74, rfl⟩
abbrev main_v27 : Ref sig .tc := ⟨.hbm, 75, rfl⟩
abbrev main_v28 : Ref sig .tc := ⟨.hbm, 76, rfl⟩
abbrev main_c_10 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_11 : Ref sig .tc := ⟨.hbm, 82, rfl⟩
abbrev main_v33 : Ref sig .tc := ⟨.hbm, 83, rfl⟩
abbrev main_v34 : Ref sig .tc := ⟨.hbm, 84, rfl⟩
abbrev main_call6_call0_c : Ref sig .tc := ⟨.hbm, 85, rfl⟩
abbrev main_call6_call0_v0 : Ref sig .tc := ⟨.hbm, 86, rfl⟩
abbrev main_v35 : Ref sig .tc := ⟨.hbm, 87, rfl⟩
abbrev main_c_12 : Ref sig .tc := ⟨.hbm, 88, rfl⟩
abbrev main_v36 : Ref sig .tc := ⟨.hbm, 89, rfl⟩
abbrev main_v37 : Ref sig .tc := ⟨.hbm, 90, rfl⟩
abbrev main_call7_c : Ref sig .tc := ⟨.hbm, 91, rfl⟩
abbrev main_call7_v0 : Ref sig .tc := ⟨.hbm, 92, rfl⟩
abbrev main_call7_v1 : Ref sig .tc := ⟨.hbm, 93, rfl⟩
abbrev main_call7_c_0 : Ref sig .tc := ⟨.hbm, 94, rfl⟩
abbrev main_call7_v2 : Ref sig .tc := ⟨.hbm, 95, rfl⟩
abbrev main_call7_v3 : Ref sig .tc := ⟨.hbm, 96, rfl⟩
abbrev main_call7_v4 : Ref sig .tc := ⟨.hbm, 97, rfl⟩
abbrev main_call7_v5 : Ref sig .tc := ⟨.hbm, 98, rfl⟩
abbrev main_call7_c_1 : Ref sig .tc := ⟨.hbm, 99, rfl⟩
abbrev main_call7_c_2 : Ref sig .tc := ⟨.hbm, 100, rfl⟩
abbrev main_call7_v6 : Ref sig .tc := ⟨.hbm, 101, rfl⟩
abbrev main_call7_v7 : Ref sig .tc := ⟨.hbm, 102, rfl⟩
abbrev main_call7_v8 : Ref sig .tc := ⟨.hbm, 103, rfl⟩
abbrev main_call7_v9 : Ref sig .tc := ⟨.hbm, 104, rfl⟩
abbrev main_call7_v10 : Ref sig .tc := ⟨.hbm, 105, rfl⟩
abbrev main_call7_v11 : Ref sig .tc := ⟨.hbm, 106, rfl⟩
abbrev main_call7_c_3 : Ref sig .tc := ⟨.hbm, 107, rfl⟩
abbrev main_call7_v12 : Ref sig .tc := ⟨.hbm, 108, rfl⟩
abbrev main_call7_v13 : Ref sig .tc := ⟨.hbm, 109, rfl⟩
abbrev main_call7_c_4 : Ref sig .tc := ⟨.hbm, 110, rfl⟩
abbrev main_call7_v14 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_cst_13 : Ref sig .tc := ⟨.hbm, 119, rfl⟩
abbrev main_v44 : Ref sig .tc := ⟨.hbm, 120, rfl⟩
abbrev main_v45 : Ref sig .tc := ⟨.hbm, 121, rfl⟩
abbrev main_cst_14 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_cst_15 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_cst_16 : Ref sig .tc := ⟨.hbm, 130, rfl⟩
abbrev main_v52 : Ref sig .tc := ⟨.hbm, 131, rfl⟩
abbrev main_v53 : Ref sig .tc := ⟨.hbm, 132, rfl⟩
abbrev main_cst_17 : Ref sig .tc := ⟨.hbm, 133, rfl⟩
abbrev main_v54 : Ref sig .tc := ⟨.hbm, 134, rfl⟩
abbrev main_v55 : Ref sig .tc := ⟨.hbm, 135, rfl⟩
abbrev main_cst_18 : Ref sig .tc := ⟨.hbm, 136, rfl⟩
abbrev main_v56 : Ref sig .tc := ⟨.hbm, 137, rfl⟩
abbrev main_v57 : Ref sig .tc := ⟨.hbm, 138, rfl⟩
abbrev main_cst_19 : Ref sig .tc := ⟨.hbm, 139, rfl⟩
abbrev main_v58 : Ref sig .tc := ⟨.hbm, 140, rfl⟩
abbrev main_v59 : Ref sig .tc := ⟨.hbm, 141, rfl⟩
abbrev main_cst_20 : Ref sig .tc := ⟨.hbm, 142, rfl⟩
abbrev main_v60 : Ref sig .tc := ⟨.hbm, 143, rfl⟩
abbrev main_v61 : Ref sig .tc := ⟨.hbm, 144, rfl⟩
abbrev main_cst_21 : Ref sig .tc := ⟨.hbm, 145, rfl⟩
abbrev main_v62 : Ref sig .tc := ⟨.hbm, 146, rfl⟩
abbrev main_v63 : Ref sig .tc := ⟨.hbm, 147, rfl⟩
abbrev main_cst_22 : Ref sig .tc := ⟨.hbm, 148, rfl⟩
abbrev main_v64 : Ref sig .tc := ⟨.hbm, 149, rfl⟩
abbrev main_v65 : Ref sig .tc := ⟨.hbm, 150, rfl⟩
abbrev main_cst_23 : Ref sig .tc := ⟨.hbm, 151, rfl⟩
abbrev main_v66 : Ref sig .tc := ⟨.hbm, 152, rfl⟩
abbrev main_v67 : Ref sig .tc := ⟨.hbm, 153, rfl⟩
abbrev main_cst_24 : Ref sig .tc := ⟨.hbm, 154, rfl⟩
abbrev main_v68 : Ref sig .tc := ⟨.hbm, 155, rfl⟩
abbrev main_v69 : Ref sig .tc := ⟨.hbm, 156, rfl⟩
abbrev main_cst_25 : Ref sig .tc := ⟨.hbm, 157, rfl⟩
abbrev main_v70 : Ref sig .tc := ⟨.hbm, 158, rfl⟩
abbrev main_v71 : Ref sig .tc := ⟨.hbm, 159, rfl⟩
abbrev main_cst_26 : Ref sig .tc := ⟨.hbm, 160, rfl⟩
abbrev main_cst_27 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_call8_v3 : Ref sig .tc := ⟨.hbm, 165, rfl⟩
abbrev main_call8_v4 : Ref sig .tc := ⟨.hbm, 166, rfl⟩
abbrev main_v72 : Ref sig .tc := ⟨.hbm, 167, rfl⟩
abbrev main_cst_28 : Ref sig .tc := ⟨.hbm, 168, rfl⟩
abbrev main_cst_29 : Ref sig .tc := ⟨.hbm, 169, rfl⟩
abbrev main_call9_v0 : Ref sig .tc := ⟨.hbm, 170, rfl⟩
abbrev main_call9_v1 : Ref sig .tc := ⟨.hbm, 171, rfl⟩
abbrev main_call9_v2 : Ref sig .tc := ⟨.hbm, 172, rfl⟩
abbrev main_call9_v3 : Ref sig .tc := ⟨.hbm, 173, rfl⟩
abbrev main_call9_v4 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_c_30 : Ref sig .tc := ⟨.hbm, 180, rfl⟩
abbrev main_v78 : Ref sig .tc := ⟨.hbm, 181, rfl⟩
abbrev main_v79 : Ref sig .tc := ⟨.hbm, 182, rfl⟩
abbrev main_c_31 : Ref sig .tc := ⟨.hbm, 183, rfl⟩
abbrev main_v80 : Ref sig .tc := ⟨.hbm, 184, rfl⟩
abbrev main_v81 : Ref sig .tc := ⟨.hbm, 185, rfl⟩
abbrev main_c_32 : Ref sig .tc := ⟨.hbm, 186, rfl⟩
abbrev main_v82 : Ref sig .tc := ⟨.hbm, 187, rfl⟩
abbrev main_v83 : Ref sig .tc := ⟨.hbm, 188, rfl⟩
abbrev main_c_33 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_c_34 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_c_35 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_c_36 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_c_37 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_cst_38 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x3_S8x1_0_1 : S8x3.Slices ![0, 1] S8x1
  shapeCasts_S8x1_S8 : S8x1.ShapeCasts S8
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S32768 : S_.BroadcastsInDim S32768 (![] : Fin 0 → Fin S32768.rank)
  bcast_S_S8 : S_.BroadcastsInDim S8 (![] : Fin 0 → Fin S8.rank)
  bcast_S8_S8x1_0 : S8.BroadcastsInDim S8x1 (![0] : Fin 1 → Fin S8x1.rank)
  reduceWindows_S32768_S32768_w32768s1p32767_0 : S32768.ReduceWindows (![32768] : Fin 1 → Nat) ![1] ![32767] ![0] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  slices_S8x3_S8x1_0_2 : S8x3.Slices ![0, 2] S8x1
  concatenates_S32768x1_S32768x1_S32768x1_S32768x1_S32768x1_S32768x1_S32768x1_S32768x1_S32768x8_d1 : Shape.Concatenates [S32768x1, S32768x1, S32768x1, S32768x1, S32768x1, S32768x1, S32768x1, S32768x1] S32768x8 1
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  shapeCasts_S512x8_S512x8 : S512x8.ShapeCasts S512x8
  slices_S512x8_o0_0_S512x1 : S512x8.Slices ![0, 0] S512x1
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_4_S512x1 : S512x8.Slices ![0, 4] S512x1
  slices_S512x8_o0_5_S512x1 : S512x8.Slices ![0, 5] S512x1
  iota_S512x576_d1_w32 : S512x576.Iotas .tc 32 [1]
  shapeCasts_S512x1_S512x1 : S512x1.ShapeCasts S512x1
  broadcasts_S512x1_S512x576 : S512x1.Broadcasts S512x576
  inb_S576x1536_S576x1536_0_0 : ∀ a, (![0, 0] : Fin 2 → Nat) a + S576x1536.size a ≤ S576x1536.size a
  h_S576x1536 : 0 < S576x1536.numel
  shapeCasts_S576x1536_S576x1536 : S576x1536.ShapeCasts S576x1536
  inb_S512x1536_S512x1536_0_0 : ∀ a, (![0, 0] : Fin 2 → Nat) a + S512x1536.size a ≤ S512x1536.size a
  h_S512x1536 : 0 < S512x1536.numel
  scatter_S8_S1_S__n_0_0_0_wf : ScatterDims.WF S8 S1 S_ [] [0] [0] 0
  scatter_S32768_S8x1_S8_n_0_0_1_wf : ScatterDims.WF S32768 S8x1 S8 [] [0] [0] 1
  gather_S8_S32768x1_S32768_n_0_n_n_0_1_1_wf : GatherDims.WF S8 S32768x1 S32768 [] [0] [] [0] [] 1 ![1]
  dot_S512x576_S576x1536_S512x1536_1_0_0_1_n_n_wf : DotDims.WF S512x576 S576x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S32768x1536.size a
  hwx0_0 : ∀ i : grid0.Coords, EltTy.bits .f32 = 32 ∨ (Rect.block (s := S32768x1536) S512x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x1536.size a ≤ S576x1536.size a
  hwx0_1 : ∀ i : grid0.Coords, EltTy.bits .bf16 = 32 ∨ (Rect.block (s := S576x1536) S576x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S32768x8.size a
  hwx0_2 : ∀ i : grid0.Coords, EltTy.bits .f32 = 32 ∨ (Rect.block (s := S32768x8) S512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S32768x1536.size a
  hwx0_3 : ∀ i : grid0.Coords, EltTy.bits .f32 = 32 ∨ (Rect.block (s := S32768x1536) S512x1536.size (cc0_transform_3 i) (hinb0_3 i)).WholeWords (EltTy.packing .f32)

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S32768_S8x1_S8_n_0_0_1 : ScatterDims S32768 S8x1 S8 where
  updateWindowDims := []
  insertedWindowDims := [0]
  scatterDimsToOperandDims := [0]
  indexVectorDim := 1
  wf := scatter_S32768_S8x1_S8_n_0_0_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def dot_S512x576_S576x1536_S512x1536_1_0_0_1_n_n : DotDims S512x576 S576x1536 S512x1536 where
  lhsContracting := [1]
  rhsContracting := [0]
  lhsNonContracting := [0]
  rhsNonContracting := [1]
  lhsBatch := []
  rhsBatch := []
  wf := dot_S512x576_S576x1536_S512x1536_1_0_0_1_n_n_wf

abbrev win0_0 : Pipeline.Window sig grid0 :=
  Pipeline.Window.ofSpec (Memref.whole main_arg0) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v116) S576x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v115) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v117) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S32768x1536 : Shape := ⟨2, ![32768, 1536]⟩
abbrev S576x1536 : Shape := ⟨2, ![576, 1536]⟩
abbrev S8 : Shape := ⟨1, ![8]⟩
abbrev S8x3 : Shape := ⟨2, ![8, 3]⟩
abbrev S32768 : Shape := ⟨1, ![32768]⟩
abbrev S24x24x1536 : Shape := ⟨3, ![24, 24, 1536]⟩
abbrev S1536x24x24 : Shape := ⟨3, ![1536, 24, 24]⟩
abbrev S8x1 : Shape := ⟨2, ![8, 1]⟩
abbrev S1 : Shape := ⟨1, ![1]⟩
abbrev S7 : Shape := ⟨1, ![7]⟩
abbrev S_ : Shape := ⟨0, ![]⟩
abbrev S32768x1 : Shape := ⟨2, ![32768, 1]⟩
abbrev S1x1 : Shape := ⟨2, ![1, 1]⟩
abbrev S32768x2 : Shape := ⟨2, ![32768, 2]⟩
abbrev S1536x32768 : Shape := ⟨2, ![1536, 32768]⟩
abbrev S1x32768 : Shape := ⟨2, ![1, 32768]⟩

abbrev nBuf : Space → Nat
  | .hbm => 303
  | .vmem => 0
  | .smem => 0
  | _ => 0

abbrev hbmTy0_0 (i : Nat) : BufTy := match i % 128 with
  | 0 => ⟨S32768x1536, .f32⟩
  | 1 => ⟨S576x1536, .f32⟩
  | 2 => ⟨S8, .i32⟩
  | 3 => ⟨S8x3, .i32⟩
  | 4 => ⟨S32768, .i32⟩
  | 5 => ⟨S32768, .i32⟩
  | 6 => ⟨S24x24x1536, .f32⟩
  | 7 => ⟨S1536x24x24, .f32⟩
  | 8 => ⟨S8x1, .i32⟩
  | 9 => ⟨S8, .i32⟩
  | 10 => ⟨S1, .i32⟩
  | 11 => ⟨S7, .i32⟩
  | 12 => ⟨S8, .i32⟩
  | 13 => ⟨S_, .i32⟩
  | 14 => ⟨S1, .i32⟩
  | 15 => ⟨S_, .i32⟩
  | 16 => ⟨S8, .i32⟩
  | 17 => ⟨S_, .i32⟩
  | 18 => ⟨S_, .i32⟩
  | 19 => ⟨S8, .i32⟩
  | 20 => ⟨S_, .i32⟩
  | 21 => ⟨S32768, .i32⟩
  | 22 => ⟨S_, .i32⟩
  | 23 => ⟨S8, .i32⟩
  | 24 => ⟨S8, .i1⟩
  | 25 => ⟨S_, .i32⟩
  | 26 => ⟨S8, .i32⟩
  | 27 => ⟨S8, .i32⟩
  | 28 => ⟨S8, .i32⟩
  | 29 => ⟨S8x1, .i32⟩
  | 30 => ⟨S_, .i32⟩
  | 31 => ⟨S8, .i32⟩
  | 32 => ⟨S32768, .i32⟩
  | 33 => ⟨S_, .i32⟩
  | 34 => ⟨S_, .i32⟩
  | 35 => ⟨S32768, .i32⟩
  | 36 => ⟨S_, .i32⟩
  | 37 => ⟨S32768, .i32⟩
  | 38 => ⟨S32768, .i32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .i32⟩
  | 46 => ⟨S32768x1, .i32⟩
  | 47 => ⟨S1, .i32⟩
  | 48 => ⟨S_, .i32⟩
  | 49 => ⟨S32768x1, .i32⟩
  | 50 => ⟨S32768x1, .i1⟩
  | 51 => ⟨S1x1, .i32⟩
  | 52 => ⟨S32768x1, .i32⟩
  | 53 => ⟨S32768x1, .i1⟩
  | 54 => ⟨S32768x1, .i1⟩
  | 55 => ⟨S_, .i1⟩
  | 56 => ⟨S32768, .i1⟩
  | 57 => ⟨S32768, .i32⟩
  | 58 => ⟨S_, .i32⟩
  | 59 => ⟨S32768, .i32⟩
  | 60 => ⟨S32768, .i32⟩
  | 61 => ⟨S32768, .f32⟩
  | 62 => ⟨S8x1, .i32⟩
  | 63 => ⟨S8, .i32⟩
  | 64 => ⟨S1, .i32⟩
  | 65 => ⟨S7, .i32⟩
  | 66 => ⟨S8, .i32⟩
  | 67 => ⟨S_, .i32⟩
  | 68 => ⟨S1, .i32⟩
  | 69 => ⟨S_, .i32⟩
  | 70 => ⟨S8, .i32⟩
  | 71 => ⟨S_, .i32⟩
  | 72 => ⟨S_, .i32⟩
  | 73 => ⟨S8, .i32⟩
  | 74 => ⟨S_, .i32⟩
  | 75 => ⟨S32768, .i32⟩
  | 76 => ⟨S_, .i32⟩
  | 77 => ⟨S8, .i32⟩
  | 78 => ⟨S8, .i1⟩
  | 79 => ⟨S_, .i32⟩
  | 80 => ⟨S8, .i32⟩
  | 81 => ⟨S8, .i32⟩
  | 82 => ⟨S8, .i32⟩
  | 83 => ⟨S8x1, .i32⟩
  | 84 => ⟨S_, .i32⟩
  | 85 => ⟨S8, .i32⟩
  | 86 => ⟨S32768, .i32⟩
  | 87 => ⟨S_, .i32⟩
  | 88 => ⟨S_, .i32⟩
  | 89 => ⟨S32768, .i32⟩
  | 90 => ⟨S_, .i32⟩
  | 91 => ⟨S32768, .i32⟩
  | 92 => ⟨S32768, .i32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S32768x1, .i32⟩
  | 101 => ⟨S1, .i32⟩
  | 102 => ⟨S_, .i32⟩
  | 103 => ⟨S32768x1, .i32⟩
  | 104 => ⟨S32768x1, .i1⟩
  | 105 => ⟨S1x1, .i32⟩
  | 106 => ⟨S32768x1, .i32⟩
  | 107 => ⟨S32768x1, .i1⟩
  | 108 => ⟨S32768x1, .i1⟩
  | 109 => ⟨S_, .i1⟩
  | 110 => ⟨S32768, .i1⟩
  | 111 => ⟨S32768, .i32⟩
  | 112 => ⟨S_, .i32⟩
  | 113 => ⟨S32768, .i32⟩
  | 114 => ⟨S32768, .i32⟩
  | 115 => ⟨S32768, .f32⟩
  | 116 => ⟨S32768, .f32⟩
  | 117 => ⟨S_, .f32⟩
  | 118 => ⟨S32768, .f32⟩
  | 119 => ⟨S32768, .f32⟩
  | 120 => ⟨S32768, .f32⟩
  | 121 => ⟨S_, .f32⟩
  | 122 => ⟨S32768, .f32⟩
  | 123 => ⟨S32768, .f32⟩
  | 124 => ⟨S_, .f32⟩
  | 125 => ⟨S32768, .f32⟩
  | 126 => ⟨S32768, .f32⟩
  | 127 => ⟨S32768, .f32⟩
  | _ => ⟨S32768x1536, .f32⟩

abbrev hbmTy0_1 (i : Nat) : BufTy := match i % 128 with
  | 0 => ⟨S_, .f32⟩
  | 1 => ⟨S32768, .f32⟩
  | 2 => ⟨S32768, .f32⟩
  | 3 => ⟨S32768, .f32⟩
  | 4 => ⟨S_, .f32⟩
  | 5 => ⟨S32768, .f32⟩
  | 6 => ⟨S32768, .f32⟩
  | 7 => ⟨S_, .f32⟩
  | 8 => ⟨S32768, .f32⟩
  | 9 => ⟨S32768, .f32⟩
  | 10 => ⟨S_, .f32⟩
  | 11 => ⟨S32768, .f32⟩
  | 12 => ⟨S32768, .f32⟩
  | 13 => ⟨S_, .f32⟩
  | 14 => ⟨S32768, .f32⟩
  | 15 => ⟨S32768, .f32⟩
  | 16 => ⟨S_, .f32⟩
  | 17 => ⟨S32768, .f32⟩
  | 18 => ⟨S32768, .f32⟩
  | 19 => ⟨S_, .f32⟩
  | 20 => ⟨S32768, .f32⟩
  | 21 => ⟨S32768, .f32⟩
  | 22 => ⟨S_, .f32⟩
  | 23 => ⟨S32768, .f32⟩
  | 24 => ⟨S32768, .f32⟩
  | 25 => ⟨S_, .f32⟩
  | 26 => ⟨S32768, .f32⟩
  | 27 => ⟨S32768, .f32⟩
  | 28 => ⟨S_, .f32⟩
  | 29 => ⟨S32768, .f32⟩
  | 30 => ⟨S32768, .f32⟩
  | 31 => ⟨S_, .f32⟩
  | 32 => ⟨S32768, .f32⟩
  | 33 => ⟨S32768, .f32⟩
  | 34 => ⟨S_, .f32⟩
  | 35 => ⟨S_, .f32⟩
  | 36 => ⟨S_, .f32⟩
  | 37 => ⟨S32768, .f32⟩
  | 38 => ⟨S32768, .f32⟩
  | 39 => ⟨S_, .f32⟩
  | 40 => ⟨S32768, .f32⟩
  | 41 => ⟨S32768, .f32⟩
  | 42 => ⟨S_, .f32⟩
  | 43 => ⟨S_, .f32⟩
  | 44 => ⟨S_, .f32⟩
  | 45 => ⟨S32768, .f32⟩
  | 46 => ⟨S32768, .f32⟩
  | 47 => ⟨S_, .f32⟩
  | 48 => ⟨S32768, .f32⟩
  | 49 => ⟨S32768, .f32⟩
  | 50 => ⟨S32768, .f32⟩
  | 51 => ⟨S32768, .i32⟩
  | 52 => ⟨S32768, .f32⟩
  | 53 => ⟨S32768, .i32⟩
  | 54 => ⟨S_, .i32⟩
  | 55 => ⟨S32768, .i32⟩
  | 56 => ⟨S32768, .i32⟩
  | 57 => ⟨S_, .i32⟩
  | 58 => ⟨S32768, .i32⟩
  | 59 => ⟨S32768, .i32⟩
  | 60 => ⟨S_, .i32⟩
  | 61 => ⟨S32768, .i32⟩
  | 62 => ⟨S32768, .i32⟩
  | 63 => ⟨S_, .i32⟩
  | 64 => ⟨S32768, .i32⟩
  | 65 => ⟨S32768, .i32⟩
  | 66 => ⟨S32768, .f32⟩
  | 67 => ⟨S32768, .f32⟩
  | 68 => ⟨S32768, .f32⟩
  | 69 => ⟨S32768, .f32⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S32768x1, .i32⟩
  | 85 => ⟨S32768x1, .i32⟩
  | 86 => ⟨S32768x2, .i32⟩
  | 87 => ⟨S1536x32768, .f32⟩
  | 88 => ⟨S_, .i32⟩
  | 89 => ⟨S32768, .i32⟩
  | 90 => ⟨S32768, .i1⟩
  | 91 => ⟨S_, .i32⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x1, .i32⟩
  | 104 => ⟨S32768x2, .i32⟩
  | 105 => ⟨S1536x32768, .f32⟩
  | 106 => ⟨S_, .i32⟩
  | 107 => ⟨S32768, .i32⟩
  | 108 => ⟨S32768, .i1⟩
  | 109 => ⟨S_, .i32⟩
  | 110 => ⟨S32768, .i32⟩
  | 111 => ⟨S32768, .i32⟩
  | 112 => ⟨S32768, .i32⟩
  | 113 => ⟨S_, .i32⟩
  | 114 => ⟨S32768, .i32⟩
  | 115 => ⟨S32768, .i1⟩
  | 116 => ⟨S_, .i32⟩
  | 117 => ⟨S32768, .i32⟩
  | 118 => ⟨S32768, .i32⟩
  | 119 => ⟨S32768, .i32⟩
  | 120 => ⟨S32768x1, .i32⟩
  | 121 => ⟨S32768x1, .i32⟩
  | 122 => ⟨S32768x2, .i32⟩
  | 123 => ⟨S1536x32768, .f32⟩
  | 124 => ⟨S_, .i32⟩
  | 125 => ⟨S32768, .i32⟩
  | 126 => ⟨S32768, .i1⟩
  | 127 => ⟨S_, .i32⟩
  | _ => ⟨S32768x1536, .f32⟩

abbrev hbmTy0_2 (i : Nat) : BufTy := match i % 128 with
  | 0 => ⟨S32768, .i32⟩
  | 1 => ⟨S32768, .i32⟩
  | 2 => ⟨S32768, .i32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S32768x1, .i32⟩
  | 12 => ⟨S32768x2, .i32⟩
  | 13 => ⟨S1536x32768, .f32⟩
  | 14 => ⟨S_, .f32⟩
  | 15 => ⟨S32768, .f32⟩
  | 16 => ⟨S32768, .f32⟩
  | 17 => ⟨S_, .f32⟩
  | 18 => ⟨S32768, .f32⟩
  | 19 => ⟨S32768, .f32⟩
  | 20 => ⟨S32768, .f32⟩
  | 21 => ⟨S1x32768, .f32⟩
  | 22 => ⟨S1536x32768, .f32⟩
  | 23 => ⟨S1536x32768, .f32⟩
  | 24 => ⟨S_, .f32⟩
  | 25 => ⟨S32768, .f32⟩
  | 26 => ⟨S32768, .f32⟩
  | 27 => ⟨S32768, .f32⟩
  | 28 => ⟨S1x32768, .f32⟩
  | 29 => ⟨S1536x32768, .f32⟩
  | 30 => ⟨S1536x32768, .f32⟩
  | 31 => ⟨S1536x32768, .f32⟩
  | 32 => ⟨S_, .f32⟩
  | 33 => ⟨S32768, .f32⟩
  | 34 => ⟨S32768, .f32⟩
  | 35 => ⟨S32768, .f32⟩
  | 36 => ⟨S1x32768, .f32⟩
  | 37 => ⟨S1536x32768, .f32⟩
  | 38 => ⟨S1536x32768, .f32⟩
  | 39 => ⟨S1536x32768, .f32⟩
  | 40 => ⟨S32768, .f32⟩
  | 41 => ⟨S1x32768, .f32⟩
  | 42 => ⟨S1536x32768, .f32⟩
  | 43 => ⟨S1536x32768, .f32⟩
  | 44 => ⟨S1536x32768, .f32⟩
  | 45 => ⟨S32768x1536, .f32⟩
  | 46 => ⟨S32768x1536, .f32⟩
  | _ => ⟨S32768x1536, .f32⟩

abbrev hbmTy (i : Nat) : BufTy := match i / 128 with
  | 0 => hbmTy0_0 i
  | 1 => hbmTy0_1 i
  | 2 => hbmTy0_2 i
  | _ => ⟨S32768x1536, .f32⟩

abbrev bufTy : (tb : Table) → Fin (tcTables nBuf tb) → BufTy
  | .hbm, ⟨i, _⟩ => hbmTy i
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_call1_call0_c : Ref sig .tc := ⟨.hbm, 17, rfl⟩
abbrev main_call1_call0_v0 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_call2_call0_c : Ref sig .tc := ⟨.hbm, 33, rfl⟩
abbrev main_call2_call0_v0 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_c_4 : Ref sig .tc := ⟨.hbm, 58, rfl⟩
abbrev main_call3_v14 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call4_v0 : Ref sig .tc := ⟨.hbm, 64, rfl⟩
abbrev main_call4_v1 : Ref sig .tc := ⟨.hbm, 65, rfl⟩
abbrev main_v24 : Ref sig .tc := ⟨.hbm, 66, rfl⟩
abbrev main_c_6 : Ref sig .tc := ⟨.hbm, 67, rfl⟩
abbrev main_v25 : Ref sig .tc := ⟨.hbm, 68, rfl⟩
abbrev main_c_7 : Ref sig .tc := ⟨.hbm, 69, rfl⟩
abbrev main_v26 : Ref sig .tc := ⟨.hbm, 70, rfl⟩
abbrev main_call5_call0_c : Ref sig .tc := ⟨.hbm, 71, rfl⟩
abbrev main_call5_call0_v0 : Ref sig .tc := ⟨.hbm, 72, rfl⟩
abbrev main_v27 : Ref sig .tc := ⟨.hbm, 73, rfl⟩
abbrev main_c_8 : Ref sig .tc := ⟨.hbm, 74, rfl⟩
abbrev main_v28 : Ref sig .tc := ⟨.hbm, 75, rfl⟩
abbrev main_c_9 : Ref sig .tc := ⟨.hbm, 76, rfl⟩
abbrev main_v29 : Ref sig .tc := ⟨.hbm, 77, rfl⟩
abbrev main_v30 : Ref sig .tc := ⟨.hbm, 78, rfl⟩
abbrev main_c_10 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_11 : Ref sig .tc := ⟨.hbm, 84, rfl⟩
abbrev main_v35 : Ref sig .tc := ⟨.hbm, 85, rfl⟩
abbrev main_v36 : Ref sig .tc := ⟨.hbm, 86, rfl⟩
abbrev main_call6_call0_c : Ref sig .tc := ⟨.hbm, 87, rfl⟩
abbrev main_call6_call0_v0 : Ref sig .tc := ⟨.hbm, 88, rfl⟩
abbrev main_v37 : Ref sig .tc := ⟨.hbm, 89, rfl⟩
abbrev main_c_12 : Ref sig .tc := ⟨.hbm, 90, rfl⟩
abbrev main_v38 : Ref sig .tc := ⟨.hbm, 91, rfl⟩
abbrev main_v39 : Ref sig .tc := ⟨.hbm, 92, rfl⟩
abbrev main_call7_c : Ref sig .tc := ⟨.hbm, 93, rfl⟩
abbrev main_call7_v0 : Ref sig .tc := ⟨.hbm, 94, rfl⟩
abbrev main_call7_v1 : Ref sig .tc := ⟨.hbm, 95, rfl⟩
abbrev main_call7_c_0 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_call7_v5 : Ref sig .tc := ⟨.hbm, 100, rfl⟩
abbrev main_call7_c_1 : Ref sig .tc := ⟨.hbm, 101, rfl⟩
abbrev main_call7_c_2 : Ref sig .tc := ⟨.hbm, 102, rfl⟩
abbrev main_call7_v6 : Ref sig .tc := ⟨.hbm, 103, rfl⟩
abbrev main_call7_v7 : Ref sig .tc := ⟨.hbm, 104, rfl⟩
abbrev main_call7_v8 : Ref sig .tc := ⟨.hbm, 105, rfl⟩
abbrev main_call7_v9 : Ref sig .tc := ⟨.hbm, 106, rfl⟩
abbrev main_call7_v10 : Ref sig .tc := ⟨.hbm, 107, rfl⟩
abbrev main_call7_v11 : Ref sig .tc := ⟨.hbm, 108, rfl⟩
abbrev main_call7_c_3 : Ref sig .tc := ⟨.hbm, 109, rfl⟩
abbrev main_call7_v12 : Ref sig .tc := ⟨.hbm, 110, rfl⟩
abbrev main_call7_v13 : Ref sig .tc := ⟨.hbm, 111, rfl⟩
abbrev main_call7_c_4 : Ref sig .tc := ⟨.hbm, 112, rfl⟩
abbrev main_call7_v14 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_cst_13 : Ref sig .tc := ⟨.hbm, 121, rfl⟩
abbrev main_v46 : Ref sig .tc := ⟨.hbm, 122, rfl⟩
abbrev main_v47 : Ref sig .tc := ⟨.hbm, 123, rfl⟩
abbrev main_cst_14 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_cst_15 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_cst_16 : Ref sig .tc := ⟨.hbm, 132, rfl⟩
abbrev main_v54 : Ref sig .tc := ⟨.hbm, 133, rfl⟩
abbrev main_v55 : Ref sig .tc := ⟨.hbm, 134, rfl⟩
abbrev main_cst_17 : Ref sig .tc := ⟨.hbm, 135, rfl⟩
abbrev main_v56 : Ref sig .tc := ⟨.hbm, 136, rfl⟩
abbrev main_v57 : Ref sig .tc := ⟨.hbm, 137, rfl⟩
abbrev main_cst_18 : Ref sig .tc := ⟨.hbm, 138, rfl⟩
abbrev main_v58 : Ref sig .tc := ⟨.hbm, 139, rfl⟩
abbrev main_v59 : Ref sig .tc := ⟨.hbm, 140, rfl⟩
abbrev main_cst_19 : Ref sig .tc := ⟨.hbm, 141, rfl⟩
abbrev main_v60 : Ref sig .tc := ⟨.hbm, 142, rfl⟩
abbrev main_v61 : Ref sig .tc := ⟨.hbm, 143, rfl⟩
abbrev main_cst_20 : Ref sig .tc := ⟨.hbm, 144, rfl⟩
abbrev main_v62 : Ref sig .tc := ⟨.hbm, 145, rfl⟩
abbrev main_v63 : Ref sig .tc := ⟨.hbm, 146, rfl⟩
abbrev main_cst_21 : Ref sig .tc := ⟨.hbm, 147, rfl⟩
abbrev main_v64 : Ref sig .tc := ⟨.hbm, 148, rfl⟩
abbrev main_v65 : Ref sig .tc := ⟨.hbm, 149, rfl⟩
abbrev main_cst_22 : Ref sig .tc := ⟨.hbm, 150, rfl⟩
abbrev main_v66 : Ref sig .tc := ⟨.hbm, 151, rfl⟩
abbrev main_v67 : Ref sig .tc := ⟨.hbm, 152, rfl⟩
abbrev main_cst_23 : Ref sig .tc := ⟨.hbm, 153, rfl⟩
abbrev main_v68 : Ref sig .tc := ⟨.hbm, 154, rfl⟩
abbrev main_v69 : Ref sig .tc := ⟨.hbm, 155, rfl⟩
abbrev main_cst_24 : Ref sig .tc := ⟨.hbm, 156, rfl⟩
abbrev main_v70 : Ref sig .tc := ⟨.hbm, 157, rfl⟩
abbrev main_v71 : Ref sig .tc := ⟨.hbm, 158, rfl⟩
abbrev main_cst_25 : Ref sig .tc := ⟨.hbm, 159, rfl⟩
abbrev main_v72 : Ref sig .tc := ⟨.hbm, 160, rfl⟩
abbrev main_v73 : Ref sig .tc := ⟨.hbm, 161, rfl⟩
abbrev main_cst_26 : Ref sig .tc := ⟨.hbm, 162, rfl⟩
abbrev main_cst_27 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_v74 : Ref sig .tc := ⟨.hbm, 169, rfl⟩
abbrev main_cst_28 : Ref sig .tc := ⟨.hbm, 170, rfl⟩
abbrev main_cst_29 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_call9_v3 : Ref sig .tc := ⟨.hbm, 175, rfl⟩
abbrev main_call9_v4 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_c_30 : Ref sig .tc := ⟨.hbm, 182, rfl⟩
abbrev main_v80 : Ref sig .tc := ⟨.hbm, 183, rfl⟩
abbrev main_v81 : Ref sig .tc := ⟨.hbm, 184, rfl⟩
abbrev main_c_31 : Ref sig .tc := ⟨.hbm, 185, rfl⟩
abbrev main_v82 : Ref sig .tc := ⟨.hbm, 186, rfl⟩
abbrev main_v83 : Ref sig .tc := ⟨.hbm, 187, rfl⟩
abbrev main_c_32 : Ref sig .tc := ⟨.hbm, 188, rfl⟩
abbrev main_v84 : Ref sig .tc := ⟨.hbm, 189, rfl⟩
abbrev main_v85 : Ref sig .tc := ⟨.hbm, 190, rfl⟩
abbrev main_c_33 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_c_34 : Ref sig .tc := ⟨.hbm, 198, rfl⟩
abbrev main_v92 : Ref sig .tc := ⟨.hbm, 199, rfl⟩
abbrev main_v93 : Ref sig .tc := ⟨.hbm, 200, rfl⟩
abbrev main_c_35 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_c_36 : Ref sig .tc := ⟨.hbm, 205, rfl⟩
abbrev main_v97 : Ref sig .tc := ⟨.hbm, 206, rfl⟩
abbrev main_v98 : Ref sig .tc := ⟨.hbm, 207, rfl⟩
abbrev main_c_37 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_c_38 : Ref sig .tc := ⟨.hbm, 216, rfl⟩
abbrev main_v106 : Ref sig .tc := ⟨.hbm, 217, rfl⟩
abbrev main_v107 : Ref sig .tc := ⟨.hbm, 218, rfl⟩
abbrev main_c_39 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_c_40 : Ref sig .tc := ⟨.hbm, 223, rfl⟩
abbrev main_v111 : Ref sig .tc := ⟨.hbm, 224, rfl⟩
abbrev main_v112 : Ref sig .tc := ⟨.hbm, 225, rfl⟩
abbrev main_c_41 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_c_42 : Ref sig .tc := ⟨.hbm, 234, rfl⟩
abbrev main_v120 : Ref sig .tc := ⟨.hbm, 235, rfl⟩
abbrev main_v121 : Ref sig .tc := ⟨.hbm, 236, rfl⟩
abbrev main_c_43 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_c_44 : Ref sig .tc := ⟨.hbm, 241, rfl⟩
abbrev main_v125 : Ref sig .tc := ⟨.hbm, 242, rfl⟩
abbrev main_v126 : Ref sig .tc := ⟨.hbm, 243, rfl⟩
abbrev main_c_45 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_c_46 : Ref sig .tc := ⟨.hbm, 252, rfl⟩
abbrev main_v134 : Ref sig .tc := ⟨.hbm, 253, rfl⟩
abbrev main_v135 : Ref sig .tc := ⟨.hbm, 254, rfl⟩
abbrev main_c_47 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_c_48 : Ref sig .tc := ⟨.hbm, 259, rfl⟩
abbrev main_v139 : Ref sig .tc := ⟨.hbm, 260, rfl⟩
abbrev main_v140 : Ref sig .tc := ⟨.hbm, 261, rfl⟩
abbrev main_c_49 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_cst_50 : Ref sig .tc := ⟨.hbm, 270, rfl⟩
abbrev main_v148 : Ref sig .tc := ⟨.hbm, 271, rfl⟩
abbrev main_v149 : Ref sig .tc := ⟨.hbm, 272, rfl⟩
abbrev main_cst_51 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_cst_52 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_53 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩

abbrev nD : Nat := 1
abbrev τ : Topo := Topo.v7x

variable {F : FTy → Type} [FloatOps F]

class Facts₀ : Prop where
  shapeCasts_S576x1536_S24x24x1536 : S576x1536.ShapeCasts S24x24x1536
  transposes_S24x24x1536_S1536x24x24_2_0_1 : S24x24x1536.Transposes [2, 0, 1] S1536x24x24
  slices_S8x3_S8x1_0_1 : S8x3.Slices ![0, 1] S8x1
  shapeCasts_S8x1_S8 : S8x1.ShapeCasts S8
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S32768 : S_.BroadcastsInDim S32768 (![] : Fin 0 → Fin S32768.rank)
  bcast_S_S8 : S_.BroadcastsInDim S8 (![] : Fin 0 → Fin S8.rank)
  bcast_S8_S8x1_0 : S8.BroadcastsInDim S8x1 (![0] : Fin 1 → Fin S8x1.rank)
  reduceWindows_S32768_S32768_w32768s1p32767_0 : S32768.ReduceWindows (![32768] : Fin 1 → Nat) ![1] ![32767] ![0] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  slices_S8x3_S8x1_0_2 : S8x3.Slices ![0, 2] S8x1
  concatenates_S32768x1_S32768x1_S32768x2_d1 : Shape.Concatenates [S32768x1, S32768x1] S32768x2 1
  bcast_S32768_S1x32768_1 : S32768.BroadcastsInDim S1x32768 (![1] : Fin 1 → Fin S1x32768.rank)
  bcast_S1x32768_S1536x32768_0_1 : S1x32768.BroadcastsInDim S1536x32768 (![0, 1] : Fin 2 → Fin S1536x32768.rank)
  transposes_S1536x32768_S32768x1536_1_0 : S1536x32768.Transposes [1, 0] S32768x1536
  scatter_S8_S1_S__n_0_0_0_wf : ScatterDims.WF S8 S1 S_ [] [0] [0] 0
  scatter_S32768_S8x1_S8_n_0_0_1_wf : ScatterDims.WF S32768 S8x1 S8 [] [0] [0] 1
  gather_S8_S32768x1_S32768_n_0_n_n_0_1_1_wf : GatherDims.WF S8 S32768x1 S32768 [] [0] [] [0] [] 1 ![1]
  gather_S1536x24x24_S32768x2_S1536x32768_0_12_n_n_12_1_153611_wf : GatherDims.WF S1536x24x24 S32768x2 S1536x32768 [0] [1, 2] [] [1, 2] [] 1 ![1536, 1, 1]

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S32768_S8x1_S8_n_0_0_1 : ScatterDims S32768 S8x1 S8 where
  updateWindowDims := []
  insertedWindowDims := [0]
  scatterDimsToOperandDims := [0]
  indexVectorDim := 1
  wf := scatter_S32768_S8x1_S8_n_0_0_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def gather_S1536x24x24_S32768x2_S1536x32768_0_12_n_n_12_1_153611 : GatherDims S1536x24x24 S32768x2 S1536x32768 where
  offsetDims := [0]
  collapsedSliceDims := [1, 2]
  operandBatchingDims := []
  startIndicesBatchingDims := []
  startIndexMap := [1, 2]
  indexVectorDim := 1
  sliceSizes := ![1536, 1, 1]
  wf := gather_S1536x24x24_S32768x2_S1536x32768_0_12_n_n_12_1_153611_wf

class Facts : Prop extends Facts₀ where

variable [Facts]
-- ==== Proof.TileBits.lean ====
/-
  The launch of the embedding kernel, read as a run: 64 tiles of 512 tokens. At tile t the body is handed the tile's
  512 x 1536 block of the embeddings, the whole 576 x 1536 position table and the tile's 512 x 8 block of packed
  per-token numbers, and stores ONE 512 x 1536 block: the embeddings' block plus the product of a 512 x 576 matrix of
  interpolation weights (built from the packed block alone) with the table. Nothing is carried from tile to tile, so
  the output array ends tile by tile at that stored block, and every argument array ends as it was: the lines of
  @main before the launch only compute new arrays (the packed numbers, the table in its narrow format, a copy of
  the embeddings that the launch overwrites). Stated for any float instance.
-/
import proofs.«124072_j15384572854614_2_alg».proof.Proof.Gen.Kernel.Launch
import proofs.«124072_j15384572854614_2_alg».proof.Proof.Gen.Kernel.Skeleton
import proofs.«124072_j15384572854614_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The lines of @main before the launch, in order: twenty-one stretches. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- What each array holds when the launch begins: the launch memory after those lines. -/
abbrev V (c : Dev nD) (b : Ref sig .tc) : Buf (Elt F) ((c : Thread nD τ).loc b) :=
  StableHlo.after (List.flatten (pre (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is those lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (pre (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The host lines before the launch compute new arrays only: argument 0 is found as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 1 is found as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 2 is found as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 3 is found as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 4 is found as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 5 is found as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))

/-! ## The blocks the body is handed -/

/-- Window w's block at tile t, cut from its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds the tile's block whether or not the tile fetches it (the table is
    fetched once, at the first tile, and its block index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rEmb : Rect S512x1536 := Rect.unit (s := S512x1536) ![0, 0] S512x1536.size inb_S512x1536_S512x1536_0_0
abbrev rTab : Rect S576x1536 := Rect.unit (s := S576x1536) ![0, 0] S576x1536.size inb_S576x1536_S576x1536_0_0
abbrev rPack : Rect S512x8 := Rect.unit (s := S512x8) ![0, 0] S512x8.size inb_S512x8_S512x8_0_0

/-- The stored block, from the three blocks handed in: embeddings x0, table x1, packed numbers x2. -/
def stored (x0 : Vec F S512x1536 .f32) (x1 : Vec F S576x1536 .bf16) (x2 : Vec F S512x8 .f32) : FVec F S512x1536 .f32 :=
  k0_pay1 (iota .tc S512x576 32 [1] iota_S512x576_d1_w32) (k0_pay5 (View.ld x2 rPack)) (k0_pay6 (View.ld x2 rPack)) (k0_pay7 (View.ld x2 rPack))
    (k0_pay8 (View.ld x2 rPack)) (k0_pay9 (View.ld x2 rPack)) (View.ld x1 rTab) (View.ld x0 rEmb)

/-- The output buffer after the body: its one store, through the whole block. -/
def out3 (x0 : Vec F S512x1536 .f32) (x1 : Vec F S576x1536 .bf16) (x2 : Vec F S512x8 .f32) : Vec F S512x1536 .f32 :=
  View.canon [⟨rEmb, stored x0 x1 x2⟩]

theorem cover3 (p0 : Vec F S512x1536 .f32) (y : S512x1536.Idx) :
    ∃ pc ∈ ([⟨rEmb, p0⟩] : List (View.Piece (Elt F) S512x1536 .f32)), y ∈ pc.1.set :=
  View.cover_of_tiled [⟨rEmb, p0⟩] S512x1536.size (by rfl) y

/-! ## The body's triple -/

set_option maxHeartbeats 1000000 in
/-- The body on whole buffers, the inputs' at x0, x1, x2 and the output's at anything, runs to the end leaving the
    inputs as they were and the output at out3. -/
theorem sound_kernel (c : Dev nD) (E : Set ℕ) (i : grid0.Coords) (arg1 : Memref sig .tc .vmem S512x1536 .f32) (harg1 : arg1.IsWhole) (arg2 : Memref sig .tc .vmem S576x1536 .bf16) (harg2 : arg2.IsWhole) (arg3 : Memref sig .tc .vmem S512x8 .f32) (harg3 : arg3.IsWhole) (arg4 : Memref sig .tc .vmem S512x1536 .f32) (harg4 : arg4.IsWhole)
    (x0 : Vec F S512x1536 .f32) (x1 : Vec F S576x1536 .bf16) (x2 : Vec F S512x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data of the launch -/

/-- Arrays as the launch finds them; after the body at tile t each input buffer at its block and the output buffer
    at out3 of the three blocks; no invariant beyond the unused scoped buffers; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main ends, with each of the launch's four
    arrays at what the write-backs make of the proof data and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Tile

end
-- ==== Proof.TileIdeal.lean ====
/-
  The launch of the embedding kernel, read as a run: 64 tiles of 512 tokens. At tile t the body is handed the tile's
  512 x 1536 block of the embeddings, the whole 576 x 1536 position table and the tile's 512 x 8 block of packed
  per-token numbers, and stores ONE 512 x 1536 block: the embeddings' block plus the product of a 512 x 576 matrix of
  interpolation weights (built from the packed block alone) with the table. Nothing is carried from tile to tile, so
  the output array ends tile by tile at that stored block, and every argument array ends as it was: the lines of
  @main before the launch only compute new arrays (the packed numbers, the table in its narrow format, a copy of
  the embeddings that the launch overwrites). Stated for any float instance.
-/
import proofs.«124072_j15384572854614_2_alg».proof.Proof.Gen.KernelIdeal.Launch
import proofs.«124072_j15384572854614_2_alg».proof.Proof.Gen.KernelIdeal.Skeleton
import proofs.«124072_j15384572854614_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The lines of @main before the launch, in order: twenty-one stretches. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- What each array holds when the launch begins: the launch memory after those lines. -/
abbrev V (c : Dev nD) (b : Ref sig .tc) : Buf (Elt F) ((c : Thread nD τ).loc b) :=
  StableHlo.after (List.flatten (pre (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is those lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (pre (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The host lines before the launch compute new arrays only: argument 0 is found as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 1 is found as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 2 is found as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 3 is found as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 4 is found as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))
/-- The host lines before the launch compute new arrays only: argument 5 is found as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))

/-! ## The blocks the body is handed -/

/-- Window w's block at tile t, cut from its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds the tile's block whether or not the tile fetches it (the table is
    fetched once, at the first tile, and its block index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rEmb : Rect S512x1536 := Rect.unit (s := S512x1536) ![0, 0] S512x1536.size inb_S512x1536_S512x1536_0_0
abbrev rTab : Rect S576x1536 := Rect.unit (s := S576x1536) ![0, 0] S576x1536.size inb_S576x1536_S576x1536_0_0
abbrev rPack : Rect S512x8 := Rect.unit (s := S512x8) ![0, 0] S512x8.size inb_S512x8_S512x8_0_0

/-- The stored block, from the three blocks handed in: embeddings x0, table x1, packed numbers x2. -/
def stored (x0 : Vec F S512x1536 .f32) (x1 : Vec F S576x1536 .bf16) (x2 : Vec F S512x8 .f32) : FVec F S512x1536 .f32 :=
  k0_pay1 (iota .tc S512x576 32 [1] iota_S512x576_d1_w32) (k0_pay5 (View.ld x2 rPack)) (k0_pay6 (View.ld x2 rPack)) (k0_pay7 (View.ld x2 rPack))
    (k0_pay8 (View.ld x2 rPack)) (k0_pay9 (View.ld x2 rPack)) (View.ld x1 rTab) (View.ld x0 rEmb)

/-- The output buffer after the body: its one store, through the whole block. -/
def out3 (x0 : Vec F S512x1536 .f32) (x1 : Vec F S576x1536 .bf16) (x2 : Vec F S512x8 .f32) : Vec F S512x1536 .f32 :=
  View.canon [⟨rEmb, stored x0 x1 x2⟩]

theorem cover3 (p0 : Vec F S512x1536 .f32) (y : S512x1536.Idx) :
    ∃ pc ∈ ([⟨rEmb, p0⟩] : List (View.Piece (Elt F) S512x1536 .f32)), y ∈ pc.1.set :=
  View.cover_of_tiled [⟨rEmb, p0⟩] S512x1536.size (by rfl) y

/-! ## The body's triple -/

set_option maxHeartbeats 1000000 in
/-- The body on whole buffers, the inputs' at x0, x1, x2 and the output's at anything, runs to the end leaving the
    inputs as they were and the output at out3. -/
theorem sound_kernel (c : Dev nD) (E : Set ℕ) (i : grid0.Coords) (arg1 : Memref sig .tc .vmem S512x1536 .f32) (harg1 : arg1.IsWhole) (arg2 : Memref sig .tc .vmem S576x1536 .bf16) (harg2 : arg2.IsWhole) (arg3 : Memref sig .tc .vmem S512x8 .f32) (harg3 : arg3.IsWhole) (arg4 : Memref sig .tc .vmem S512x1536 .f32) (harg4 : arg4.IsWhole)
    (x0 : Vec F S512x1536 .f32) (x1 : Vec F S576x1536 .bf16) (x2 : Vec F S512x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data of the launch -/

/-- Arrays as the launch finds them; after the body at tile t each input buffer at its block and the output buffer
    at out3 of the three blocks; no invariant beyond the unused scoped buffers; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main ends, with each of the launch's four
    arrays at what the write-backs make of the proof data and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Tile

end
-- ==== Proof.RowSpec.lean ====
/-
  One token's output row. A token carries eight packed numbers p: four table positions p 0 .. p 3 (whole numbers
  held in the float format), the two interpolation fractions p 4 (along x) and p 5 (along y), and two unused zeros.
  Its weight at table place k is the sum of the four corner weights (1-p5)(1-p4), (1-p5)p4, p5(1-p4), p5 p4, each
  counted where k is that corner's position — corners that coincide at the border add up. The output entry is the
  embedding entry plus the weights summed against the table's column.
-/
import Idealize.ShloMosaic.PureOps.Ideal
import Idealize.ShloMosaic.PureOps.Ideal.Laws

noncomputable section

namespace Cert.RowSpec

open Idealize.ShloMosaic
open scoped BigOperators

/-- The float word of one, and the narrow-format zero, as the kernel writes them. -/
abbrev one : EReal := Ideal.ofBits .f32 0x3F800000#32
abbrev zeroH : EReal := Ideal.ofBits .bf16 0x0000#16

/-- A corner's weight w, counted at place k when k is the corner's position pos (a float holding a whole number). -/
def pick (k : Fin 576) (pos w : EReal) : EReal :=
  Scalar.select (IntOp.cmpi .eq (BitVec.ofNat 32 k.val) (Ideal.fptosi 32 pos)) w zeroH

/-- The token's weight at place k. -/
def wrow (p : Fin 8 → EReal) (k : Fin 576) : EReal :=
  ((pick k (p 0) ((one - p 5) * (one - p 4)) + pick k (p 1) ((one - p 5) * p 4)) + pick k (p 2) (p 5 * (one - p 4)))
    + pick k (p 3) (p 5 * p 4)

/-- The output entry: embedding entry e, packed numbers p, table column T. -/
def rowval (e : EReal) (p : Fin 8 → EReal) (T : Fin 576 → EReal) : EReal := e + ∑ k : Fin 576, wrow p k * T k

end Cert.RowSpec

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.TileValue.lean ====
import proofs.«124072_j15384572854614_2_alg».proof.Proof.TileIdeal
import proofs.«124072_j15384572854614_2_alg».proof.Proof.RowSpec
import proofs.«124072_j15384572854614_2_alg».proof.Proof.LibDot
import proofs.«124072_j15384572854614_2_alg».proof.Proof.LibColumnLayout
import Idealize.ShloMosaic.Lib.ValueIdx
import Idealize.ShloMosaic.Lib.Pipeline.Value
import Idealize.ShloMosaic.PureOps.Ideal.Laws

set_option maxRecDepth 16384

noncomputable section

namespace Cert.KernelIdeal.TileValue

open Cert.KernelIdeal Cert.KernelIdeal.Gen Cert.KernelIdeal.Tile Cert.RowSpec
open Idealize.ShloMosaic Idealize.ShloMosaic.TcCoe Idealize.ShloMosaic.ValueIdx Idealize.SL.Sem
open scoped BigOperators

theorem hz : (![0, 0] : Fin 2 → Nat) = fun _ => 0 := funext fun a => by fin_cases a <;> rfl

/-- Column o of the packed block at row y. -/
theorem col_apply (x2 : Vec Ideal S512x8 .f32) (o : ℕ) (ho : o < 8) (hs : S512x8.Slices ![0, o] S512x1) (y : Fin 512) :
    extractStridedSlice S512x1 ![0, o] (k0_pay2 (F := Ideal) x2) hs (ix2 y (0 : Fin 1)) = x2 (ix2 y (⟨o, ho⟩ : Fin 8)) := by
  unfold k0_pay2
  rw [shapeCast_self]
  exact extractStridedSlice_apply ![0, o] x2 hs (ix2 y (0 : Fin 1)) (ix2 y (⟨o, ho⟩ : Fin 8)) fun ax => by
    match ax with
    | ⟨0, _⟩ => show y.val = 0 + y.val; omega
    | ⟨1, _⟩ => show o = o + 0; omega

theorem pay3_apply (x2 : Vec Ideal S512x8 .f32) (y : Fin 512) : k0_pay3 (F := Ideal) x2 (ix2 y (0 : Fin 1)) = x2 (ix2 y (4 : Fin 8)) := by
  unfold k0_pay3
  exact col_apply x2 4 (by omega) _ y

theorem pay4_apply (x2 : Vec Ideal S512x8 .f32) (y : Fin 512) : k0_pay4 (F := Ideal) x2 (ix2 y (0 : Fin 1)) = x2 (ix2 y (5 : Fin 8)) := by
  unfold k0_pay4
  exact col_apply x2 5 (by omega) _ y

theorem iota_apply (y : Fin 512) (k : Fin 576) :
    iota .tc S512x576 32 [1] iota_S512x576_d1_w32 (ix2 y k) = BitVec.ofNat 32 k.val := by
  show BitVec.ofNat 32 (0 * 576 + k.val) = _
  rw [Nat.zero_mul, Nat.zero_add]

theorem pay9_apply (x2 : Vec Ideal S512x8 .f32) (y : Fin 512) (k : Fin 576) :
    k0_pay9 (F := Ideal) x2 (ix2 y k) = Ideal.fptosi 32 (x2 (ix2 y (3 : Fin 8))) := by
  unfold k0_pay9
  refine (Cert.LibColumnLayout.broadcastTo_a1_ab_apply _ _ y k).trans ?_
  show Ideal.fptosi 32 (extractStridedSlice S512x1 ![0, 3] (k0_pay2 (F := Ideal) x2) _ (ix2 y (0 : Fin 1))) = _
  rw [col_apply x2 3 (by omega) _ y]
  rfl

theorem pay5_apply (x2 : Vec Ideal S512x8 .f32) (y : Fin 512) (k : Fin 576) :
    k0_pay5 (F := Ideal) x2 (ix2 y k) = x2 (ix2 y (5 : Fin 8)) * x2 (ix2 y (4 : Fin 8)) := by
  unfold k0_pay5
  refine (Cert.LibColumnLayout.broadcastTo_a1_ab_apply _ _ y k).trans ?_
  rw [shapeCast_self]
  show k0_pay4 (F := Ideal) x2 (ix2 y (0 : Fin 1)) * k0_pay3 (F := Ideal) x2 (ix2 y (0 : Fin 1)) = _
  rw [pay3_apply, pay4_apply]

theorem pay6_apply (x2 : Vec Ideal S512x8 .f32) (y : Fin 512) (k : Fin 576) :
    k0_pay6 (F := Ideal) x2 (ix2 y k) = pick k (x2 (ix2 y (0 : Fin 8))) ((one - x2 (ix2 y (5 : Fin 8))) * (one - x2 (ix2 y (4 : Fin 8)))) := by
  unfold k0_pay6 pick
  show Scalar.select (IntOp.cmpi .eq (iota .tc S512x576 32 [1] iota_S512x576_d1_w32 (ix2 y k)) (broadcastTo S512x576 (fptosi 32 (extractStridedSlice S512x1 ![0, 0] (k0_pay2 (F := Ideal) x2) _)) _ (ix2 y k)))
      (broadcastTo S512x576 (shapeCast S512x1 (truncf .bf16 (mulf (subf (broadcast S512x1 (Scalar.ofBits (F := Ideal) .f32 0x3F800000#32)) (k0_pay4 (F := Ideal) x2)) (subf (broadcast S512x1 (Scalar.ofBits (F := Ideal) .f32 0x3F800000#32)) (k0_pay3 (F := Ideal) x2))) _) _) _ (ix2 y k))
      (Scalar.ofBits (F := Ideal) .bf16 0x0000#16) = _
  rw [iota_apply, Cert.LibColumnLayout.broadcastTo_a1_ab_apply, Cert.LibColumnLayout.broadcastTo_a1_ab_apply, shapeCast_self]
  show Scalar.select (IntOp.cmpi .eq (BitVec.ofNat 32 k.val) (Ideal.fptosi 32 (extractStridedSlice S512x1 ![0, 0] (k0_pay2 (F := Ideal) x2) _ (ix2 y (0 : Fin 1)))))
      ((one - k0_pay4 (F := Ideal) x2 (ix2 y (0 : Fin 1))) * (one - k0_pay3 (F := Ideal) x2 (ix2 y (0 : Fin 1)))) zeroH = _
  rw [col_apply x2 0 (by omega) _ y, pay3_apply, pay4_apply]
  rfl

theorem pay7_apply (x2 : Vec Ideal S512x8 .f32) (y : Fin 512) (k : Fin 576) :
    k0_pay7 (F := Ideal) x2 (ix2 y k) = pick k (x2 (ix2 y (1 : Fin 8))) ((one - x2 (ix2 y (5 : Fin 8))) * x2 (ix2 y (4 : Fin 8))) := by
  unfold k0_pay7 pick
  show Scalar.select (IntOp.cmpi .eq (iota .tc S512x576 32 [1] iota_S512x576_d1_w32 (ix2 y k)) (broadcastTo S512x576 (fptosi 32 (extractStridedSlice S512x1 ![0, 1] (k0_pay2 (F := Ideal) x2) _)) _ (ix2 y k)))
      (broadcastTo S512x576 (shapeCast S512x1 (truncf .bf16 (mulf (subf (broadcast S512x1 (Scalar.ofBits (F := Ideal) .f32 0x3F800000#32)) (k0_pay4 (F := Ideal) x2)) (k0_pay3 (F := Ideal) x2)) _) _) _ (ix2 y k))
      (Scalar.ofBits (F := Ideal) .bf16 0x0000#16) = _
  rw [iota_apply, Cert.LibColumnLayout.broadcastTo_a1_ab_apply, Cert.LibColumnLayout.broadcastTo_a1_ab_apply, shapeCast_self]
  show Scalar.select (IntOp.cmpi .eq (BitVec.ofNat 32 k.val) (Ideal.fptosi 32 (extractStridedSlice S512x1 ![0, 1] (k0_pay2 (F := Ideal) x2) _ (ix2 y (0 : Fin 1)))))
      ((one - k0_pay4 (F := Ideal) x2 (ix2 y (0 : Fin 1))) * k0_pay3 (F := Ideal) x2 (ix2 y (0 : Fin 1))) zeroH = _
  rw [col_apply x2 1 (by omega) _ y, pay3_apply, pay4_apply]
  rfl

theorem pay8_apply (x2 : Vec Ideal S512x8 .f32) (y : Fin 512) (k : Fin 576) :
    k0_pay8 (F := Ideal) x2 (ix2 y k) = pick k (x2 (ix2 y (2 : Fin 8))) (x2 (ix2 y (5 : Fin 8)) * (one - x2 (ix2 y (4 : Fin 8)))) := by
  unfold k0_pay8 pick
  show Scalar.select (IntOp.cmpi .eq (iota .tc S512x576 32 [1] iota_S512x576_d1_w32 (ix2 y k)) (broadcastTo S512x576 (fptosi 32 (extractStridedSlice S512x1 ![0, 2] (k0_pay2 (F := Ideal) x2) _)) _ (ix2 y k)))
      (broadcastTo S512x576 (shapeCast S512x1 (truncf .bf16 (mulf (k0_pay4 (F := Ideal) x2) (subf (broadcast S512x1 (Scalar.ofBits (F := Ideal) .f32 0x3F800000#32)) (k0_pay3 (F := Ideal) x2))) _) _) _ (ix2 y k))
      (Scalar.ofBits (F := Ideal) .bf16 0x0000#16) = _
  rw [iota_apply, Cert.LibColumnLayout.broadcastTo_a1_ab_apply, Cert.LibColumnLayout.broadcastTo_a1_ab_apply, shapeCast_self]
  show Scalar.select (IntOp.cmpi .eq (BitVec.ofNat 32 k.val) (Ideal.fptosi 32 (extractStridedSlice S512x1 ![0, 2] (k0_pay2 (F := Ideal) x2) _ (ix2 y (0 : Fin 1)))))
      (k0_pay4 (F := Ideal) x2 (ix2 y (0 : Fin 1)) * (one - k0_pay3 (F := Ideal) x2 (ix2 y (0 : Fin 1)))) zeroH = _
  rw [col_apply x2 2 (by omega) _ y, pay3_apply, pay4_apply]
  rfl

/-- THE STORED ENTRY: row y, column q of the stored block is the row value of the embeddings' entry, the packed
    row and the table's column q. -/
theorem stored_apply (x0 : Vec Ideal S512x1536 .f32) (x1 : Vec Ideal S576x1536 .bf16) (x2 : Vec Ideal S512x8 .f32) (y : Fin 512) (q : Fin 1536) :
    stored (F := Ideal) x0 x1 x2 (ix2 y q) = rowval (x0 (ix2 y q)) (fun j => x2 (ix2 y j)) (fun k => x1 (ix2 k q)) := by
  unfold stored k0_pay1 rowval
  rw [View.ld_unit_zero (S := S512x1536) hz, View.ld_unit_zero (S := S576x1536) hz, View.ld_unit_zero (S := S512x8) hz, shapeCast_self]
  show x0 (ix2 y q) + FloatOps.matmul dot_S512x576_S576x1536_S512x1536_1_0_0_1_n_n none
      (addf (addf (addf (k0_pay6 (F := Ideal) x2) (k0_pay7 (F := Ideal) x2)) (k0_pay8 (F := Ideal) x2))
        (select (cmpi .eq (iota .tc S512x576 32 [1] iota_S512x576_d1_w32) (k0_pay9 (F := Ideal) x2)) (k0_pay5 (F := Ideal) x2) (broadcast S512x576 (Scalar.ofBits (F := Ideal) .bf16 0x0000#16))))
      x1 (constant S512x1536 .f32 0x00000000#32) (ix2 y q) = _
  rw [Cert.LibDot.matmul_zero_apply dot_S512x576_S576x1536_S512x1536_1_0_0_1_n_n rfl rfl (fun _ _ => rfl) (fun _ _ => rfl) (fun _ _ => rfl) (fun _ _ => rfl) none _ x1 y q]
  congr 1
  refine Finset.sum_congr rfl fun k _ => ?_
  congr 1
  show ((k0_pay6 (F := Ideal) x2 (ix2 y k) + k0_pay7 (F := Ideal) x2 (ix2 y k)) + k0_pay8 (F := Ideal) x2 (ix2 y k))
      + Scalar.select (IntOp.cmpi .eq (iota .tc S512x576 32 [1] iota_S512x576_d1_w32 (ix2 y k)) (k0_pay9 (F := Ideal) x2 (ix2 y k))) (k0_pay5 (F := Ideal) x2 (ix2 y k)) zeroH = wrow _ k
  rw [pay6_apply, pay7_apply, pay8_apply, pay9_apply, pay5_apply, iota_apply]
  rfl

/-! ## From the tiles to the array -/

/-- The output array as ONE function of the three arrays the launch reads: entry (r, q) is the row value of the
    embeddings' entry, token r's packed row and the table's column q. -/
def G (E : S32768x1536.Idx → EReal) (T : S576x1536.Idx → EReal) (Pk : S32768x8.Idx → EReal) : S32768x1536.Idx → EReal :=
  fun i => rowval (E i) (fun j => Pk (ix2 (i 0) j)) (fun k => T (ix2 k (i 1)))

variable (m : (ℓ : Loc nD τ sig) → Buf (Elt Ideal) ℓ) (ρ : Dev nD → PrngReg)

/-- The printed index maps over the 64 tiles: tile t reads and writes row block t; the table's block never moves. -/
theorem idx_facts : ∀ t : Fin cfg0.N, win0_0.index t (0 : Fin 2) = win0_3.index t (0 : Fin 2)
    ∧ win0_0.index t (1 : Fin 2) = 0 ∧ win0_3.index t (1 : Fin 2) = 0
    ∧ win0_2.index t (0 : Fin 2) = win0_3.index t (0 : Fin 2) ∧ win0_2.index t (1 : Fin 2) = 0
    ∧ win0_1.index t (0 : Fin 2) = 0 ∧ win0_1.index t (1 : Fin 2) = 0
    ∧ win0_3.index t (0 : Fin 2) ≤ 63 :=
  (by decide +kernel : ∀ t : Fin grid0.N, _)

theorem idx_onto : ∀ q0 : Fin 64, ∃ t : Fin cfg0.N, win0_3.index t = ![q0.val, 0] :=
  (by decide +kernel : ∀ q0 : Fin 64, ∃ t : Fin grid0.N, win0_3.index t = ![q0.val, 0])

/-- The stored block is a block of G, once each handed-in block is known to be the matching block of its array:
    stated over plain arrays and an embedding of block indices into array indices. -/
theorem stored_is_block (E : S32768x1536.Idx → EReal) (T : S576x1536.Idx → EReal) (Pk : S32768x8.Idx → EReal)
    (x0 : Vec Ideal S512x1536 .f32) (x1 : Vec Ideal S576x1536 .bf16) (x2 : Vec Ideal S512x8 .f32)
    (emb : S512x1536.Idx → S32768x1536.Idx)
    (h0 : ∀ (y : Fin 512) (q : Fin 1536), x0 (ix2 y q) = E (emb (ix2 y q)))
    (h2 : ∀ (y : Fin 512) (q : Fin 1536) (j' : Fin 8), x2 (ix2 y j') = Pk (ix2 (emb (ix2 y q) 0) j'))
    (h1 : ∀ (y : Fin 512) (q : Fin 1536) (k : Fin 576), x1 (ix2 k q) = T (ix2 k (emb (ix2 y q) 1))) :
    stored (F := Ideal) x0 x1 x2 = fun j => G E T Pk (emb j) := by
  funext j
  obtain ⟨y, q, rfl⟩ : ∃ (y : Fin 512) (q : Fin 1536), j = ix2 y q := ⟨j 0, j 1, eq_ix2 j⟩
  rw [stored_apply, h0 y q]
  unfold G
  congr 1
  · funext j'; exact h2 y q j'
  · funext k; exact h1 y q k

/-- The embeddings' block at tile t sits where the output's block does. -/
theorem blk0_read (c : Dev nD) (t : Fin cfg0.N) (y : Fin 512) (q : Fin 1536) :
    iblk m c 0 t (ix2 y q) = V m c main_arg0 (((cfg0.win 3).blk t).view.emb (ix2 y q)) := by
  obtain ⟨e0, e1, e2, e3, e4, e5, e6, e7⟩ := idx_facts t
  show V m c main_arg0 (((cfg0.win 0).blk t).view.emb (ix2 y q)) = _
  refine congrArg (V m c main_arg0) (funext fun a => Fin.ext ?_)
  match a with
  | ⟨0, _⟩ => show win0_0.index t (0 : Fin 2) * 512 + 1 * y.val = win0_3.index t (0 : Fin 2) * 512 + 1 * y.val; omega
  | ⟨1, _⟩ => show win0_0.index t (1 : Fin 2) * 1536 + 1 * q.val = win0_3.index t (1 : Fin 2) * 1536 + 1 * q.val; omega

/-- The packed block at tile t holds the rows of the output's block. -/
theorem blk2_read (c : Dev nD) (t : Fin cfg0.N) (y : Fin 512) (q : Fin 1536) (j' : Fin 8) :
    iblk m c 2 t (ix2 y j') = V m c main_v115 (ix2 ((((cfg0.win 3).blk t).view.emb (ix2 y q)) 0) j') := by
  obtain ⟨e0, e1, e2, e3, e4, e5, e6, e7⟩ := idx_facts t
  show V m c main_v115 (((cfg0.win 2).blk t).view.emb (ix2 y j')) = _
  refine congrArg (V m c main_v115) (funext fun a => Fin.ext ?_)
  match a with
  | ⟨0, _⟩ => show win0_2.index t (0 : Fin 2) * 512 + 1 * y.val = win0_3.index t (0 : Fin 2) * 512 + 1 * y.val; omega
  | ⟨1, _⟩ => show win0_2.index t (1 : Fin 2) * 8 + 1 * j'.val = j'.val; omega

/-- The table's block is the whole table at every tile. -/
theorem blk1_read (c : Dev nD) (t : Fin cfg0.N) (y : Fin 512) (q : Fin 1536) (k : Fin 576) :
    iblk m c 1 t (ix2 k q) = V m c main_v116 (ix2 k ((((cfg0.win 3).blk t).view.emb (ix2 y q)) 1)) := by
  obtain ⟨e0, e1, e2, e3, e4, e5, e6, e7⟩ := idx_facts t
  show V m c main_v116 (((cfg0.win 1).blk t).view.emb (ix2 k q)) = _
  refine congrArg (V m c main_v116) (funext fun a => Fin.ext ?_)
  match a with
  | ⟨0, _⟩ => show win0_1.index t (0 : Fin 2) * 576 + 1 * k.val = k.val; omega
  | ⟨1, _⟩ => show win0_1.index t (1 : Fin 2) * 1536 + 1 * q.val = win0_3.index t (1 : Fin 2) * 1536 + 1 * q.val; omega

set_option maxHeartbeats 1000000 in
/-- WHAT TILE t WRITES BACK is block t of G of the arrays as the launch finds them. -/
theorem flushed_eq (c : Dev nD) (t : Fin cfg0.N) :
    (dats m 0 c).flushed 3 t = ((cfg0.win 3).blk t).view.read (Elt Ideal) (G (V m c main_arg0) (V m c main_v116) (V m c main_v115)) := by
  show (cfg0.win 3).cut (grid0.coords t) ((dats m 0 c).after 3 t) = _
  rw [after3]
  unfold out3
  rw [View.canon_unit_zero hz]
  exact stored_is_block (V m c main_arg0) (V m c main_v116) (V m c main_v115) (iblk m c 0 t) (iblk m c 1 t) (iblk m c 2 t)
    ((cfg0.win 3).blk t).view.emb (blk0_read m c t) (blk2_read m c t) (blk1_read m c t)

theorem mem_blk (t : Fin cfg0.N) (i : S32768x1536.Idx) :
    i ∈ ((cfg0.win 3).blk t).view.set ↔ ∀ a : Fin 2, win0_3.index t a * S512x1536.size a ≤ (i a).val ∧ (i a).val < win0_3.index t a * S512x1536.size a + S512x1536.size a := by
  show i ∈ ((View.whole main_v117).slice (win0_3.rect t)).set ↔ _
  rw [View.set_slice_whole, Rect.mem_set_unit]
  exact Iff.rfl

/-- Every entry of the array lies in some tile's block: row r in tile r / 512. -/
theorem cover (i : S32768x1536.Idx) : ∃ t : Fin cfg0.N, (cfg0.win 3).flush t = true ∧ i ∈ ((cfg0.win 3).blk t).view.set := by
  have hi0 : (i 0).val < 32768 := (i 0).isLt
  have hi1 : (i 1).val < 1536 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1536 ≤ (i 1).val ∧ (i 1).val < win0_3.index t (1 : Fin 2) * 1536 + 1536; omega

/-- THE OUTPUT ARRAY after the run. -/
theorem final (c : Dev nD) : (dats m 0 c).arrAt 3 cfg0.N = G (V m c main_arg0) (V m c main_v116) (V m c main_v115) :=
  (dats m 0 c).arrAt_eq_of_cover 3 (G (V m c main_arg0) (V m c main_v116) (V m c main_v115)) (fun t _ => flushed_eq m c t) cover

/-- The run, read: the result array at G of the arrays the launch finds, the arguments as they were. -/
theorem run : θ_run defs (onTc (τ := τ) (main (F := Ideal))) ⟨m, fun _ => 0, ρ⟩ fun r => ∀ c : Dev nD,
      r.2.mem ((c.tc : Thread nD τ).loc main_v117) = G (V m c main_arg0) (V m c main_v116) (V m c main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.TileValue

end
-- ==== Proof.RefRun.lean ====
import proofs.«124072_j15384572854614_2_alg».proof.Proof.Gen.ReferenceIdeal
import Idealize.ShloMosaic.Lib.StableHlo.Run

/-! The reference program's @main as a list of host operations, and its run.

@main is a straight line: every statement is one host operation, or a call of a module-local function, whose
meaning is its body run on the operands over the call's own buffers (a body may itself call). Written out with
every call's body in place, @main is a list of 297 operations; it is given in two pieces, `opsA` (up to the second
clamp) and `opsB` (the rest). `main_eq` says @main is that list run in order, `run_main` that every weakly fair
execution ends with each buffer at the list's fold over the launch contents, and `argK_eq` that no operation
writes an argument. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's first 172 operations, in order, the calls' bodies in place over the calls' own buffers: everything up to the second clamp's result. -/
abbrev opsA : List (HloOp τ sig (Elt F)) :=
  [ StableHlo.reshape main_arg1 main_v0 rfl shapeCasts_S576x1536_S24x24x1536,
    StableHlo.unary main_v0 main_v1 ((transpose S1536x24x24 [2, 0, 1] · transposes_S24x24x1536_S1536x24x24_2_0_1) : (⟨S24x24x1536, .f32⟩ : BufTy).Contents (Elt F) → (⟨S1536x24x24, .f32⟩ : BufTy).Contents (Elt F)),
    StableHlo.unary main_arg3 main_v2 ((extractStridedSlice S8x1 ![0, 1] · slices_S8x3_S8x1_0_1) : (⟨S8x3, .i32⟩ : BufTy).Contents (Elt F) → (⟨S8x1, .i32⟩ : BufTy).Contents (Elt F)),
    StableHlo.reshape main_v2 main_v3 rfl shapeCasts_S8x1_S8,
    StableHlo.TRef.unary (.of main_arg2 : StableHlo.TRef sig ⟨S8, .i32⟩) main_call0.v0 (extractStridedSlice S1 ![7] · slices_S8_S1_7),
    StableHlo.TRef.unary (.of main_arg2 : StableHlo.TRef sig ⟨S8, .i32⟩) main_call0.v1 (extractStridedSlice S7 ![0] · slices_S8_S7_0),
    StableHlo.TRef.binary main_call0.v0 main_call0.v1 main_call0.v2 (fun a b => concatenate S8 0 [⟨S1, a⟩, ⟨S7, b⟩] concatenates_S1_S7_S8_d0),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v4 main_v5 main_c_0 main_v6 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v6 : StableHlo.TRef sig ⟨S8, .i32⟩) main_call1.call0.v0 main_call1.call0.v1 (fun x v => Host.reduceWindow IntOp.addi ![8] ![1] ![7] ![0] x v reduceWindows_S8_S8_w8s1p7_0 h_S_),
    StableHlo.nullary main_c_1 (constantI S_ 32 0#32),
    StableHlo.unary main_c_1 main_v8 (broadcastInDim S32768 ![] bcast_S_S32768 : (⟨S_, .i32⟩ : BufTy).Contents (Elt F) → (⟨S32768, .i32⟩ : BufTy).Contents (Elt F)),
    StableHlo.nullary main_c_2 (constantI S_ 32 0#32),
    StableHlo.unary main_c_2 main_v9 (broadcastInDim S8 ![] bcast_S_S8 : (⟨S_, .i32⟩ : BufTy).Contents (Elt F) → (⟨S8, .i32⟩ : BufTy).Contents (Elt F)),
    StableHlo.binary main_v7 main_v9 main_v10 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 32768#32),
    StableHlo.unary main_c_3 main_v11 (broadcastInDim S8 ![] bcast_S_S8 : (⟨S_, .i32⟩ : BufTy).Contents (Elt F) → (⟨S8, .i32⟩ : BufTy).Contents (Elt F)),
    StableHlo.binary main_v7 main_v11 main_v12 (addi : (⟨S8, .i32⟩ : BufTy).Contents (Elt F) → (⟨S8, .i32⟩ : BufTy).Contents (Elt F) → (⟨S8, .i32⟩ : BufTy).Contents (Elt F)),
    StableHlo.ternary main_v10 main_v12 main_v7 main_v13 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v13 main_v14 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v15 (broadcastInDim S8 ![] bcast_S_S8 : (⟨S_, .i32⟩ : BufTy).Contents (Elt F) → (⟨S8, .i32⟩ : BufTy).Contents (Elt F)),
    StableHlo.ternary main_v8 main_v14 main_v15 main_v16 ((fun x i u => Host.scatter scatter_S32768_S8x1_S8_n_0_0_1 IntOp.addi x i u) : (⟨S32768, .i32⟩ : BufTy).Contents (Elt F) → (⟨S8x1, .i32⟩ : BufTy).Contents (Elt F) → (⟨S8, .i32⟩ : BufTy).Contents (Elt F) → (⟨S32768, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v16 : StableHlo.TRef sig ⟨S32768, .i32⟩) main_call2.call0.v0 main_call2.call0.v1 (fun x v => Host.reduceWindow IntOp.addi ![32768] ![1] ![32767] ![0] x v reduceWindows_S32768_S32768_w32768s1p32767_0 h_S_),
    StableHlo.nullary main_c_5 (constantI S_ 32 1#32),
    StableHlo.unary main_c_5 main_v18 (broadcastInDim S32768 ![] bcast_S_S32768 : (⟨S_, .i32⟩ : BufTy).Contents (Elt F) → (⟨S32768, .i32⟩ : BufTy).Contents (Elt F)),
    StableHlo.binary main_v17 main_v18 main_v19 (subi : (⟨S32768, .i32⟩ : BufTy).Contents (Elt F) → (⟨S32768, .i32⟩ : BufTy).Contents (Elt F) → (⟨S32768, .i32⟩ : BufTy).Contents (Elt F)),
    StableHlo.TRef.nullary main_call3.c (constantI S_ 32 0#32),
    StableHlo.TRef.unary main_call3.c main_call3.v0 (broadcastInDim S32768 ![] bcast_S_S32768),
    StableHlo.TRef.binary (.of main_v19 : StableHlo.TRef sig ⟨S32768, .i32⟩) main_call3.v0 main_call3.v1 (cmpi .slt),
    StableHlo.TRef.nullary main_call3.c_0 (constantI S_ 32 8#32),
    StableHlo.TRef.unary main_call3.c_0 main_call3.v2 (broadcastInDim S32768 ![] bcast_S_S32768),
    StableHlo.TRef.binary (.of main_v19 : StableHlo.TRef sig ⟨S32768, .i32⟩) main_call3.v2 main_call3.v3 addi,
    StableHlo.TRef.ternary main_call3.v1 main_call3.v3 (.of main_v19 : StableHlo.TRef sig ⟨S32768, .i32⟩) main_call3.call0.v0 select,
    StableHlo.TRef.unary main_call3.call0.v0 main_call3.v5 (broadcastInDim S32768x1 ![0] bcast_S32768_S32768x1_0),
    StableHlo.TRef.nullary main_call3.c_1 (constantI S1 32 7#32),
    StableHlo.TRef.nullary main_call3.c_2 (constantI S_ 32 0#32),
    StableHlo.TRef.unary main_call3.c_2 main_call3.v6 (broadcastInDim S32768x1 ![] bcast_S_S32768x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S32768x1 ![0, 1] bcast_S1x1_S32768x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S32768x1_S32768_d1 h_S_),
    StableHlo.TRef.binary (.of main_v3 : StableHlo.TRef sig ⟨S8, .i32⟩) main_call3.v5 main_call3.v13 (fun x i => Host.gather gather_S8_S32768x1_S32768_n_0_n_n_0_1_1 x i),
    StableHlo.TRef.nullary main_call3.c_4 (constantI S_ 32 2147483648#32),
    StableHlo.TRef.unary main_call3.c_4 main_call3.v14 (broadcastInDim S32768 ![] bcast_S_S32768),
    StableHlo.TRef.ternary main_call3.v12 main_call3.v13 main_call3.v14 main_call3.v15 select,
    StableHlo.unary main_v20 main_v21 (sitofp .f32 : (⟨S32768, .i32⟩ : BufTy).Contents (Elt F) → (⟨S32768, .f32⟩ : BufTy).Contents (Elt F)),
    StableHlo.unary main_arg3 main_v22 ((extractStridedSlice S8x1 ![0, 2] · slices_S8x3_S8x1_0_2) : (⟨S8x3, .i32⟩ : BufTy).Contents (Elt F) → (⟨S8x1, .i32⟩ : BufTy).Contents (Elt F)),
    StableHlo.reshape main_v22 main_v23 rfl shapeCasts_S8x1_S8,
    StableHlo.TRef.unary (.of main_arg2 : StableHlo.TRef sig ⟨S8, .i32⟩) main_call4.v0 (extractStridedSlice S1 ![7] · slices_S8_S1_7),
    StableHlo.TRef.unary (.of main_arg2 : StableHlo.TRef sig ⟨S8, .i32⟩) main_call4.v1 (extractStridedSlice S7 ![0] · slices_S8_S7_0),
    StableHlo.TRef.binary main_call4.v0 main_call4.v1 main_call4.v2 (fun a b => concatenate S8 0 [⟨S1, a⟩, ⟨S7, b⟩] concatenates_S1_S7_S8_d0),
    StableHlo.nullary main_c_6 (constantI S_ 32 0#32),
    StableHlo.unary main_c_6 main_v25 (broadcastInDim S1 ![] bcast_S_S1 : (⟨S_, .i32⟩ : BufTy).Contents (Elt F) → (⟨S1, .i32⟩ : BufTy).Contents (Elt F)),
    StableHlo.nullary main_c_7 (constantI S_ 32 0#32),
    StableHlo.ternary main_v24 main_v25 main_c_7 main_v26 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v26 : StableHlo.TRef sig ⟨S8, .i32⟩) main_call5.call0.v0 main_call5.call0.v1 (fun x v => Host.reduceWindow IntOp.addi ![8] ![1] ![7] ![0] x v reduceWindows_S8_S8_w8s1p7_0 h_S_),
    StableHlo.nullary main_c_8 (constantI S_ 32 0#32),
    StableHlo.unary main_c_8 main_v28 (broadcastInDim S32768 ![] bcast_S_S32768 : (⟨S_, .i32⟩ : BufTy).Contents (Elt F) → (⟨S32768, .i32⟩ : BufTy).Contents (Elt F)),
    StableHlo.nullary main_c_9 (constantI S_ 32 0#32),
    StableHlo.unary main_c_9 main_v29 (broadcastInDim S8 ![] bcast_S_S8 : (⟨S_, .i32⟩ : BufTy).Contents (Elt F) → (⟨S8, .i32⟩ : BufTy).Contents (Elt F)),
    StableHlo.binary main_v27 main_v29 main_v30 (cmpi .slt : (⟨S8, .i32⟩ : BufTy).Contents (Elt F) → (⟨S8, .i32⟩ : BufTy).Contents (Elt F) → (⟨S8, .i1⟩ : BufTy).Contents (Elt F)),
    StableHlo.nullary main_c_10 (constantI S_ 32 32768#32),
    StableHlo.unary main_c_10 main_v31 (broadcastInDim S8 ![] bcast_S_S8 : (⟨S_, .i32⟩ : BufTy).Contents (Elt F) → (⟨S8, .i32⟩ : BufTy).Contents (Elt F)),
    StableHlo.binary main_v27 main_v31 main_v32 (addi : (⟨S8, .i32⟩ : BufTy).Contents (Elt F) → (⟨S8, .i32⟩ : BufTy).Contents (Elt F) → (⟨S8, .i32⟩ : BufTy).Contents (Elt F)),
    StableHlo.ternary main_v30 main_v32 main_v27 main_v33 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v33 main_v34 (broadcastInDim S8x1 ![0] bcast_S8_S8x1_0 : (⟨S8, .i32⟩ : BufTy).Contents (Elt F) → (⟨S8x1, .i32⟩ : BufTy).Contents (Elt F)),
    StableHlo.nullary main_c_11 (constantI S_ 32 1#32),
    StableHlo.unary main_c_11 main_v35 (broadcastInDim S8 ![] bcast_S_S8 : (⟨S_, .i32⟩ : BufTy).Contents (Elt F) → (⟨S8, .i32⟩ : BufTy).Contents (Elt F)),
    StableHlo.ternary main_v28 main_v34 main_v35 main_v36 ((fun x i u => Host.scatter scatter_S32768_S8x1_S8_n_0_0_1 IntOp.addi x i u) : (⟨S32768, .i32⟩ : BufTy).Contents (Elt F) → (⟨S8x1, .i32⟩ : BufTy).Contents (Elt F) → (⟨S8, .i32⟩ : BufTy).Contents (Elt F) → (⟨S32768, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v36 : StableHlo.TRef sig ⟨S32768, .i32⟩) main_call6.call0.v0 main_call6.call0.v1 (fun x v => Host.reduceWindow IntOp.addi ![32768] ![1] ![32767] ![0] x v reduceWindows_S32768_S32768_w32768s1p32767_0 h_S_),
    StableHlo.nullary main_c_12 (constantI S_ 32 1#32),
    StableHlo.unary main_c_12 main_v38 (broadcastInDim S32768 ![] bcast_S_S32768 : (⟨S_, .i32⟩ : BufTy).Contents (Elt F) → (⟨S32768, .i32⟩ : BufTy).Contents (Elt F)),
    StableHlo.binary main_v37 main_v38 main_v39 (subi : (⟨S32768, .i32⟩ : BufTy).Contents (Elt F) → (⟨S32768, .i32⟩ : BufTy).Contents (Elt F) → (⟨S32768, .i32⟩ : BufTy).Contents (Elt F)),
    StableHlo.TRef.nullary main_call7.c (constantI S_ 32 0#32),
    StableHlo.TRef.unary main_call7.c main_call7.v0 (broadcastInDim S32768 ![] bcast_S_S32768),
    StableHlo.TRef.binary (.of main_v39 : StableHlo.TRef sig ⟨S32768, .i32⟩) main_call7.v0 main_call7.v1 (cmpi .slt),
    StableHlo.TRef.nullary main_call7.c_0 (constantI S_ 32 8#32),
    StableHlo.TRef.unary main_call7.c_0 main_call7.v2 (broadcastInDim S32768 ![] bcast_S_S32768),
    StableHlo.TRef.binary (.of main_v39 : StableHlo.TRef sig ⟨S32768, .i32⟩) main_call7.v2 main_call7.v3 addi,
    StableHlo.TRef.ternary main_call7.v1 main_call7.v3 (.of main_v39 : StableHlo.TRef sig ⟨S32768, .i32⟩) main_call7.call0.v0 select,
    StableHlo.TRef.unary main_call7.call0.v0 main_call7.v5 (broadcastInDim S32768x1 ![0] bcast_S32768_S32768x1_0),
    StableHlo.TRef.nullary main_call7.c_1 (constantI S1 32 7#32),
    StableHlo.TRef.nullary main_call7.c_2 (constantI S_ 32 0#32),
    StableHlo.TRef.unary main_call7.c_2 main_call7.v6 (broadcastInDim S32768x1 ![] bcast_S_S32768x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S32768x1 ![0, 1] bcast_S1x1_S32768x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S32768x1_S32768_d1 h_S_),
    StableHlo.TRef.binary (.of main_v23 : StableHlo.TRef sig ⟨S8, .i32⟩) main_call7.v5 main_call7.v13 (fun x i => Host.gather gather_S8_S32768x1_S32768_n_0_n_n_0_1_1 x i),
    StableHlo.TRef.nullary main_call7.c_4 (constantI S_ 32 2147483648#32),
    StableHlo.TRef.unary main_call7.c_4 main_call7.v14 (broadcastInDim S32768 ![] bcast_S_S32768),
    StableHlo.TRef.ternary main_call7.v12 main_call7.v13 main_call7.v14 main_call7.v15 select,
    StableHlo.unary main_v40 main_v41 (sitofp .f32 : (⟨S32768, .i32⟩ : BufTy).Contents (Elt F) → (⟨S32768, .f32⟩ : BufTy).Contents (Elt F)),
    StableHlo.unary main_arg5 main_v42 (sitofp .f32 : (⟨S32768, .i32⟩ : BufTy).Contents (Elt F) → (⟨S32768, .f32⟩ : BufTy).Contents (Elt F)),
    StableHlo.nullary main_cst (constant S_ .f32 0x3F000000#32),
    StableHlo.unary main_cst main_v43 (broadcastInDim S32768 ![] bcast_S_S32768 : (⟨S_, .f32⟩ : BufTy).Contents (Elt F) → (⟨S32768, .f32⟩ : BufTy).Contents (Elt F)),
    StableHlo.binary main_v42 main_v43 main_v44 (addf : (⟨S32768, .f32⟩ : BufTy).Contents (Elt F) → (⟨S32768, .f32⟩ : BufTy).Contents (Elt F) → (⟨S32768, .f32⟩ : BufTy).Contents (Elt F)),
    StableHlo.binary main_v44 main_v41 main_v45 (Host.divf : (⟨S32768, .f32⟩ : BufTy).Contents (Elt F) → (⟨S32768, .f32⟩ : BufTy).Contents (Elt F) → (⟨S32768, .f32⟩ : BufTy).Contents (Elt F)),
    StableHlo.nullary main_cst_13 (constant S_ .f32 0x40000000#32),
    StableHlo.unary main_cst_13 main_v46 (broadcastInDim S32768 ![] bcast_S_S32768 : (⟨S_, .f32⟩ : BufTy).Contents (Elt F) → (⟨S32768, .f32⟩ : BufTy).Contents (Elt F)),
    StableHlo.binary main_v45 main_v46 main_v47 (mulf : (⟨S32768, .f32⟩ : BufTy).Contents (Elt F) → (⟨S32768, .f32⟩ : BufTy).Contents (Elt F) → (⟨S32768, .f32⟩ : BufTy).Contents (Elt F)),
    StableHlo.nullary main_cst_14 (constant S_ .f32 0x3F800000#32),
    StableHlo.unary main_cst_14 main_v48 (broadcastInDim S32768 ![] bcast_S_S32768 : (⟨S_, .f32⟩ : BufTy).Contents (Elt F) → (⟨S32768, .f32⟩ : BufTy).Contents (Elt F)),
    StableHlo.binary main_v47 main_v48 main_v49 (subf : (⟨S32768, .f32⟩ : BufTy).Contents (Elt F) → (⟨S32768, .f32⟩ : BufTy).Contents (Elt F) → (⟨S32768, .f32⟩ : BufTy).Contents (Elt F)),
    StableHlo.unary main_arg4 main_v50 (sitofp .f32 : (⟨S32768, .i32⟩ : BufTy).Contents (Elt F) → (⟨S32768, .f32⟩ : BufTy).Contents (Elt F)),
    StableHlo.nullary main_cst_15 (constant S_ .f32 0x3F000000#32),
    StableHlo.unary main_cst_15 main_v51 (broadcastInDim S32768 ![] bcast_S_S32768 : (⟨S_, .f32⟩ : BufTy).Contents (Elt F) → (⟨S32768, .f32⟩ : BufTy).Contents (Elt F)),
    StableHlo.binary main_v50 main_v51 main_v52 (addf : (⟨S32768, .f32⟩ : BufTy).Contents (Elt F) → (⟨S32768, .f32⟩ : BufTy).Contents (Elt F) → (⟨S32768, .f32⟩ : BufTy).Contents (Elt F)),
    StableHlo.binary main_v52 main_v21 main_v53 (Host.divf : (⟨S32768, .f32⟩ : BufTy).Contents (Elt F) → (⟨S32768, .f32⟩ : BufTy).Contents (Elt F) → (⟨S32768, .f32⟩ : BufTy).Contents (Elt F)),
    StableHlo.nullary main_cst_16 (constant S_ .f32 0x40000000#32),
    StableHlo.unary main_cst_16 main_v54 (broadcastInDim S32768 ![] bcast_S_S32768 : (⟨S_, .f32⟩ : BufTy).Contents (Elt F) → (⟨S32768, .f32⟩ : BufTy).Contents (Elt F)),
    StableHlo.binary main_v53 main_v54 main_v55 (mulf : (⟨S32768, .f32⟩ : BufTy).Contents (Elt F) → (⟨S32768, .f32⟩ : BufTy).Contents (Elt F) → (⟨S32768, .f32⟩ : BufTy).Contents (Elt F)),
    StableHlo.nullary main_cst_17 (constant S_ .f32 0x3F800000#32),
    StableHlo.unary main_cst_17 main_v56 (broadcastInDim S32768 ![] bcast_S_S32768 : (⟨S_, .f32⟩ : BufTy).Contents (Elt F) → (⟨S32768, .f32⟩ : BufTy).Contents (Elt F)),
    StableHlo.binary main_v55 main_v56 main_v57 (subf : (⟨S32768, .f32⟩ : BufTy).Contents (Elt F) → (⟨S32768, .f32⟩ : BufTy).Contents (Elt F) → (⟨S32768, .f32⟩ : BufTy).Contents (Elt F)),
    StableHlo.nullary main_cst_18 (constant S_ .f32 0x3F800000#32),
    StableHlo.unary main_cst_18 main_v58 (broadcastInDim S32768 ![] bcast_S_S32768 : (⟨S_, .f32⟩ : BufTy).Contents (Elt F) → (⟨S32768, .f32⟩ : BufTy).Contents (Elt F)),
    StableHlo.binary main_v49 main_v58 main_v59 (addf : (⟨S32768, .f32⟩ : BufTy).Contents (Elt F) → (⟨S32768, .f32⟩ : BufTy).Contents (Elt F) → (⟨S32768, .f32⟩ : BufTy).Contents (Elt F)),
    StableHlo.nullary main_cst_19 (constant S_ .f32 0x41C00000#32),
    StableHlo.unary main_cst_19 main_v60 (broadcastInDim S32768 ![] bcast_S_S32768 : (⟨S_, .f32⟩ : BufTy).Contents (Elt F) → (⟨S32768, .f32⟩ : BufTy).Contents (Elt F)),
    StableHlo.binary main_v59 main_v60 main_v61 (mulf : (⟨S32768, .f32⟩ : BufTy).Contents (Elt F) → (⟨S32768, .f32⟩ : BufTy).Contents (Elt F) → (⟨S32768, .f32⟩ : BufTy).Contents (Elt F)),
    StableHlo.nullary main_cst_20 (constant S_ .f32 0x3F800000#32),
    StableHlo.unary main_cst_20 main_v62 (broadcastInDim S32768 ![] bcast_S_S32768 : (⟨S_, .f32⟩ : BufTy).Contents (Elt F) → (⟨S32768, .f32⟩ : BufTy).Contents (Elt F)),
    StableHlo.binary main_v61 main_v62 main_v63 (subf : (⟨S32768, .f32⟩ : BufTy).Contents (Elt F) → (⟨S32768, .f32⟩ : BufTy).Contents (Elt F) → (⟨S32768, .f32⟩ : BufTy).Contents (Elt F)),
    StableHlo.nullary main_cst_21 (constant S_ .f32 0x3F000000#32),
    StableHlo.unary main_cst_21 main_v64 (broadcastInDim S32768 ![] bcast_S_S32768 : (⟨S_, .f32⟩ : BufTy).Contents (Elt F) → (⟨S32768, .f32⟩ : BufTy).Contents (Elt F)),
    StableHlo.binary main_v63 main_v64 main_v65 (mulf : (⟨S32768, .f32⟩ : BufTy).Contents (Elt F) → (⟨S32768, .f32⟩ : BufTy).Contents (Elt F) → (⟨S32768, .f32⟩ : BufTy).Contents (Elt F)),
    StableHlo.nullary main_cst_22 (constant S_ .f32 0x3F800000#32),
    StableHlo.unary main_cst_22 main_v66 (broadcastInDim S32768 ![] bcast_S_S32768 : (⟨S_, .f32⟩ : BufTy).Contents (Elt F) → (⟨S32768, .f32⟩ : BufTy).Contents (Elt F)),
    StableHlo.binary main_v57 main_v66 main_v67 (addf : (⟨S32768, .f32⟩ : BufTy).Contents (Elt F) → (⟨S32768, .f32⟩ : BufTy).Contents (Elt F) → (⟨S32768, .f32⟩ : BufTy).Contents (Elt F)),
    StableHlo.nullary main_cst_23 (constant S_ .f32 0x41C00000#32),
    StableHlo.unary main_cst_23 main_v68 (broadcastInDim S32768 ![] bcast_S_S32768 : (⟨S_, .f32⟩ : BufTy).Contents (Elt F) → (⟨S32768, .f32⟩ : BufTy).Contents (Elt F)),
    StableHlo.binary main_v67 main_v68 main_v69 (mulf : (⟨S32768, .f32⟩ : BufTy).Contents (Elt F) → (⟨S32768, .f32⟩ : BufTy).Contents (Elt F) → (⟨S32768, .f32⟩ : BufTy).Contents (Elt F)),
    StableHlo.nullary main_cst_24 (constant S_ .f32 0x3F800000#32),
    StableHlo.unary main_cst_24 main_v70 (broadcastInDim S32768 ![] bcast_S_S32768 : (⟨S_, .f32⟩ : BufTy).Contents (Elt F) → (⟨S32768, .f32⟩ : BufTy).Contents (Elt F)),
    StableHlo.binary main_v69 main_v70 main_v71 (subf : (⟨S32768, .f32⟩ : BufTy).Contents (Elt F) → (⟨S32768, .f32⟩ : BufTy).Contents (Elt F) → (⟨S32768, .f32⟩ : BufTy).Contents (Elt F)),
    StableHlo.nullary main_cst_25 (constant S_ .f32 0x3F000000#32),
    StableHlo.unary main_cst_25 main_v72 (broadcastInDim S32768 ![] bcast_S_S32768 : (⟨S_, .f32⟩ : BufTy).Contents (Elt F) → (⟨S32768, .f32⟩ : BufTy).Contents (Elt F)),
    StableHlo.binary main_v71 main_v72 main_v73 (mulf : (⟨S32768, .f32⟩ : BufTy).Contents (Elt F) → (⟨S32768, .f32⟩ : BufTy).Contents (Elt F) → (⟨S32768, .f32⟩ : BufTy).Contents (Elt F)),
    StableHlo.nullary main_cst_26 (constant S_ .f32 0x00000000#32),
    StableHlo.nullary main_cst_27 (constant S_ .f32 0x41B80000#32),
    StableHlo.TRef.unary (.of main_cst_26 : StableHlo.TRef sig ⟨S_, .f32⟩) main_call8.v0 id,
    StableHlo.TRef.unary main_call8.v0 main_call8.v1 (broadcastInDim S32768 ![] bcast_S_S32768),
    StableHlo.TRef.binary main_call8.v1 (.of main_v65 : StableHlo.TRef sig ⟨S32768, .f32⟩) main_call8.v2 maximumf,
    StableHlo.TRef.unary (.of main_cst_27 : StableHlo.TRef sig ⟨S_, .f32⟩) main_call8.v3 id,
    StableHlo.TRef.unary main_call8.v3 main_call8.v4 (broadcastInDim S32768 ![] bcast_S_S32768),
    StableHlo.TRef.binary main_call8.v4 main_call8.v2 main_call8.v5 minimumf,
    StableHlo.nullary main_cst_28 (constant S_ .f32 0x00000000#32),
    StableHlo.nullary main_cst_29 (constant S_ .f32 0x41B80000#32),
    StableHlo.TRef.unary (.of main_cst_28 : StableHlo.TRef sig ⟨S_, .f32⟩) main_call9.v0 id,
    StableHlo.TRef.unary main_call9.v0 main_call9.v1 (broadcastInDim S32768 ![] bcast_S_S32768),
    StableHlo.TRef.binary main_call9.v1 (.of main_v73 : StableHlo.TRef sig ⟨S32768, .f32⟩) main_call9.v2 maximumf,
    StableHlo.TRef.unary (.of main_cst_29 : StableHlo.TRef sig ⟨S_, .f32⟩) main_call9.v3 id,
    StableHlo.TRef.unary main_call9.v3 main_call9.v4 (broadcastInDim S32768 ![] bcast_S_S32768),
    StableHlo.TRef.binary main_call9.v4 main_call9.v2 main_call9.v5 minimumf ]

/-- @main's remaining 125 operations, from the floor of the first clamped coordinate to the final sum. -/
abbrev opsB : List (HloOp τ sig (Elt F)) :=
  [ StableHlo.unary main_v74 main_v76 (Host.floor : (⟨S32768, .f32⟩ : BufTy).Contents (Elt F) → (⟨S32768, .f32⟩ : BufTy).Contents (Elt F)),
    StableHlo.unary main_v76 main_v77 (fptosi 32 : (⟨S32768, .f32⟩ : BufTy).Contents (Elt F) → (⟨S32768, .i32⟩ : BufTy).Contents (Elt F)),
    StableHlo.unary main_v75 main_v78 (Host.floor : (⟨S32768, .f32⟩ : BufTy).Contents (Elt F) → (⟨S32768, .f32⟩ : BufTy).Contents (Elt F)),
    StableHlo.unary main_v78 main_v79 (fptosi 32 : (⟨S32768, .f32⟩ : BufTy).Contents (Elt F) → (⟨S32768, .i32⟩ : BufTy).Contents (Elt F)),
    StableHlo.nullary main_c_30 (constantI S_ 32 1#32),
    StableHlo.unary main_c_30 main_v80 (broadcastInDim S32768 ![] bcast_S_S32768 : (⟨S_, .i32⟩ : BufTy).Contents (Elt F) → (⟨S32768, .i32⟩ : BufTy).Contents (Elt F)),
    StableHlo.binary main_v77 main_v80 main_v81 (addi : (⟨S32768, .i32⟩ : BufTy).Contents (Elt F) → (⟨S32768, .i32⟩ : BufTy).Contents (Elt F) → (⟨S32768, .i32⟩ : BufTy).Contents (Elt F)),
    StableHlo.nullary main_c_31 (constantI S_ 32 23#32),
    StableHlo.unary main_c_31 main_v82 (broadcastInDim S32768 ![] bcast_S_S32768 : (⟨S_, .i32⟩ : BufTy).Contents (Elt F) → (⟨S32768, .i32⟩ : BufTy).Contents (Elt F)),
    StableHlo.binary main_v81 main_v82 main_v83 (minsi : (⟨S32768, .i32⟩ : BufTy).Contents (Elt F) → (⟨S32768, .i32⟩ : BufTy).Contents (Elt F) → (⟨S32768, .i32⟩ : BufTy).Contents (Elt F)),
    StableHlo.nullary main_c_32 (constantI S_ 32 1#32),
    StableHlo.unary main_c_32 main_v84 (broadcastInDim S32768 ![] bcast_S_S32768 : (⟨S_, .i32⟩ : BufTy).Contents (Elt F) → (⟨S32768, .i32⟩ : BufTy).Contents (Elt F)),
    StableHlo.binary main_v79 main_v84 main_v85 (addi : (⟨S32768, .i32⟩ : BufTy).Contents (Elt F) → (⟨S32768, .i32⟩ : BufTy).Contents (Elt F) → (⟨S32768, .i32⟩ : BufTy).Contents (Elt F)),
    StableHlo.nullary main_c_33 (constantI S_ 32 23#32),
    StableHlo.unary main_c_33 main_v86 (broadcastInDim S32768 ![] bcast_S_S32768 : (⟨S_, .i32⟩ : BufTy).Contents (Elt F) → (⟨S32768, .i32⟩ : BufTy).Contents (Elt F)),
    StableHlo.binary main_v85 main_v86 main_v87 (minsi : (⟨S32768, .i32⟩ : BufTy).Contents (Elt F) → (⟨S32768, .i32⟩ : BufTy).Contents (Elt F) → (⟨S32768, .i32⟩ : BufTy).Contents (Elt F)),
    StableHlo.unary main_v77 main_v88 (sitofp .f32 : (⟨S32768, .i32⟩ : BufTy).Contents (Elt F) → (⟨S32768, .f32⟩ : BufTy).Contents (Elt F)),
    StableHlo.binary main_v74 main_v88 main_v89 (subf : (⟨S32768, .f32⟩ : BufTy).Contents (Elt F) → (⟨S32768, .f32⟩ : BufTy).Contents (Elt F) → (⟨S32768, .f32⟩ : BufTy).Contents (Elt F)),
    StableHlo.unary main_v79 main_v90 (sitofp .f32 : (⟨S32768, .i32⟩ : BufTy).Contents (Elt F) → (⟨S32768, .f32⟩ : BufTy).Contents (Elt F)),
    StableHlo.binary main_v75 main_v90 main_v91 (subf : (⟨S32768, .f32⟩ : BufTy).Contents (Elt F) → (⟨S32768, .f32⟩ : BufTy).Contents (Elt F) → (⟨S32768, .f32⟩ : BufTy).Contents (Elt F)),
    StableHlo.nullary main_c_34 (constantI S_ 32 0#32),
    StableHlo.unary main_c_34 main_v92 (broadcastInDim S32768 ![] bcast_S_S32768 : (⟨S_, .i32⟩ : BufTy).Contents (Elt F) → (⟨S32768, .i32⟩ : BufTy).Contents (Elt F)),
    StableHlo.binary main_v79 main_v92 main_v93 (cmpi .slt : (⟨S32768, .i32⟩ : BufTy).Contents (Elt F) → (⟨S32768, .i32⟩ : BufTy).Contents (Elt F) → (⟨S32768, .i1⟩ : BufTy).Contents (Elt F)),
    StableHlo.nullary main_c_35 (constantI S_ 32 24#32),
    StableHlo.unary main_c_35 main_v94 (broadcastInDim S32768 ![] bcast_S_S32768 : (⟨S_, .i32⟩ : BufTy).Contents (Elt F) → (⟨S32768, .i32⟩ : BufTy).Contents (Elt F)),
    StableHlo.binary main_v79 main_v94 main_v95 (addi : (⟨S32768, .i32⟩ : BufTy).Contents (Elt F) → (⟨S32768, .i32⟩ : BufTy).Contents (Elt F) → (⟨S32768, .i32⟩ : BufTy).Contents (Elt F)),
    StableHlo.ternary main_v93 main_v95 main_v79 main_v96 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_36 (constantI S_ 32 0#32),
    StableHlo.unary main_c_36 main_v97 (broadcastInDim S32768 ![] bcast_S_S32768 : (⟨S_, .i32⟩ : BufTy).Contents (Elt F) → (⟨S32768, .i32⟩ : BufTy).Contents (Elt F)),
    StableHlo.binary main_v77 main_v97 main_v98 (cmpi .slt : (⟨S32768, .i32⟩ : BufTy).Contents (Elt F) → (⟨S32768, .i32⟩ : BufTy).Contents (Elt F) → (⟨S32768, .i1⟩ : BufTy).Contents (Elt F)),
    StableHlo.nullary main_c_37 (constantI S_ 32 24#32),
    StableHlo.unary main_c_37 main_v99 (broadcastInDim S32768 ![] bcast_S_S32768 : (⟨S_, .i32⟩ : BufTy).Contents (Elt F) → (⟨S32768, .i32⟩ : BufTy).Contents (Elt F)),
    StableHlo.binary main_v77 main_v99 main_v100 (addi : (⟨S32768, .i32⟩ : BufTy).Contents (Elt F) → (⟨S32768, .i32⟩ : BufTy).Contents (Elt F) → (⟨S32768, .i32⟩ : BufTy).Contents (Elt F)),
    StableHlo.ternary main_v98 main_v100 main_v77 main_v101 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v96 main_v102 (broadcastInDim S32768x1 ![0] bcast_S32768_S32768x1_0 : (⟨S32768, .i32⟩ : BufTy).Contents (Elt F) → (⟨S32768x1, .i32⟩ : BufTy).Contents (Elt F)),
    StableHlo.unary main_v101 main_v103 (broadcastInDim S32768x1 ![0] bcast_S32768_S32768x1_0 : (⟨S32768, .i32⟩ : BufTy).Contents (Elt F) → (⟨S32768x1, .i32⟩ : BufTy).Contents (Elt F)),
    StableHlo.binary main_v102 main_v103 main_v104 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v104 main_v105 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_c_38 (constantI S_ 32 0#32),
    StableHlo.unary main_c_38 main_v106 (broadcastInDim S32768 ![] bcast_S_S32768 : (⟨S_, .i32⟩ : BufTy).Contents (Elt F) → (⟨S32768, .i32⟩ : BufTy).Contents (Elt F)),
    StableHlo.binary main_v79 main_v106 main_v107 (cmpi .slt : (⟨S32768, .i32⟩ : BufTy).Contents (Elt F) → (⟨S32768, .i32⟩ : BufTy).Contents (Elt F) → (⟨S32768, .i1⟩ : BufTy).Contents (Elt F)),
    StableHlo.nullary main_c_39 (constantI S_ 32 24#32),
    StableHlo.unary main_c_39 main_v108 (broadcastInDim S32768 ![] bcast_S_S32768 : (⟨S_, .i32⟩ : BufTy).Contents (Elt F) → (⟨S32768, .i32⟩ : BufTy).Contents (Elt F)),
    StableHlo.binary main_v79 main_v108 main_v109 (addi : (⟨S32768, .i32⟩ : BufTy).Contents (Elt F) → (⟨S32768, .i32⟩ : BufTy).Contents (Elt F) → (⟨S32768, .i32⟩ : BufTy).Contents (Elt F)),
    StableHlo.ternary main_v107 main_v109 main_v79 main_v110 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_40 (constantI S_ 32 0#32),
    StableHlo.unary main_c_40 main_v111 (broadcastInDim S32768 ![] bcast_S_S32768 : (⟨S_, .i32⟩ : BufTy).Contents (Elt F) → (⟨S32768, .i32⟩ : BufTy).Contents (Elt F)),
    StableHlo.binary main_v83 main_v111 main_v112 (cmpi .slt : (⟨S32768, .i32⟩ : BufTy).Contents (Elt F) → (⟨S32768, .i32⟩ : BufTy).Contents (Elt F) → (⟨S32768, .i1⟩ : BufTy).Contents (Elt F)),
    StableHlo.nullary main_c_41 (constantI S_ 32 24#32),
    StableHlo.unary main_c_41 main_v113 (broadcastInDim S32768 ![] bcast_S_S32768 : (⟨S_, .i32⟩ : BufTy).Contents (Elt F) → (⟨S32768, .i32⟩ : BufTy).Contents (Elt F)),
    StableHlo.binary main_v83 main_v113 main_v114 (addi : (⟨S32768, .i32⟩ : BufTy).Contents (Elt F) → (⟨S32768, .i32⟩ : BufTy).Contents (Elt F) → (⟨S32768, .i32⟩ : BufTy).Contents (Elt F)),
    StableHlo.ternary main_v112 main_v114 main_v83 main_v115 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v110 main_v116 (broadcastInDim S32768x1 ![0] bcast_S32768_S32768x1_0 : (⟨S32768, .i32⟩ : BufTy).Contents (Elt F) → (⟨S32768x1, .i32⟩ : BufTy).Contents (Elt F)),
    StableHlo.unary main_v115 main_v117 (broadcastInDim S32768x1 ![0] bcast_S32768_S32768x1_0 : (⟨S32768, .i32⟩ : BufTy).Contents (Elt F) → (⟨S32768x1, .i32⟩ : BufTy).Contents (Elt F)),
    StableHlo.binary main_v116 main_v117 main_v118 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v118 main_v119 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_c_42 (constantI S_ 32 0#32),
    StableHlo.unary main_c_42 main_v120 (broadcastInDim S32768 ![] bcast_S_S32768 : (⟨S_, .i32⟩ : BufTy).Contents (Elt F) → (⟨S32768, .i32⟩ : BufTy).Contents (Elt F)),
    StableHlo.binary main_v87 main_v120 main_v121 (cmpi .slt : (⟨S32768, .i32⟩ : BufTy).Contents (Elt F) → (⟨S32768, .i32⟩ : BufTy).Contents (Elt F) → (⟨S32768, .i1⟩ : BufTy).Contents (Elt F)),
    StableHlo.nullary main_c_43 (constantI S_ 32 24#32),
    StableHlo.unary main_c_43 main_v122 (broadcastInDim S32768 ![] bcast_S_S32768 : (⟨S_, .i32⟩ : BufTy).Contents (Elt F) → (⟨S32768, .i32⟩ : BufTy).Contents (Elt F)),
    StableHlo.binary main_v87 main_v122 main_v123 (addi : (⟨S32768, .i32⟩ : BufTy).Contents (Elt F) → (⟨S32768, .i32⟩ : BufTy).Contents (Elt F) → (⟨S32768, .i32⟩ : BufTy).Contents (Elt F)),
    StableHlo.ternary main_v121 main_v123 main_v87 main_v124 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_44 (constantI S_ 32 0#32),
    StableHlo.unary main_c_44 main_v125 (broadcastInDim S32768 ![] bcast_S_S32768 : (⟨S_, .i32⟩ : BufTy).Contents (Elt F) → (⟨S32768, .i32⟩ : BufTy).Contents (Elt F)),
    StableHlo.binary main_v77 main_v125 main_v126 (cmpi .slt : (⟨S32768, .i32⟩ : BufTy).Contents (Elt F) → (⟨S32768, .i32⟩ : BufTy).Contents (Elt F) → (⟨S32768, .i1⟩ : BufTy).Contents (Elt F)),
    StableHlo.nullary main_c_45 (constantI S_ 32 24#32),
    StableHlo.unary main_c_45 main_v127 (broadcastInDim S32768 ![] bcast_S_S32768 : (⟨S_, .i32⟩ : BufTy).Contents (Elt F) → (⟨S32768, .i32⟩ : BufTy).Contents (Elt F)),
    StableHlo.binary main_v77 main_v127 main_v128 (addi : (⟨S32768, .i32⟩ : BufTy).Contents (Elt F) → (⟨S32768, .i32⟩ : BufTy).Contents (Elt F) → (⟨S32768, .i32⟩ : BufTy).Contents (Elt F)),
    StableHlo.ternary main_v126 main_v128 main_v77 main_v129 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v124 main_v130 (broadcastInDim S32768x1 ![0] bcast_S32768_S32768x1_0 : (⟨S32768, .i32⟩ : BufTy).Contents (Elt F) → (⟨S32768x1, .i32⟩ : BufTy).Contents (Elt F)),
    StableHlo.unary main_v129 main_v131 (broadcastInDim S32768x1 ![0] bcast_S32768_S32768x1_0 : (⟨S32768, .i32⟩ : BufTy).Contents (Elt F) → (⟨S32768x1, .i32⟩ : BufTy).Contents (Elt F)),
    StableHlo.binary main_v130 main_v131 main_v132 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v132 main_v133 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_c_46 (constantI S_ 32 0#32),
    StableHlo.unary main_c_46 main_v134 (broadcastInDim S32768 ![] bcast_S_S32768 : (⟨S_, .i32⟩ : BufTy).Contents (Elt F) → (⟨S32768, .i32⟩ : BufTy).Contents (Elt F)),
    StableHlo.binary main_v87 main_v134 main_v135 (cmpi .slt : (⟨S32768, .i32⟩ : BufTy).Contents (Elt F) → (⟨S32768, .i32⟩ : BufTy).Contents (Elt F) → (⟨S32768, .i1⟩ : BufTy).Contents (Elt F)),
    StableHlo.nullary main_c_47 (constantI S_ 32 24#32),
    StableHlo.unary main_c_47 main_v136 (broadcastInDim S32768 ![] bcast_S_S32768 : (⟨S_, .i32⟩ : BufTy).Contents (Elt F) → (⟨S32768, .i32⟩ : BufTy).Contents (Elt F)),
    StableHlo.binary main_v87 main_v136 main_v137 (addi : (⟨S32768, .i32⟩ : BufTy).Contents (Elt F) → (⟨S32768, .i32⟩ : BufTy).Contents (Elt F) → (⟨S32768, .i32⟩ : BufTy).Contents (Elt F)),
    StableHlo.ternary main_v135 main_v137 main_v87 main_v138 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_48 (constantI S_ 32 0#32),
    StableHlo.unary main_c_48 main_v139 (broadcastInDim S32768 ![] bcast_S_S32768 : (⟨S_, .i32⟩ : BufTy).Contents (Elt F) → (⟨S32768, .i32⟩ : BufTy).Contents (Elt F)),
    StableHlo.binary main_v83 main_v139 main_v140 (cmpi .slt : (⟨S32768, .i32⟩ : BufTy).Contents (Elt F) → (⟨S32768, .i32⟩ : BufTy).Contents (Elt F) → (⟨S32768, .i1⟩ : BufTy).Contents (Elt F)),
    StableHlo.nullary main_c_49 (constantI S_ 32 24#32),
    StableHlo.unary main_c_49 main_v141 (broadcastInDim S32768 ![] bcast_S_S32768 : (⟨S_, .i32⟩ : BufTy).Contents (Elt F) → (⟨S32768, .i32⟩ : BufTy).Contents (Elt F)),
    StableHlo.binary main_v83 main_v141 main_v142 (addi : (⟨S32768, .i32⟩ : BufTy).Contents (Elt F) → (⟨S32768, .i32⟩ : BufTy).Contents (Elt F) → (⟨S32768, .i32⟩ : BufTy).Contents (Elt F)),
    StableHlo.ternary main_v140 main_v142 main_v83 main_v143 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v138 main_v144 (broadcastInDim S32768x1 ![0] bcast_S32768_S32768x1_0 : (⟨S32768, .i32⟩ : BufTy).Contents (Elt F) → (⟨S32768x1, .i32⟩ : BufTy).Contents (Elt F)),
    StableHlo.unary main_v143 main_v145 (broadcastInDim S32768x1 ![0] bcast_S32768_S32768x1_0 : (⟨S32768, .i32⟩ : BufTy).Contents (Elt F) → (⟨S32768x1, .i32⟩ : BufTy).Contents (Elt F)),
    StableHlo.binary main_v144 main_v145 main_v146 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v146 main_v147 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_cst_50 (constant S_ .f32 0x3F800000#32),
    StableHlo.unary main_cst_50 main_v148 (broadcastInDim S32768 ![] bcast_S_S32768 : (⟨S_, .f32⟩ : BufTy).Contents (Elt F) → (⟨S32768, .f32⟩ : BufTy).Contents (Elt F)),
    StableHlo.binary main_v148 main_v91 main_v149 (subf : (⟨S32768, .f32⟩ : BufTy).Contents (Elt F) → (⟨S32768, .f32⟩ : BufTy).Contents (Elt F) → (⟨S32768, .f32⟩ : BufTy).Contents (Elt F)),
    StableHlo.nullary main_cst_51 (constant S_ .f32 0x3F800000#32),
    StableHlo.unary main_cst_51 main_v150 (broadcastInDim S32768 ![] bcast_S_S32768 : (⟨S_, .f32⟩ : BufTy).Contents (Elt F) → (⟨S32768, .f32⟩ : BufTy).Contents (Elt F)),
    StableHlo.binary main_v150 main_v89 main_v151 (subf : (⟨S32768, .f32⟩ : BufTy).Contents (Elt F) → (⟨S32768, .f32⟩ : BufTy).Contents (Elt F) → (⟨S32768, .f32⟩ : BufTy).Contents (Elt F)),
    StableHlo.binary main_v149 main_v151 main_v152 (mulf : (⟨S32768, .f32⟩ : BufTy).Contents (Elt F) → (⟨S32768, .f32⟩ : BufTy).Contents (Elt F) → (⟨S32768, .f32⟩ : BufTy).Contents (Elt F)),
    StableHlo.unary main_v152 main_v153 (broadcastInDim S1x32768 ![1] bcast_S32768_S1x32768_1 : (⟨S32768, .f32⟩ : BufTy).Contents (Elt F) → (⟨S1x32768, .f32⟩ : BufTy).Contents (Elt F)),
    StableHlo.unary main_v153 main_v154 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v154 main_v105 main_v155 (mulf : (⟨S1536x32768, .f32⟩ : BufTy).Contents (Elt F) → (⟨S1536x32768, .f32⟩ : BufTy).Contents (Elt F) → (⟨S1536x32768, .f32⟩ : BufTy).Contents (Elt F)),
    StableHlo.nullary main_cst_52 (constant S_ .f32 0x3F800000#32),
    StableHlo.unary main_cst_52 main_v156 (broadcastInDim S32768 ![] bcast_S_S32768 : (⟨S_, .f32⟩ : BufTy).Contents (Elt F) → (⟨S32768, .f32⟩ : BufTy).Contents (Elt F)),
    StableHlo.binary main_v156 main_v91 main_v157 (subf : (⟨S32768, .f32⟩ : BufTy).Contents (Elt F) → (⟨S32768, .f32⟩ : BufTy).Contents (Elt F) → (⟨S32768, .f32⟩ : BufTy).Contents (Elt F)),
    StableHlo.binary main_v157 main_v89 main_v158 (mulf : (⟨S32768, .f32⟩ : BufTy).Contents (Elt F) → (⟨S32768, .f32⟩ : BufTy).Contents (Elt F) → (⟨S32768, .f32⟩ : BufTy).Contents (Elt F)),
    StableHlo.unary main_v158 main_v159 (broadcastInDim S1x32768 ![1] bcast_S32768_S1x32768_1 : (⟨S32768, .f32⟩ : BufTy).Contents (Elt F) → (⟨S1x32768, .f32⟩ : BufTy).Contents (Elt F)),
    StableHlo.unary main_v159 main_v160 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v160 main_v119 main_v161 (mulf : (⟨S1536x32768, .f32⟩ : BufTy).Contents (Elt F) → (⟨S1536x32768, .f32⟩ : BufTy).Contents (Elt F) → (⟨S1536x32768, .f32⟩ : BufTy).Contents (Elt F)),
    StableHlo.binary main_v155 main_v161 main_v162 (addf : (⟨S1536x32768, .f32⟩ : BufTy).Contents (Elt F) → (⟨S1536x32768, .f32⟩ : BufTy).Contents (Elt F) → (⟨S1536x32768, .f32⟩ : BufTy).Contents (Elt F)),
    StableHlo.nullary main_cst_53 (constant S_ .f32 0x3F800000#32),
    StableHlo.unary main_cst_53 main_v163 (broadcastInDim S32768 ![] bcast_S_S32768 : (⟨S_, .f32⟩ : BufTy).Contents (Elt F) → (⟨S32768, .f32⟩ : BufTy).Contents (Elt F)),
    StableHlo.binary main_v163 main_v89 main_v164 (subf : (⟨S32768, .f32⟩ : BufTy).Contents (Elt F) → (⟨S32768, .f32⟩ : BufTy).Contents (Elt F) → (⟨S32768, .f32⟩ : BufTy).Contents (Elt F)),
    StableHlo.binary main_v91 main_v164 main_v165 (mulf : (⟨S32768, .f32⟩ : BufTy).Contents (Elt F) → (⟨S32768, .f32⟩ : BufTy).Contents (Elt F) → (⟨S32768, .f32⟩ : BufTy).Contents (Elt F)),
    StableHlo.unary main_v165 main_v166 (broadcastInDim S1x32768 ![1] bcast_S32768_S1x32768_1 : (⟨S32768, .f32⟩ : BufTy).Contents (Elt F) → (⟨S1x32768, .f32⟩ : BufTy).Contents (Elt F)),
    StableHlo.unary main_v166 main_v167 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v167 main_v133 main_v168 (mulf : (⟨S1536x32768, .f32⟩ : BufTy).Contents (Elt F) → (⟨S1536x32768, .f32⟩ : BufTy).Contents (Elt F) → (⟨S1536x32768, .f32⟩ : BufTy).Contents (Elt F)),
    StableHlo.binary main_v162 main_v168 main_v169 (addf : (⟨S1536x32768, .f32⟩ : BufTy).Contents (Elt F) → (⟨S1536x32768, .f32⟩ : BufTy).Contents (Elt F) → (⟨S1536x32768, .f32⟩ : BufTy).Contents (Elt F)),
    StableHlo.binary main_v91 main_v89 main_v170 (mulf : (⟨S32768, .f32⟩ : BufTy).Contents (Elt F) → (⟨S32768, .f32⟩ : BufTy).Contents (Elt F) → (⟨S32768, .f32⟩ : BufTy).Contents (Elt F)),
    StableHlo.unary main_v170 main_v171 (broadcastInDim S1x32768 ![1] bcast_S32768_S1x32768_1 : (⟨S32768, .f32⟩ : BufTy).Contents (Elt F) → (⟨S1x32768, .f32⟩ : BufTy).Contents (Elt F)),
    StableHlo.unary main_v171 main_v172 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v172 main_v147 main_v173 (mulf : (⟨S1536x32768, .f32⟩ : BufTy).Contents (Elt F) → (⟨S1536x32768, .f32⟩ : BufTy).Contents (Elt F) → (⟨S1536x32768, .f32⟩ : BufTy).Contents (Elt F)),
    StableHlo.binary main_v169 main_v173 main_v174 (addf : (⟨S1536x32768, .f32⟩ : BufTy).Contents (Elt F) → (⟨S1536x32768, .f32⟩ : BufTy).Contents (Elt F) → (⟨S1536x32768, .f32⟩ : BufTy).Contents (Elt F)),
    StableHlo.unary main_v174 main_v175 ((transpose S32768x1536 [1, 0] · transposes_S1536x32768_S32768x1536_1_0) : (⟨S1536x32768, .f32⟩ : BufTy).Contents (Elt F) → (⟨S32768x1536, .f32⟩ : BufTy).Contents (Elt F)),
    StableHlo.binary main_arg0 main_v175 main_v176 (addf : (⟨S32768x1536, .f32⟩ : BufTy).Contents (Elt F) → (⟨S32768x1536, .f32⟩ : BufTy).Contents (Elt F) → (⟨S32768x1536, .f32⟩ : BufTy).Contents (Elt F)) ]

/-- The operations of @main's printed window 0 (114 of them). -/
abbrev win0 : List (HloOp τ sig (Elt F)) :=
  [ StableHlo.reshape main_arg1 main_v0 rfl shapeCasts_S576x1536_S24x24x1536,
    StableHlo.unary main_v0 main_v1 ((transpose S1536x24x24 [2, 0, 1] · transposes_S24x24x1536_S1536x24x24_2_0_1) : (⟨S24x24x1536, .f32⟩ : BufTy).Contents (Elt F) → (⟨S1536x24x24, .f32⟩ : BufTy).Contents (Elt F)),
    StableHlo.unary main_arg3 main_v2 ((extractStridedSlice S8x1 ![0, 1] · slices_S8x3_S8x1_0_1) : (⟨S8x3, .i32⟩ : BufTy).Contents (Elt F) → (⟨S8x1, .i32⟩ : BufTy).Contents (Elt F)),
    StableHlo.reshape main_v2 main_v3 rfl shapeCasts_S8x1_S8,
    StableHlo.TRef.unary (.of main_arg2 : StableHlo.TRef sig ⟨S8, .i32⟩) main_call0.v0 (extractStridedSlice S1 ![7] · slices_S8_S1_7),
    StableHlo.TRef.unary (.of main_arg2 : StableHlo.TRef sig ⟨S8, .i32⟩) main_call0.v1 (extractStridedSlice S7 ![0] · slices_S8_S7_0),
    StableHlo.TRef.binary main_call0.v0 main_call0.v1 main_call0.v2 (fun a b => concatenate S8 0 [⟨S1, a⟩, ⟨S7, b⟩] concatenates_S1_S7_S8_d0),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v4 main_v5 main_c_0 main_v6 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v6 : StableHlo.TRef sig ⟨S8, .i32⟩) main_call1.call0.v0 main_call1.call0.v1 (fun x v => Host.reduceWindow IntOp.addi ![8] ![1] ![7] ![0] x v reduceWindows_S8_S8_w8s1p7_0 h_S_),
    StableHlo.nullary main_c_1 (constantI S_ 32 0#32),
    StableHlo.unary main_c_1 main_v8 (broadcastInDim S32768 ![] bcast_S_S32768 : (⟨S_, .i32⟩ : BufTy).Contents (Elt F) → (⟨S32768, .i32⟩ : BufTy).Contents (Elt F)),
    StableHlo.nullary main_c_2 (constantI S_ 32 0#32),
    StableHlo.unary main_c_2 main_v9 (broadcastInDim S8 ![] bcast_S_S8 : (⟨S_, .i32⟩ : BufTy).Contents (Elt F) → (⟨S8, .i32⟩ : BufTy).Contents (Elt F)),
    StableHlo.binary main_v7 main_v9 main_v10 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 32768#32),
    StableHlo.unary main_c_3 main_v11 (broadcastInDim S8 ![] bcast_S_S8 : (⟨S_, .i32⟩ : BufTy).Contents (Elt F) → (⟨S8, .i32⟩ : BufTy).Contents (Elt F)),
    StableHlo.binary main_v7 main_v11 main_v12 (addi : (⟨S8, .i32⟩ : BufTy).Contents (Elt F) → (⟨S8, .i32⟩ : BufTy).Contents (Elt F) → (⟨S8, .i32⟩ : BufTy).Contents (Elt F)),
    StableHlo.ternary main_v10 main_v12 main_v7 main_v13 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v13 main_v14 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v15 (broadcastInDim S8 ![] bcast_S_S8 : (⟨S_, .i32⟩ : BufTy).Contents (Elt F) → (⟨S8, .i32⟩ : BufTy).Contents (Elt F)),
    StableHlo.ternary main_v8 main_v14 main_v15 main_v16 ((fun x i u => Host.scatter scatter_S32768_S8x1_S8_n_0_0_1 IntOp.addi x i u) : (⟨S32768, .i32⟩ : BufTy).Contents (Elt F) → (⟨S8x1, .i32⟩ : BufTy).Contents (Elt F) → (⟨S8, .i32⟩ : BufTy).Contents (Elt F) → (⟨S32768, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v16 : StableHlo.TRef sig ⟨S32768, .i32⟩) main_call2.call0.v0 main_call2.call0.v1 (fun x v => Host.reduceWindow IntOp.addi ![32768] ![1] ![32767] ![0] x v reduceWindows_S32768_S32768_w32768s1p32767_0 h_S_),
    StableHlo.nullary main_c_5 (constantI S_ 32 1#32),
    StableHlo.unary main_c_5 main_v18 (broadcastInDim S32768 ![] bcast_S_S32768 : (⟨S_, .i32⟩ : BufTy).Contents (Elt F) → (⟨S32768, .i32⟩ : BufTy).Contents (Elt F)),
    StableHlo.binary main_v17 main_v18 main_v19 (subi : (⟨S32768, .i32⟩ : BufTy).Contents (Elt F) → (⟨S32768, .i32⟩ : BufTy).Contents (Elt F) → (⟨S32768, .i32⟩ : BufTy).Contents (Elt F)),
    StableHlo.TRef.nullary main_call3.c (constantI S_ 32 0#32),
    StableHlo.TRef.unary main_call3.c main_call3.v0 (broadcastInDim S32768 ![] bcast_S_S32768),
    StableHlo.TRef.binary (.of main_v19 : StableHlo.TRef sig ⟨S32768, .i32⟩) main_call3.v0 main_call3.v1 (cmpi .slt),
    StableHlo.TRef.nullary main_call3.c_0 (constantI S_ 32 8#32),
    StableHlo.TRef.unary main_call3.c_0 main_call3.v2 (broadcastInDim S32768 ![] bcast_S_S32768),
    StableHlo.TRef.binary (.of main_v19 : StableHlo.TRef sig ⟨S32768, .i32⟩) main_call3.v2 main_call3.v3 addi,
    StableHlo.TRef.ternary main_call3.v1 main_call3.v3 (.of main_v19 : StableHlo.TRef sig ⟨S32768, .i32⟩) main_call3.call0.v0 select,
    StableHlo.TRef.unary main_call3.call0.v0 main_call3.v5 (broadcastInDim S32768x1 ![0] bcast_S32768_S32768x1_0),
    StableHlo.TRef.nullary main_call3.c_1 (constantI S1 32 7#32),
    StableHlo.TRef.nullary main_call3.c_2 (constantI S_ 32 0#32),
    StableHlo.TRef.unary main_call3.c_2 main_call3.v6 (broadcastInDim S32768x1 ![] bcast_S_S32768x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S32768x1 ![0, 1] bcast_S1x1_S32768x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S32768x1_S32768_d1 h_S_),
    StableHlo.TRef.binary (.of main_v3 : StableHlo.TRef sig ⟨S8, .i32⟩) main_call3.v5 main_call3.v13 (fun x i => Host.gather gather_S8_S32768x1_S32768_n_0_n_n_0_1_1 x i),
    StableHlo.TRef.nullary main_call3.c_4 (constantI S_ 32 2147483648#32),
    StableHlo.TRef.unary main_call3.c_4 main_call3.v14 (broadcastInDim S32768 ![] bcast_S_S32768),
    StableHlo.TRef.ternary main_call3.v12 main_call3.v13 main_call3.v14 main_call3.v15 select,
    StableHlo.unary main_v20 main_v21 (sitofp .f32 : (⟨S32768, .i32⟩ : BufTy).Contents (Elt F) → (⟨S32768, .f32⟩ : BufTy).Contents (Elt F)),
    StableHlo.unary main_arg3 main_v22 ((extractStridedSlice S8x1 ![0, 2] · slices_S8x3_S8x1_0_2) : (⟨S8x3, .i32⟩ : BufTy).Contents (Elt F) → (⟨S8x1, .i32⟩ : BufTy).Contents (Elt F)),
    StableHlo.reshape main_v22 main_v23 rfl shapeCasts_S8x1_S8,
    StableHlo.TRef.unary (.of main_arg2 : StableHlo.TRef sig ⟨S8, .i32⟩) main_call4.v0 (extractStridedSlice S1 ![7] · slices_S8_S1_7),
    StableHlo.TRef.unary (.of main_arg2 : StableHlo.TRef sig ⟨S8, .i32⟩) main_call4.v1 (extractStridedSlice S7 ![0] · slices_S8_S7_0),
    StableHlo.TRef.binary main_call4.v0 main_call4.v1 main_call4.v2 (fun a b => concatenate S8 0 [⟨S1, a⟩, ⟨S7, b⟩] concatenates_S1_S7_S8_d0),
    StableHlo.nullary main_c_6 (constantI S_ 32 0#32),
    StableHlo.unary main_c_6 main_v25 (broadcastInDim S1 ![] bcast_S_S1 : (⟨S_, .i32⟩ : BufTy).Contents (Elt F) → (⟨S1, .i32⟩ : BufTy).Contents (Elt F)),
    StableHlo.nullary main_c_7 (constantI S_ 32 0#32),
    StableHlo.ternary main_v24 main_v25 main_c_7 main_v26 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v26 : StableHlo.TRef sig ⟨S8, .i32⟩) main_call5.call0.v0 main_call5.call0.v1 (fun x v => Host.reduceWindow IntOp.addi ![8] ![1] ![7] ![0] x v reduceWindows_S8_S8_w8s1p7_0 h_S_),
    StableHlo.nullary main_c_8 (constantI S_ 32 0#32),
    StableHlo.unary main_c_8 main_v28 (broadcastInDim S32768 ![] bcast_S_S32768 : (⟨S_, .i32⟩ : BufTy).Contents (Elt F) → (⟨S32768, .i32⟩ : BufTy).Contents (Elt F)),
    StableHlo.nullary main_c_9 (constantI S_ 32 0#32),
    StableHlo.unary main_c_9 main_v29 (broadcastInDim S8 ![] bcast_S_S8 : (⟨S_, .i32⟩ : BufTy).Contents (Elt F) → (⟨S8, .i32⟩ : BufTy).Contents (Elt F)),
    StableHlo.binary main_v27 main_v29 main_v30 (cmpi .slt : (⟨S8, .i32⟩ : BufTy).Contents (Elt F) → (⟨S8, .i32⟩ : BufTy).Contents (Elt F) → (⟨S8, .i1⟩ : BufTy).Contents (Elt F)),
    StableHlo.nullary main_c_10 (constantI S_ 32 32768#32),
    StableHlo.unary main_c_10 main_v31 (broadcastInDim S8 ![] bcast_S_S8 : (⟨S_, .i32⟩ : BufTy).Contents (Elt F) → (⟨S8, .i32⟩ : BufTy).Contents (Elt F)),
    StableHlo.binary main_v27 main_v31 main_v32 (addi : (⟨S8, .i32⟩ : BufTy).Contents (Elt F) → (⟨S8, .i32⟩ : BufTy).Contents (Elt F) → (⟨S8, .i32⟩ : BufTy).Contents (Elt F)),
    StableHlo.ternary main_v30 main_v32 main_v27 main_v33 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v33 main_v34 (broadcastInDim S8x1 ![0] bcast_S8_S8x1_0 : (⟨S8, .i32⟩ : BufTy).Contents (Elt F) → (⟨S8x1, .i32⟩ : BufTy).Contents (Elt F)),
    StableHlo.nullary main_c_11 (constantI S_ 32 1#32),
    StableHlo.unary main_c_11 main_v35 (broadcastInDim S8 ![] bcast_S_S8 : (⟨S_, .i32⟩ : BufTy).Contents (Elt F) → (⟨S8, .i32⟩ : BufTy).Contents (Elt F)),
    StableHlo.ternary main_v28 main_v34 main_v35 main_v36 ((fun x i u => Host.scatter scatter_S32768_S8x1_S8_n_0_0_1 IntOp.addi x i u) : (⟨S32768, .i32⟩ : BufTy).Contents (Elt F) → (⟨S8x1, .i32⟩ : BufTy).Contents (Elt F) → (⟨S8, .i32⟩ : BufTy).Contents (Elt F) → (⟨S32768, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v36 : StableHlo.TRef sig ⟨S32768, .i32⟩) main_call6.call0.v0 main_call6.call0.v1 (fun x v => Host.reduceWindow IntOp.addi ![32768] ![1] ![32767] ![0] x v reduceWindows_S32768_S32768_w32768s1p32767_0 h_S_),
    StableHlo.nullary main_c_12 (constantI S_ 32 1#32),
    StableHlo.unary main_c_12 main_v38 (broadcastInDim S32768 ![] bcast_S_S32768 : (⟨S_, .i32⟩ : BufTy).Contents (Elt F) → (⟨S32768, .i32⟩ : BufTy).Contents (Elt F)),
    StableHlo.binary main_v37 main_v38 main_v39 (subi : (⟨S32768, .i32⟩ : BufTy).Contents (Elt F) → (⟨S32768, .i32⟩ : BufTy).Contents (Elt F) → (⟨S32768, .i32⟩ : BufTy).Contents (Elt F)),
    StableHlo.TRef.nullary main_call7.c (constantI S_ 32 0#32),
    StableHlo.TRef.unary main_call7.c main_call7.v0 (broadcastInDim S32768 ![] bcast_S_S32768),
    StableHlo.TRef.binary (.of main_v39 : StableHlo.TRef sig ⟨S32768, .i32⟩) main_call7.v0 main_call7.v1 (cmpi .slt),
    StableHlo.TRef.nullary main_call7.c_0 (constantI S_ 32 8#32),
    StableHlo.TRef.unary main_call7.c_0 main_call7.v2 (broadcastInDim S32768 ![] bcast_S_S32768),
    StableHlo.TRef.binary (.of main_v39 : StableHlo.TRef sig ⟨S32768, .i32⟩) main_call7.v2 main_call7.v3 addi,
    StableHlo.TRef.ternary main_call7.v1 main_call7.v3 (.of main_v39 : StableHlo.TRef sig ⟨S32768, .i32⟩) main_call7.call0.v0 select,
    StableHlo.TRef.unary main_call7.call0.v0 main_call7.v5 (broadcastInDim S32768x1 ![0] bcast_S32768_S32768x1_0),
    StableHlo.TRef.nullary main_call7.c_1 (constantI S1 32 7#32),
    StableHlo.TRef.nullary main_call7.c_2 (constantI S_ 32 0#32),
    StableHlo.TRef.unary main_call7.c_2 main_call7.v6 (broadcastInDim S32768x1 ![] bcast_S_S32768x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S32768x1 ![0, 1] bcast_S1x1_S32768x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S32768x1_S32768_d1 h_S_),
    StableHlo.TRef.binary (.of main_v23 : StableHlo.TRef sig ⟨S8, .i32⟩) main_call7.v5 main_call7.v13 (fun x i => Host.gather gather_S8_S32768x1_S32768_n_0_n_n_0_1_1 x i),
    StableHlo.TRef.nullary main_call7.c_4 (constantI S_ 32 2147483648#32),
    StableHlo.TRef.unary main_call7.c_4 main_call7.v14 (broadcastInDim S32768 ![] bcast_S_S32768),
    StableHlo.TRef.ternary main_call7.v12 main_call7.v13 main_call7.v14 main_call7.v15 select,
    StableHlo.unary main_v40 main_v41 (sitofp .f32 : (⟨S32768, .i32⟩ : BufTy).Contents (Elt F) → (⟨S32768, .f32⟩ : BufTy).Contents (Elt F)),
    StableHlo.unary main_arg5 main_v42 (sitofp .f32 : (⟨S32768, .i32⟩ : BufTy).Contents (Elt F) → (⟨S32768, .f32⟩ : BufTy).Contents (Elt F)),
    StableHlo.nullary main_cst (constant S_ .f32 0x3F000000#32),
    StableHlo.unary main_cst main_v43 (broadcastInDim S32768 ![] bcast_S_S32768 : (⟨S_, .f32⟩ : BufTy).Contents (Elt F) → (⟨S32768, .f32⟩ : BufTy).Contents (Elt F)),
    StableHlo.binary main_v42 main_v43 main_v44 (addf : (⟨S32768, .f32⟩ : BufTy).Contents (Elt F) → (⟨S32768, .f32⟩ : BufTy).Contents (Elt F) → (⟨S32768, .f32⟩ : BufTy).Contents (Elt F)) ]

/-- The operations of @main's printed window 1 (70 of them). -/
abbrev win1 : List (HloOp τ sig (Elt F)) :=
  [ StableHlo.binary main_v44 main_v41 main_v45 (Host.divf : (⟨S32768, .f32⟩ : BufTy).Contents (Elt F) → (⟨S32768, .f32⟩ : BufTy).Contents (Elt F) → (⟨S32768, .f32⟩ : BufTy).Contents (Elt F)),
    StableHlo.nullary main_cst_13 (constant S_ .f32 0x40000000#32),
    StableHlo.unary main_cst_13 main_v46 (broadcastInDim S32768 ![] bcast_S_S32768 : (⟨S_, .f32⟩ : BufTy).Contents (Elt F) → (⟨S32768, .f32⟩ : BufTy).Contents (Elt F)),
    StableHlo.binary main_v45 main_v46 main_v47 (mulf : (⟨S32768, .f32⟩ : BufTy).Contents (Elt F) → (⟨S32768, .f32⟩ : BufTy).Contents (Elt F) → (⟨S32768, .f32⟩ : BufTy).Contents (Elt F)),
    StableHlo.nullary main_cst_14 (constant S_ .f32 0x3F800000#32),
    StableHlo.unary main_cst_14 main_v48 (broadcastInDim S32768 ![] bcast_S_S32768 : (⟨S_, .f32⟩ : BufTy).Contents (Elt F) → (⟨S32768, .f32⟩ : BufTy).Contents (Elt F)),
    StableHlo.binary main_v47 main_v48 main_v49 (subf : (⟨S32768, .f32⟩ : BufTy).Contents (Elt F) → (⟨S32768, .f32⟩ : BufTy).Contents (Elt F) → (⟨S32768, .f32⟩ : BufTy).Contents (Elt F)),
    StableHlo.unary main_arg4 main_v50 (sitofp .f32 : (⟨S32768, .i32⟩ : BufTy).Contents (Elt F) → (⟨S32768, .f32⟩ : BufTy).Contents (Elt F)),
    StableHlo.nullary main_cst_15 (constant S_ .f32 0x3F000000#32),
    StableHlo.unary main_cst_15 main_v51 (broadcastInDim S32768 ![] bcast_S_S32768 : (⟨S_, .f32⟩ : BufTy).Contents (Elt F) → (⟨S32768, .f32⟩ : BufTy).Contents (Elt F)),
    StableHlo.binary main_v50 main_v51 main_v52 (addf : (⟨S32768, .f32⟩ : BufTy).Contents (Elt F) → (⟨S32768, .f32⟩ : BufTy).Contents (Elt F) → (⟨S32768, .f32⟩ : BufTy).Contents (Elt F)),
    StableHlo.binary main_v52 main_v21 main_v53 (Host.divf : (⟨S32768, .f32⟩ : BufTy).Contents (Elt F) → (⟨S32768, .f32⟩ : BufTy).Contents (Elt F) → (⟨S32768, .f32⟩ : BufTy).Contents (Elt F)),
    StableHlo.nullary main_cst_16 (constant S_ .f32 0x40000000#32),
    StableHlo.unary main_cst_16 main_v54 (broadcastInDim S32768 ![] bcast_S_S32768 : (⟨S_, .f32⟩ : BufTy).Contents (Elt F) → (⟨S32768, .f32⟩ : BufTy).Contents (Elt F)),
    StableHlo.binary main_v53 main_v54 main_v55 (mulf : (⟨S32768, .f32⟩ : BufTy).Contents (Elt F) → (⟨S32768, .f32⟩ : BufTy).Contents (Elt F) → (⟨S32768, .f32⟩ : BufTy).Contents (Elt F)),
    StableHlo.nullary main_cst_17 (constant S_ .f32 0x3F800000#32),
    StableHlo.unary main_cst_17 main_v56 (broadcastInDim S32768 ![] bcast_S_S32768 : (⟨S_, .f32⟩ : BufTy).Contents (Elt F) → (⟨S32768, .f32⟩ : BufTy).Contents (Elt F)),
    StableHlo.binary main_v55 main_v56 main_v57 (subf : (⟨S32768, .f32⟩ : BufTy).Contents (Elt F) → (⟨S32768, .f32⟩ : BufTy).Contents (Elt F) → (⟨S32768, .f32⟩ : BufTy).Contents (Elt F)),
    StableHlo.nullary main_cst_18 (constant S_ .f32 0x3F800000#32),
    StableHlo.unary main_cst_18 main_v58 (broadcastInDim S32768 ![] bcast_S_S32768 : (⟨S_, .f32⟩ : BufTy).Contents (Elt F) → (⟨S32768, .f32⟩ : BufTy).Contents (Elt F)),
    StableHlo.binary main_v49 main_v58 main_v59 (addf : (⟨S32768, .f32⟩ : BufTy).Contents (Elt F) → (⟨S32768, .f32⟩ : BufTy).Contents (Elt F) → (⟨S32768, .f32⟩ : BufTy).Contents (Elt F)),
    StableHlo.nullary main_cst_19 (constant S_ .f32 0x41C00000#32),
    StableHlo.unary main_cst_19 main_v60 (broadcastInDim S32768 ![] bcast_S_S32768 : (⟨S_, .f32⟩ : BufTy).Contents (Elt F) → (⟨S32768, .f32⟩ : BufTy).Contents (Elt F)),
    StableHlo.binary main_v59 main_v60 main_v61 (mulf : (⟨S32768, .f32⟩ : BufTy).Contents (Elt F) → (⟨S32768, .f32⟩ : BufTy).Contents (Elt F) → (⟨S32768, .f32⟩ : BufTy).Contents (Elt F)),
    StableHlo.nullary main_cst_20 (constant S_ .f32 0x3F800000#32),
    StableHlo.unary main_cst_20 main_v62 (broadcastInDim S32768 ![] bcast_S_S32768 : (⟨S_, .f32⟩ : BufTy).Contents (Elt F) → (⟨S32768, .f32⟩ : BufTy).Contents (Elt F)),
    StableHlo.binary main_v61 main_v62 main_v63 (subf : (⟨S32768, .f32⟩ : BufTy).Contents (Elt F) → (⟨S32768, .f32⟩ : BufTy).Contents (Elt F) → (⟨S32768, .f32⟩ : BufTy).Contents (Elt F)),
    StableHlo.nullary main_cst_21 (constant S_ .f32 0x3F000000#32),
    StableHlo.unary main_cst_21 main_v64 (broadcastInDim S32768 ![] bcast_S_S32768 : (⟨S_, .f32⟩ : BufTy).Contents (Elt F) → (⟨S32768, .f32⟩ : BufTy).Contents (Elt F)),
    StableHlo.binary main_v63 main_v64 main_v65 (mulf : (⟨S32768, .f32⟩ : BufTy).Contents (Elt F) → (⟨S32768, .f32⟩ : BufTy).Contents (Elt F) → (⟨S32768, .f32⟩ : BufTy).Contents (Elt F)),
    StableHlo.nullary main_cst_22 (constant S_ .f32 0x3F800000#32),
    StableHlo.unary main_cst_22 main_v66 (broadcastInDim S32768 ![] bcast_S_S32768 : (⟨S_, .f32⟩ : BufTy).Contents (Elt F) → (⟨S32768, .f32⟩ : BufTy).Contents (Elt F)),
    StableHlo.binary main_v57 main_v66 main_v67 (addf : (⟨S32768, .f32⟩ : BufTy).Contents (Elt F) → (⟨S32768, .f32⟩ : BufTy).Contents (Elt F) → (⟨S32768, .f32⟩ : BufTy).Contents (Elt F)),
    StableHlo.nullary main_cst_23 (constant S_ .f32 0x41C00000#32),
    StableHlo.unary main_cst_23 main_v68 (broadcastInDim S32768 ![] bcast_S_S32768 : (⟨S_, .f32⟩ : BufTy).Contents (Elt F) → (⟨S32768, .f32⟩ : BufTy).Contents (Elt F)),
    StableHlo.binary main_v67 main_v68 main_v69 (mulf : (⟨S32768, .f32⟩ : BufTy).Contents (Elt F) → (⟨S32768, .f32⟩ : BufTy).Contents (Elt F) → (⟨S32768, .f32⟩ : BufTy).Contents (Elt F)),
    StableHlo.nullary main_cst_24 (constant S_ .f32 0x3F800000#32),
    StableHlo.unary main_cst_24 main_v70 (broadcastInDim S32768 ![] bcast_S_S32768 : (⟨S_, .f32⟩ : BufTy).Contents (Elt F) → (⟨S32768, .f32⟩ : BufTy).Contents (Elt F)),
    StableHlo.binary main_v69 main_v70 main_v71 (subf : (⟨S32768, .f32⟩ : BufTy).Contents (Elt F) → (⟨S32768, .f32⟩ : BufTy).Contents (Elt F) → (⟨S32768, .f32⟩ : BufTy).Contents (Elt F)),
    StableHlo.nullary main_cst_25 (constant S_ .f32 0x3F000000#32),
    StableHlo.unary main_cst_25 main_v72 (broadcastInDim S32768 ![] bcast_S_S32768 : (⟨S_, .f32⟩ : BufTy).Contents (Elt F) → (⟨S32768, .f32⟩ : BufTy).Contents (Elt F)),
    StableHlo.binary main_v71 main_v72 main_v73 (mulf : (⟨S32768, .f32⟩ : BufTy).Contents (Elt F) → (⟨S32768, .f32⟩ : BufTy).Contents (Elt F) → (⟨S32768, .f32⟩ : BufTy).Contents (Elt F)),
    StableHlo.nullary main_cst_26 (constant S_ .f32 0x00000000#32),
    StableHlo.nullary main_cst_27 (constant S_ .f32 0x41B80000#32),
    StableHlo.TRef.unary (.of main_cst_26 : StableHlo.TRef sig ⟨S_, .f32⟩) main_call8.v0 id,
    StableHlo.TRef.unary main_call8.v0 main_call8.v1 (broadcastInDim S32768 ![] bcast_S_S32768),
    StableHlo.TRef.binary main_call8.v1 (.of main_v65 : StableHlo.TRef sig ⟨S32768, .f32⟩) main_call8.v2 maximumf,
    StableHlo.TRef.unary (.of main_cst_27 : StableHlo.TRef sig ⟨S_, .f32⟩) main_call8.v3 id,
    StableHlo.TRef.unary main_call8.v3 main_call8.v4 (broadcastInDim S32768 ![] bcast_S_S32768),
    StableHlo.TRef.binary main_call8.v4 main_call8.v2 main_call8.v5 minimumf,
    StableHlo.nullary main_cst_28 (constant S_ .f32 0x00000000#32),
    StableHlo.nullary main_cst_29 (constant S_ .f32 0x41B80000#32),
    StableHlo.TRef.unary (.of main_cst_28 : StableHlo.TRef sig ⟨S_, .f32⟩) main_call9.v0 id,
    StableHlo.TRef.unary main_call9.v0 main_call9.v1 (broadcastInDim S32768 ![] bcast_S_S32768),
    StableHlo.TRef.binary main_call9.v1 (.of main_v73 : StableHlo.TRef sig ⟨S32768, .f32⟩) main_call9.v2 maximumf,
    StableHlo.TRef.unary (.of main_cst_29 : StableHlo.TRef sig ⟨S_, .f32⟩) main_call9.v3 id,
    StableHlo.TRef.unary main_call9.v3 main_call9.v4 (broadcastInDim S32768 ![] bcast_S_S32768),
    StableHlo.TRef.binary main_call9.v4 main_call9.v2 main_call9.v5 minimumf,
    StableHlo.unary main_v74 main_v76 (Host.floor : (⟨S32768, .f32⟩ : BufTy).Contents (Elt F) → (⟨S32768, .f32⟩ : BufTy).Contents (Elt F)),
    StableHlo.unary main_v76 main_v77 (fptosi 32 : (⟨S32768, .f32⟩ : BufTy).Contents (Elt F) → (⟨S32768, .i32⟩ : BufTy).Contents (Elt F)),
    StableHlo.unary main_v75 main_v78 (Host.floor : (⟨S32768, .f32⟩ : BufTy).Contents (Elt F) → (⟨S32768, .f32⟩ : BufTy).Contents (Elt F)),
    StableHlo.unary main_v78 main_v79 (fptosi 32 : (⟨S32768, .f32⟩ : BufTy).Contents (Elt F) → (⟨S32768, .i32⟩ : BufTy).Contents (Elt F)),
    StableHlo.nullary main_c_30 (constantI S_ 32 1#32),
    StableHlo.unary main_c_30 main_v80 (broadcastInDim S32768 ![] bcast_S_S32768 : (⟨S_, .i32⟩ : BufTy).Contents (Elt F) → (⟨S32768, .i32⟩ : BufTy).Contents (Elt F)),
    StableHlo.binary main_v77 main_v80 main_v81 (addi : (⟨S32768, .i32⟩ : BufTy).Contents (Elt F) → (⟨S32768, .i32⟩ : BufTy).Contents (Elt F) → (⟨S32768, .i32⟩ : BufTy).Contents (Elt F)),
    StableHlo.nullary main_c_31 (constantI S_ 32 23#32),
    StableHlo.unary main_c_31 main_v82 (broadcastInDim S32768 ![] bcast_S_S32768 : (⟨S_, .i32⟩ : BufTy).Contents (Elt F) → (⟨S32768, .i32⟩ : BufTy).Contents (Elt F)),
    StableHlo.binary main_v81 main_v82 main_v83 (minsi : (⟨S32768, .i32⟩ : BufTy).Contents (Elt F) → (⟨S32768, .i32⟩ : BufTy).Contents (Elt F) → (⟨S32768, .i32⟩ : BufTy).Contents (Elt F)),
    StableHlo.nullary main_c_32 (constantI S_ 32 1#32),
    StableHlo.unary main_c_32 main_v84 (broadcastInDim S32768 ![] bcast_S_S32768 : (⟨S_, .i32⟩ : BufTy).Contents (Elt F) → (⟨S32768, .i32⟩ : BufTy).Contents (Elt F)) ]

/-- The operations of @main's printed window 2 (60 of them). -/
abbrev win2 : List (HloOp τ sig (Elt F)) :=
  [ StableHlo.binary main_v79 main_v84 main_v85 (addi : (⟨S32768, .i32⟩ : BufTy).Contents (Elt F) → (⟨S32768, .i32⟩ : BufTy).Contents (Elt F) → (⟨S32768, .i32⟩ : BufTy).Contents (Elt F)),
    StableHlo.nullary main_c_33 (constantI S_ 32 23#32),
    StableHlo.unary main_c_33 main_v86 (broadcastInDim S32768 ![] bcast_S_S32768 : (⟨S_, .i32⟩ : BufTy).Contents (Elt F) → (⟨S32768, .i32⟩ : BufTy).Contents (Elt F)),
    StableHlo.binary main_v85 main_v86 main_v87 (minsi : (⟨S32768, .i32⟩ : BufTy).Contents (Elt F) → (⟨S32768, .i32⟩ : BufTy).Contents (Elt F) → (⟨S32768, .i32⟩ : BufTy).Contents (Elt F)),
    StableHlo.unary main_v77 main_v88 (sitofp .f32 : (⟨S32768, .i32⟩ : BufTy).Contents (Elt F) → (⟨S32768, .f32⟩ : BufTy).Contents (Elt F)),
    StableHlo.binary main_v74 main_v88 main_v89 (subf : (⟨S32768, .f32⟩ : BufTy).Contents (Elt F) → (⟨S32768, .f32⟩ : BufTy).Contents (Elt F) → (⟨S32768, .f32⟩ : BufTy).Contents (Elt F)),
    StableHlo.unary main_v79 main_v90 (sitofp .f32 : (⟨S32768, .i32⟩ : BufTy).Contents (Elt F) → (⟨S32768, .f32⟩ : BufTy).Contents (Elt F)),
    StableHlo.binary main_v75 main_v90 main_v91 (subf : (⟨S32768, .f32⟩ : BufTy).Contents (Elt F) → (⟨S32768, .f32⟩ : BufTy).Contents (Elt F) → (⟨S32768, .f32⟩ : BufTy).Contents (Elt F)),
    StableHlo.nullary main_c_34 (constantI S_ 32 0#32),
    StableHlo.unary main_c_34 main_v92 (broadcastInDim S32768 ![] bcast_S_S32768 : (⟨S_, .i32⟩ : BufTy).Contents (Elt F) → (⟨S32768, .i32⟩ : BufTy).Contents (Elt F)),
    StableHlo.binary main_v79 main_v92 main_v93 (cmpi .slt : (⟨S32768, .i32⟩ : BufTy).Contents (Elt F) → (⟨S32768, .i32⟩ : BufTy).Contents (Elt F) → (⟨S32768, .i1⟩ : BufTy).Contents (Elt F)),
    StableHlo.nullary main_c_35 (constantI S_ 32 24#32),
    StableHlo.unary main_c_35 main_v94 (broadcastInDim S32768 ![] bcast_S_S32768 : (⟨S_, .i32⟩ : BufTy).Contents (Elt F) → (⟨S32768, .i32⟩ : BufTy).Contents (Elt F)),
    StableHlo.binary main_v79 main_v94 main_v95 (addi : (⟨S32768, .i32⟩ : BufTy).Contents (Elt F) → (⟨S32768, .i32⟩ : BufTy).Contents (Elt F) → (⟨S32768, .i32⟩ : BufTy).Contents (Elt F)),
    StableHlo.ternary main_v93 main_v95 main_v79 main_v96 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_36 (constantI S_ 32 0#32),
    StableHlo.unary main_c_36 main_v97 (broadcastInDim S32768 ![] bcast_S_S32768 : (⟨S_, .i32⟩ : BufTy).Contents (Elt F) → (⟨S32768, .i32⟩ : BufTy).Contents (Elt F)),
    StableHlo.binary main_v77 main_v97 main_v98 (cmpi .slt : (⟨S32768, .i32⟩ : BufTy).Contents (Elt F) → (⟨S32768, .i32⟩ : BufTy).Contents (Elt F) → (⟨S32768, .i1⟩ : BufTy).Contents (Elt F)),
    StableHlo.nullary main_c_37 (constantI S_ 32 24#32),
    StableHlo.unary main_c_37 main_v99 (broadcastInDim S32768 ![] bcast_S_S32768 : (⟨S_, .i32⟩ : BufTy).Contents (Elt F) → (⟨S32768, .i32⟩ : BufTy).Contents (Elt F)),
    StableHlo.binary main_v77 main_v99 main_v100 (addi : (⟨S32768, .i32⟩ : BufTy).Contents (Elt F) → (⟨S32768, .i32⟩ : BufTy).Contents (Elt F) → (⟨S32768, .i32⟩ : BufTy).Contents (Elt F)),
    StableHlo.ternary main_v98 main_v100 main_v77 main_v101 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v96 main_v102 (broadcastInDim S32768x1 ![0] bcast_S32768_S32768x1_0 : (⟨S32768, .i32⟩ : BufTy).Contents (Elt F) → (⟨S32768x1, .i32⟩ : BufTy).Contents (Elt F)),
    StableHlo.unary main_v101 main_v103 (broadcastInDim S32768x1 ![0] bcast_S32768_S32768x1_0 : (⟨S32768, .i32⟩ : BufTy).Contents (Elt F) → (⟨S32768x1, .i32⟩ : BufTy).Contents (Elt F)),
    StableHlo.binary main_v102 main_v103 main_v104 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v104 main_v105 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_c_38 (constantI S_ 32 0#32),
    StableHlo.unary main_c_38 main_v106 (broadcastInDim S32768 ![] bcast_S_S32768 : (⟨S_, .i32⟩ : BufTy).Contents (Elt F) → (⟨S32768, .i32⟩ : BufTy).Contents (Elt F)),
    StableHlo.binary main_v79 main_v106 main_v107 (cmpi .slt : (⟨S32768, .i32⟩ : BufTy).Contents (Elt F) → (⟨S32768, .i32⟩ : BufTy).Contents (Elt F) → (⟨S32768, .i1⟩ : BufTy).Contents (Elt F)),
    StableHlo.nullary main_c_39 (constantI S_ 32 24#32),
    StableHlo.unary main_c_39 main_v108 (broadcastInDim S32768 ![] bcast_S_S32768 : (⟨S_, .i32⟩ : BufTy).Contents (Elt F) → (⟨S32768, .i32⟩ : BufTy).Contents (Elt F)),
    StableHlo.binary main_v79 main_v108 main_v109 (addi : (⟨S32768, .i32⟩ : BufTy).Contents (Elt F) → (⟨S32768, .i32⟩ : BufTy).Contents (Elt F) → (⟨S32768, .i32⟩ : BufTy).Contents (Elt F)),
    StableHlo.ternary main_v107 main_v109 main_v79 main_v110 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_40 (constantI S_ 32 0#32),
    StableHlo.unary main_c_40 main_v111 (broadcastInDim S32768 ![] bcast_S_S32768 : (⟨S_, .i32⟩ : BufTy).Contents (Elt F) → (⟨S32768, .i32⟩ : BufTy).Contents (Elt F)),
    StableHlo.binary main_v83 main_v111 main_v112 (cmpi .slt : (⟨S32768, .i32⟩ : BufTy).Contents (Elt F) → (⟨S32768, .i32⟩ : BufTy).Contents (Elt F) → (⟨S32768, .i1⟩ : BufTy).Contents (Elt F)),
    StableHlo.nullary main_c_41 (constantI S_ 32 24#32),
    StableHlo.unary main_c_41 main_v113 (broadcastInDim S32768 ![] bcast_S_S32768 : (⟨S_, .i32⟩ : BufTy).Contents (Elt F) → (⟨S32768, .i32⟩ : BufTy).Contents (Elt F)),
    StableHlo.binary main_v83 main_v113 main_v114 (addi : (⟨S32768, .i32⟩ : BufTy).Contents (Elt F) → (⟨S32768, .i32⟩ : BufTy).Contents (Elt F) → (⟨S32768, .i32⟩ : BufTy).Contents (Elt F)),
    StableHlo.ternary main_v112 main_v114 main_v83 main_v115 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v110 main_v116 (broadcastInDim S32768x1 ![0] bcast_S32768_S32768x1_0 : (⟨S32768, .i32⟩ : BufTy).Contents (Elt F) → (⟨S32768x1, .i32⟩ : BufTy).Contents (Elt F)),
    StableHlo.unary main_v115 main_v117 (broadcastInDim S32768x1 ![0] bcast_S32768_S32768x1_0 : (⟨S32768, .i32⟩ : BufTy).Contents (Elt F) → (⟨S32768x1, .i32⟩ : BufTy).Contents (Elt F)),
    StableHlo.binary main_v116 main_v117 main_v118 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v118 main_v119 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_c_42 (constantI S_ 32 0#32),
    StableHlo.unary main_c_42 main_v120 (broadcastInDim S32768 ![] bcast_S_S32768 : (⟨S_, .i32⟩ : BufTy).Contents (Elt F) → (⟨S32768, .i32⟩ : BufTy).Contents (Elt F)),
    StableHlo.binary main_v87 main_v120 main_v121 (cmpi .slt : (⟨S32768, .i32⟩ : BufTy).Contents (Elt F) → (⟨S32768, .i32⟩ : BufTy).Contents (Elt F) → (⟨S32768, .i1⟩ : BufTy).Contents (Elt F)),
    StableHlo.nullary main_c_43 (constantI S_ 32 24#32),
    StableHlo.unary main_c_43 main_v122 (broadcastInDim S32768 ![] bcast_S_S32768 : (⟨S_, .i32⟩ : BufTy).Contents (Elt F) → (⟨S32768, .i32⟩ : BufTy).Contents (Elt F)),
    StableHlo.binary main_v87 main_v122 main_v123 (addi : (⟨S32768, .i32⟩ : BufTy).Contents (Elt F) → (⟨S32768, .i32⟩ : BufTy).Contents (Elt F) → (⟨S32768, .i32⟩ : BufTy).Contents (Elt F)),
    StableHlo.ternary main_v121 main_v123 main_v87 main_v124 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_44 (constantI S_ 32 0#32),
    StableHlo.unary main_c_44 main_v125 (broadcastInDim S32768 ![] bcast_S_S32768 : (⟨S_, .i32⟩ : BufTy).Contents (Elt F) → (⟨S32768, .i32⟩ : BufTy).Contents (Elt F)),
    StableHlo.binary main_v77 main_v125 main_v126 (cmpi .slt : (⟨S32768, .i32⟩ : BufTy).Contents (Elt F) → (⟨S32768, .i32⟩ : BufTy).Contents (Elt F) → (⟨S32768, .i1⟩ : BufTy).Contents (Elt F)),
    StableHlo.nullary main_c_45 (constantI S_ 32 24#32),
    StableHlo.unary main_c_45 main_v127 (broadcastInDim S32768 ![] bcast_S_S32768 : (⟨S_, .i32⟩ : BufTy).Contents (Elt F) → (⟨S32768, .i32⟩ : BufTy).Contents (Elt F)),
    StableHlo.binary main_v77 main_v127 main_v128 (addi : (⟨S32768, .i32⟩ : BufTy).Contents (Elt F) → (⟨S32768, .i32⟩ : BufTy).Contents (Elt F) → (⟨S32768, .i32⟩ : BufTy).Contents (Elt F)),
    StableHlo.ternary main_v126 main_v128 main_v77 main_v129 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v124 main_v130 (broadcastInDim S32768x1 ![0] bcast_S32768_S32768x1_0 : (⟨S32768, .i32⟩ : BufTy).Contents (Elt F) → (⟨S32768x1, .i32⟩ : BufTy).Contents (Elt F)),
    StableHlo.unary main_v129 main_v131 (broadcastInDim S32768x1 ![0] bcast_S32768_S32768x1_0 : (⟨S32768, .i32⟩ : BufTy).Contents (Elt F) → (⟨S32768x1, .i32⟩ : BufTy).Contents (Elt F)) ]

/-- The operations of @main's printed window 3 (53 of them). -/
abbrev win3 : List (HloOp τ sig (Elt F)) :=
  [ StableHlo.binary main_v130 main_v131 main_v132 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v132 main_v133 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_c_46 (constantI S_ 32 0#32),
    StableHlo.unary main_c_46 main_v134 (broadcastInDim S32768 ![] bcast_S_S32768 : (⟨S_, .i32⟩ : BufTy).Contents (Elt F) → (⟨S32768, .i32⟩ : BufTy).Contents (Elt F)),
    StableHlo.binary main_v87 main_v134 main_v135 (cmpi .slt : (⟨S32768, .i32⟩ : BufTy).Contents (Elt F) → (⟨S32768, .i32⟩ : BufTy).Contents (Elt F) → (⟨S32768, .i1⟩ : BufTy).Contents (Elt F)),
    StableHlo.nullary main_c_47 (constantI S_ 32 24#32),
    StableHlo.unary main_c_47 main_v136 (broadcastInDim S32768 ![] bcast_S_S32768 : (⟨S_, .i32⟩ : BufTy).Contents (Elt F) → (⟨S32768, .i32⟩ : BufTy).Contents (Elt F)),
    StableHlo.binary main_v87 main_v136 main_v137 (addi : (⟨S32768, .i32⟩ : BufTy).Contents (Elt F) → (⟨S32768, .i32⟩ : BufTy).Contents (Elt F) → (⟨S32768, .i32⟩ : BufTy).Contents (Elt F)),
    StableHlo.ternary main_v135 main_v137 main_v87 main_v138 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_48 (constantI S_ 32 0#32),
    StableHlo.unary main_c_48 main_v139 (broadcastInDim S32768 ![] bcast_S_S32768 : (⟨S_, .i32⟩ : BufTy).Contents (Elt F) → (⟨S32768, .i32⟩ : BufTy).Contents (Elt F)),
    StableHlo.binary main_v83 main_v139 main_v140 (cmpi .slt : (⟨S32768, .i32⟩ : BufTy).Contents (Elt F) → (⟨S32768, .i32⟩ : BufTy).Contents (Elt F) → (⟨S32768, .i1⟩ : BufTy).Contents (Elt F)),
    StableHlo.nullary main_c_49 (constantI S_ 32 24#32),
    StableHlo.unary main_c_49 main_v141 (broadcastInDim S32768 ![] bcast_S_S32768 : (⟨S_, .i32⟩ : BufTy).Contents (Elt F) → (⟨S32768, .i32⟩ : BufTy).Contents (Elt F)),
    StableHlo.binary main_v83 main_v141 main_v142 (addi : (⟨S32768, .i32⟩ : BufTy).Contents (Elt F) → (⟨S32768, .i32⟩ : BufTy).Contents (Elt F) → (⟨S32768, .i32⟩ : BufTy).Contents (Elt F)),
    StableHlo.ternary main_v140 main_v142 main_v83 main_v143 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v138 main_v144 (broadcastInDim S32768x1 ![0] bcast_S32768_S32768x1_0 : (⟨S32768, .i32⟩ : BufTy).Contents (Elt F) → (⟨S32768x1, .i32⟩ : BufTy).Contents (Elt F)),
    StableHlo.unary main_v143 main_v145 (broadcastInDim S32768x1 ![0] bcast_S32768_S32768x1_0 : (⟨S32768, .i32⟩ : BufTy).Contents (Elt F) → (⟨S32768x1, .i32⟩ : BufTy).Contents (Elt F)),
    StableHlo.binary main_v144 main_v145 main_v146 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v1 main_v146 main_v147 ((fun x i => Host.gather gather_S1536x24x24_S32768x2_S1536x32768_0_12_n_n_12_1_153611 x i) : (⟨S1536x24x24, .f32⟩ : BufTy).Contents (Elt F) → (⟨S32768x2, .i32⟩ : BufTy).Contents (Elt F) → (⟨S1536x32768, .f32⟩ : BufTy).Contents (Elt F)),
    StableHlo.nullary main_cst_50 (constant S_ .f32 0x3F800000#32),
    StableHlo.unary main_cst_50 main_v148 (broadcastInDim S32768 ![] bcast_S_S32768 : (⟨S_, .f32⟩ : BufTy).Contents (Elt F) → (⟨S32768, .f32⟩ : BufTy).Contents (Elt F)),
    StableHlo.binary main_v148 main_v91 main_v149 (subf : (⟨S32768, .f32⟩ : BufTy).Contents (Elt F) → (⟨S32768, .f32⟩ : BufTy).Contents (Elt F) → (⟨S32768, .f32⟩ : BufTy).Contents (Elt F)),
    StableHlo.nullary main_cst_51 (constant S_ .f32 0x3F800000#32),
    StableHlo.unary main_cst_51 main_v150 (broadcastInDim S32768 ![] bcast_S_S32768 : (⟨S_, .f32⟩ : BufTy).Contents (Elt F) → (⟨S32768, .f32⟩ : BufTy).Contents (Elt F)),
    StableHlo.binary main_v150 main_v89 main_v151 (subf : (⟨S32768, .f32⟩ : BufTy).Contents (Elt F) → (⟨S32768, .f32⟩ : BufTy).Contents (Elt F) → (⟨S32768, .f32⟩ : BufTy).Contents (Elt F)),
    StableHlo.binary main_v149 main_v151 main_v152 (mulf : (⟨S32768, .f32⟩ : BufTy).Contents (Elt F) → (⟨S32768, .f32⟩ : BufTy).Contents (Elt F) → (⟨S32768, .f32⟩ : BufTy).Contents (Elt F)),
    StableHlo.unary main_v152 main_v153 (broadcastInDim S1x32768 ![1] bcast_S32768_S1x32768_1 : (⟨S32768, .f32⟩ : BufTy).Contents (Elt F) → (⟨S1x32768, .f32⟩ : BufTy).Contents (Elt F)),
    StableHlo.unary main_v153 main_v154 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v154 main_v105 main_v155 (mulf : (⟨S1536x32768, .f32⟩ : BufTy).Contents (Elt F) → (⟨S1536x32768, .f32⟩ : BufTy).Contents (Elt F) → (⟨S1536x32768, .f32⟩ : BufTy).Contents (Elt F)),
    StableHlo.nullary main_cst_52 (constant S_ .f32 0x3F800000#32),
    StableHlo.unary main_cst_52 main_v156 (broadcastInDim S32768 ![] bcast_S_S32768 : (⟨S_, .f32⟩ : BufTy).Contents (Elt F) → (⟨S32768, .f32⟩ : BufTy).Contents (Elt F)),
    StableHlo.binary main_v156 main_v91 main_v157 (subf : (⟨S32768, .f32⟩ : BufTy).Contents (Elt F) → (⟨S32768, .f32⟩ : BufTy).Contents (Elt F) → (⟨S32768, .f32⟩ : BufTy).Contents (Elt F)),
    StableHlo.binary main_v157 main_v89 main_v158 (mulf : (⟨S32768, .f32⟩ : BufTy).Contents (Elt F) → (⟨S32768, .f32⟩ : BufTy).Contents (Elt F) → (⟨S32768, .f32⟩ : BufTy).Contents (Elt F)),
    StableHlo.unary main_v158 main_v159 (broadcastInDim S1x32768 ![1] bcast_S32768_S1x32768_1 : (⟨S32768, .f32⟩ : BufTy).Contents (Elt F) → (⟨S1x32768, .f32⟩ : BufTy).Contents (Elt F)),
    StableHlo.unary main_v159 main_v160 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v160 main_v119 main_v161 (mulf : (⟨S1536x32768, .f32⟩ : BufTy).Contents (Elt F) → (⟨S1536x32768, .f32⟩ : BufTy).Contents (Elt F) → (⟨S1536x32768, .f32⟩ : BufTy).Contents (Elt F)),
    StableHlo.binary main_v155 main_v161 main_v162 (addf : (⟨S1536x32768, .f32⟩ : BufTy).Contents (Elt F) → (⟨S1536x32768, .f32⟩ : BufTy).Contents (Elt F) → (⟨S1536x32768, .f32⟩ : BufTy).Contents (Elt F)),
    StableHlo.nullary main_cst_53 (constant S_ .f32 0x3F800000#32),
    StableHlo.unary main_cst_53 main_v163 (broadcastInDim S32768 ![] bcast_S_S32768 : (⟨S_, .f32⟩ : BufTy).Contents (Elt F) → (⟨S32768, .f32⟩ : BufTy).Contents (Elt F)),
    StableHlo.binary main_v163 main_v89 main_v164 (subf : (⟨S32768, .f32⟩ : BufTy).Contents (Elt F) → (⟨S32768, .f32⟩ : BufTy).Contents (Elt F) → (⟨S32768, .f32⟩ : BufTy).Contents (Elt F)),
    StableHlo.binary main_v91 main_v164 main_v165 (mulf : (⟨S32768, .f32⟩ : BufTy).Contents (Elt F) → (⟨S32768, .f32⟩ : BufTy).Contents (Elt F) → (⟨S32768, .f32⟩ : BufTy).Contents (Elt F)),
    StableHlo.unary main_v165 main_v166 (broadcastInDim S1x32768 ![1] bcast_S32768_S1x32768_1 : (⟨S32768, .f32⟩ : BufTy).Contents (Elt F) → (⟨S1x32768, .f32⟩ : BufTy).Contents (Elt F)),
    StableHlo.unary main_v166 main_v167 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v167 main_v133 main_v168 (mulf : (⟨S1536x32768, .f32⟩ : BufTy).Contents (Elt F) → (⟨S1536x32768, .f32⟩ : BufTy).Contents (Elt F) → (⟨S1536x32768, .f32⟩ : BufTy).Contents (Elt F)),
    StableHlo.binary main_v162 main_v168 main_v169 (addf : (⟨S1536x32768, .f32⟩ : BufTy).Contents (Elt F) → (⟨S1536x32768, .f32⟩ : BufTy).Contents (Elt F) → (⟨S1536x32768, .f32⟩ : BufTy).Contents (Elt F)),
    StableHlo.binary main_v91 main_v89 main_v170 (mulf : (⟨S32768, .f32⟩ : BufTy).Contents (Elt F) → (⟨S32768, .f32⟩ : BufTy).Contents (Elt F) → (⟨S32768, .f32⟩ : BufTy).Contents (Elt F)),
    StableHlo.unary main_v170 main_v171 (broadcastInDim S1x32768 ![1] bcast_S32768_S1x32768_1 : (⟨S32768, .f32⟩ : BufTy).Contents (Elt F) → (⟨S1x32768, .f32⟩ : BufTy).Contents (Elt F)),
    StableHlo.unary main_v171 main_v172 (broadcastInDim S1536x32768 ![0, 1] bcast_S1x32768_S1536x32768_0_1 : (⟨S1x32768, .f32⟩ : BufTy).Contents (Elt F) → (⟨S1536x32768, .f32⟩ : BufTy).Contents (Elt F)),
    StableHlo.binary main_v172 main_v147 main_v173 (mulf : (⟨S1536x32768, .f32⟩ : BufTy).Contents (Elt F) → (⟨S1536x32768, .f32⟩ : BufTy).Contents (Elt F) → (⟨S1536x32768, .f32⟩ : BufTy).Contents (Elt F)),
    StableHlo.binary main_v169 main_v173 main_v174 (addf : (⟨S1536x32768, .f32⟩ : BufTy).Contents (Elt F) → (⟨S1536x32768, .f32⟩ : BufTy).Contents (Elt F) → (⟨S1536x32768, .f32⟩ : BufTy).Contents (Elt F)),
    StableHlo.unary main_v174 main_v175 ((transpose S32768x1536 [1, 0] · transposes_S1536x32768_S32768x1536_1_0) : (⟨S1536x32768, .f32⟩ : BufTy).Contents (Elt F) → (⟨S32768x1536, .f32⟩ : BufTy).Contents (Elt F)),
    StableHlo.binary main_arg0 main_v175 main_v176 (addf : (⟨S32768x1536, .f32⟩ : BufTy).Contents (Elt F) → (⟨S32768x1536, .f32⟩ : BufTy).Contents (Elt F) → (⟨S32768x1536, .f32⟩ : BufTy).Contents (Elt F)) ]

/-- The reference each of the first list's operations writes, in order. -/
abbrev writtenA : List (Ref sig .tc) :=
  [ main_v0, main_v1, main_v2, main_v3, main_call0.v0.ref, main_call0.v1.ref, main_call0.v2.ref, main_c, main_v5, main_c_0, main_v6, main_call1.call0.c.ref, main_call1.call0.v0.ref, main_call1.call0.v1.ref, main_c_1, main_v8, main_c_2, main_v9, main_v10, main_c_3, main_v11, main_v12, main_v13, main_v14, main_c_4, main_v15, main_v16, main_call2.call0.c.ref, main_call2.call0.v0.ref, main_call2.call0.v1.ref, main_c_5, main_v18, main_v19, main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.c_4.ref, main_call3.v14.ref, main_call3.v15.ref, main_v21, main_v22, main_v23, main_call4.v0.ref, main_call4.v1.ref, main_call4.v2.ref, main_c_6, main_v25, main_c_7, main_v26, main_call5.call0.c.ref, main_call5.call0.v0.ref, main_call5.call0.v1.ref, main_c_8, main_v28, main_c_9, main_v29, main_v30, main_c_10, main_v31, main_v32, main_v33, main_v34, main_c_11, main_v35, main_v36, main_call6.call0.c.ref, main_call6.call0.v0.ref, main_call6.call0.v1.ref, main_c_12, main_v38, main_v39, main_call7.c.ref, main_call7.v0.ref, main_call7.v1.ref, main_call7.c_0.ref, main_call7.v2.ref, main_call7.v3.ref, main_call7.call0.v0.ref, main_call7.v5.ref, main_call7.c_1.ref, main_call7.c_2.ref, main_call7.v6.ref, main_call7.v7.ref, main_call7.v8.ref, main_call7.v9.ref, main_call7.v10.ref, main_call7.v11.ref, main_call7.c_3.ref, main_call7.v12.ref, main_call7.v13.ref, main_call7.c_4.ref, main_call7.v14.ref, main_call7.v15.ref, main_v41, main_v42, main_cst, main_v43, main_v44, main_v45, main_cst_13, main_v46, main_v47, main_cst_14, main_v48, main_v49, main_v50, main_cst_15, main_v51, main_v52, main_v53, main_cst_16, main_v54, main_v55, main_cst_17, main_v56, main_v57, main_cst_18, main_v58, main_v59, main_cst_19, main_v60, main_v61, main_cst_20, main_v62, main_v63, main_cst_21, main_v64, main_v65, main_cst_22, main_v66, main_v67, main_cst_23, main_v68, main_v69, main_cst_24, main_v70, main_v71, main_cst_25, main_v72, main_v73, main_cst_26, main_cst_27, main_call8.v0.ref, main_call8.v1.ref, main_call8.v2.ref, main_call8.v3.ref, main_call8.v4.ref, main_call8.v5.ref, main_cst_28, main_cst_29, main_call9.v0.ref, main_call9.v1.ref, main_call9.v2.ref, main_call9.v3.ref, main_call9.v4.ref, main_call9.v5.ref ]

/-- The reference each of the second list's operations writes, in order. -/
abbrev writtenB : List (Ref sig .tc) :=
  [ main_v76, main_v77, main_v78, main_v79, main_c_30, main_v80, main_v81, main_c_31, main_v82, main_v83, main_c_32, main_v84, main_v85, main_c_33, main_v86, main_v87, main_v88, main_v89, main_v90, main_v91, main_c_34, main_v92, main_v93, main_c_35, main_v94, main_v95, main_v96, main_c_36, main_v97, main_v98, main_c_37, main_v99, main_v100, main_v101, main_v102, main_v103, main_v104, main_v105, main_c_38, main_v106, main_v107, main_c_39, main_v108, main_v109, main_v110, main_c_40, main_v111, main_v112, main_c_41, main_v113, main_v114, main_v115, main_v116, main_v117, main_v118, main_v119, main_c_42, main_v120, main_v121, main_c_43, main_v122, main_v123, main_v124, main_c_44, main_v125, main_v126, main_c_45, main_v127, main_v128, main_v129, main_v130, main_v131, main_v132, main_v133, main_c_46, main_v134, main_v135, main_c_47, main_v136, main_v137, main_v138, main_c_48, main_v139, main_v140, main_c_49, main_v141, main_v142, main_v143, main_v144, main_v145, main_v146, main_v147, main_cst_50, main_v148, main_v149, main_cst_51, main_v150, main_v151, main_v152, main_v153, main_v154, main_v155, main_cst_52, main_v156, main_v157, main_v158, main_v159, main_v160, main_v161, main_v162, main_cst_53, main_v163, main_v164, main_v165, main_v166, main_v167, main_v168, main_v169, main_v170, main_v171, main_v172, main_v173, main_v174, main_v175, main_v176 ]

set_option maxRecDepth 8192 in
theorem opsA_sub : (opsA : List (HloOp τ sig (Elt F))).Forall fun op => op.bufs ⊆ tcRefs τ sig :=
  ⟨reshape_bufs_sub .., unary_bufs_sub .., unary_bufs_sub .., reshape_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., reshape_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem opsB_sub : (opsB : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub ..⟩

set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## @main is the list

Each printed window of @main is its own operations run in order: a call unfolds to its body over the call's
buffers, a nested call likewise, and the record's fields to the buffers they name — by computation. -/

set_option maxRecDepth 8192 in
set_option maxHeartbeats 4000000 in
theorem main_part0_eq (c : Dev nD) : main_part0 (F := F) c = seq win0 := rfl
set_option maxRecDepth 8192 in
set_option maxHeartbeats 4000000 in
theorem main_part1_eq (c : Dev nD) : main_part1 (F := F) c = seq win1 := rfl
set_option maxRecDepth 8192 in
set_option maxHeartbeats 4000000 in
theorem main_part2_eq (c : Dev nD) : main_part2 (F := F) c = seq win2 := rfl
set_option maxRecDepth 8192 in
set_option maxHeartbeats 4000000 in
theorem main_part3_eq (c : Dev nD) : main_part3 (F := F) c = seq win3 := rfl

set_option maxRecDepth 8192 in
/-- The two pieces end to end are the four windows end to end: the same 297 operations in the same order. -/
theorem ops_eq_wins : (opsA ++ opsB : List (HloOp τ sig (Elt F))) = win0 ++ (win1 ++ (win2 ++ win3)) := rfl

/-- @main is the 297 operations run in order: window by window, and a line run after a line is their
    concatenation run as one (`seq_append`). -/
theorem main_eq (c : Dev nD) : main (F := F) c = seq (opsA ++ opsB) := by
  rw [ops_eq_wins, seq_append, seq_append, seq_append, ← main_part0_eq c, ← main_part1_eq c, ← main_part2_eq c,
    ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

/-- Every operation determines its results: none allocates. -/
theorem ops_fresh : ∀ op ∈ (opsA ++ opsB : List (HloOp τ sig (Elt F))), op.fresh = ∅ := fun op h =>
  (List.mem_append.mp h).elim (List.forall_iff_forall_mem.mp opsA_fresh op) (List.forall_iff_forall_mem.mp opsB_fresh op)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsA ++ opsB) (launchContents m c) (b : DevRef τ sig) :=
  run_seq scopedRefs_eq scopedSems_eq defs main (fun _ => opsA ++ opsB) main_eq (fun _ => ops_sub) m ρ (fun _ => ops_fresh)

/-! ## No operation writes an argument

Each operation writes exactly one reference; `writtenA` and `writtenB` list them in order. A reference that is in
neither list is written by no operation, so the fold leaves it as it was; the six arguments are such. -/

/-- If the operations of a line write, one each and in order, the references `W`, then no operation of the line
    writes a reference outside `W`. -/
theorem not_mem_writes_of_forall₂ {ops : List (HloOp τ sig (Elt F))} {W : List (Ref sig .tc)}
    (h : List.Forall₂ (fun (op : HloOp τ sig (Elt F)) y => op.writes = {Proc.devRef (τ := τ) .tc y}) ops W)
    {r : Ref sig .tc} (hr : r ∉ W) : ∀ op ∈ ops, Proc.devRef (τ := τ) .tc r ∉ op.writes := by
  induction h with
  | nil => intro op hop; cases hop
  | cons hy _ ih =>
    intro o ho
    rcases List.mem_cons.mp ho with rfl | ho
    · rw [hy, Finset.mem_singleton]
      exact devRef_ne_of_ne fun e => hr (List.mem_cons.mpr (Or.inl e))
    · exact ih (fun hm => hr (List.mem_cons.mpr (Or.inr hm))) o ho

set_option maxRecDepth 8192 in
theorem opsA_writes : List.Forall₂ (fun (op : HloOp τ sig (Elt F)) y => op.writes = {Proc.devRef (τ := τ) .tc y}) opsA writtenA := by
  repeat (first | exact List.Forall₂.nil | refine List.Forall₂.cons rfl ?_)
set_option maxRecDepth 8192 in
theorem opsB_writes : List.Forall₂ (fun (op : HloOp τ sig (Elt F)) y => op.writes = {Proc.devRef (τ := τ) .tc y}) opsB writtenB := by
  repeat (first | exact List.Forall₂.nil | refine List.Forall₂.cons rfl ?_)

/-- A reference in neither list of written references is written by no operation. -/
theorem not_written {r : Ref sig .tc} (hA : r ∉ writtenA) (hB : r ∉ writtenB) :
    ∀ op ∈ (opsA ++ opsB : List (HloOp τ sig (Elt F))), Proc.devRef (τ := τ) .tc r ∉ op.writes := fun op h =>
  (List.mem_append.mp h).elim (not_mem_writes_of_forall₂ opsA_writes hA op) (not_mem_writes_of_forall₂ opsB_writes hB op)

set_option maxRecDepth 8192 in
theorem arg0_eq (V : Valuation τ sig (Elt F)) :
    after (opsA ++ opsB) V (main_arg0 : DevRef τ sig) = V (main_arg0 : DevRef τ sig) :=
  after_of_forall_not_mem (b := Proc.devRef .tc main_arg0) _ _ (not_written (by decide) (by decide))
set_option maxRecDepth 8192 in
theorem arg1_eq (V : Valuation τ sig (Elt F)) :
    after (opsA ++ opsB) V (main_arg1 : DevRef τ sig) = V (main_arg1 : DevRef τ sig) :=
  after_of_forall_not_mem (b := Proc.devRef .tc main_arg1) _ _ (not_written (by decide) (by decide))
set_option maxRecDepth 8192 in
theorem arg2_eq (V : Valuation τ sig (Elt F)) :
    after (opsA ++ opsB) V (main_arg2 : DevRef τ sig) = V (main_arg2 : DevRef τ sig) :=
  after_of_forall_not_mem (b := Proc.devRef .tc main_arg2) _ _ (not_written (by decide) (by decide))
set_option maxRecDepth 8192 in
theorem arg3_eq (V : Valuation τ sig (Elt F)) :
    after (opsA ++ opsB) V (main_arg3 : DevRef τ sig) = V (main_arg3 : DevRef τ sig) :=
  after_of_forall_not_mem (b := Proc.devRef .tc main_arg3) _ _ (not_written (by decide) (by decide))
set_option maxRecDepth 8192 in
theorem arg4_eq (V : Valuation τ sig (Elt F)) :
    after (opsA ++ opsB) V (main_arg4 : DevRef τ sig) = V (main_arg4 : DevRef τ sig) :=
  after_of_forall_not_mem (b := Proc.devRef .tc main_arg4) _ _ (not_written (by decide) (by decide))
set_option maxRecDepth 8192 in
theorem arg5_eq (V : Valuation τ sig (Elt F)) :
    after (opsA ++ opsB) V (main_arg5 : DevRef τ sig) = V (main_arg5 : DevRef τ sig) :=
  after_of_forall_not_mem (b := Proc.devRef .tc main_arg5) _ _ (not_written (by decide) (by decide))

end Cert.ReferenceIdeal.Hand

end
-- ==== Proof.CellSpec.lean ====
/-
  The bilinear cell of a coordinate, as numbers. A coordinate clipped into [0, 23] has a cell (its floor, a 32-bit
  word), a neighbouring cell (one further, kept inside the grid) and a fraction (coordinate minus cell). From the x
  and y cells come the four corner places y*24 + x of the 24 x 24 grid.

  One program packs the four places (held in the float format) and the two fractions into a token's row of eight
  numbers and later finds each place again by comparing it with every place k; the other looks each corner up
  directly, after the usual wrap of a negative index and the lookup's clamping into the axis. Both are written here
  over plain numbers: packedRow for the first, blend for the second.
-/
import proofs.«124072_j15384572854614_2_alg».proof.Proof.RowSpec

noncomputable section

namespace Cert.CellSpec

open Idealize.ShloMosaic Cert.RowSpec

/-- The float words of 0 and 23, the grid's ends. -/
abbrev lo : EReal := Ideal.ofBits .f32 0x00000000#32
abbrev hi : EReal := Ideal.ofBits .f32 0x41B80000#32

/-- A coordinate clipped into the grid. -/
def clip (u : EReal) : EReal := min hi (max lo u)

/-- The cell of a coordinate: its floor, converted to a 32-bit word. -/
def cell (cx : EReal) : BitVec 32 := Ideal.fptosi 32 (Ideal.liftRound Int.floor cx)

/-- The neighbouring cell, kept inside the grid. -/
def next (b : BitVec 32) : BitVec 32 := IntOp.minsi (IntOp.addi b 1#32) 23#32

/-- The fraction: coordinate minus cell. -/
def frac (cx : EReal) : EReal := cx - (((cell cx).toInt : ℝ) : EReal)

/-- The place of cell (y, x) in row-major order, held in the float format. -/
def place (y x : BitVec 32) : EReal := (((IntOp.addi (IntOp.muli y 24#32) x).toInt : ℝ) : EReal)

/-- A token's eight packed numbers from its two clipped coordinates. -/
def packedRow (cx cy : EReal) : Fin 8 → EReal :=
  ![place (cell cy) (cell cx), place (cell cy) (next (cell cx)), place (next (cell cy)) (cell cx),
    place (next (cell cy)) (next (cell cx)), frac cx, frac cy, lo, lo]

/-- A negative index counted from the end of an axis of 24. -/
def wrap (b : BitVec 32) : BitVec 32 := Scalar.select (IntOp.cmpi .slt b 0#32) (IntOp.addi b 24#32) b

/-- A lookup's start index read signed and clamped into an axis of 24. -/
def clampN (b : BitVec 32) : ℕ := min b.toInt.toNat 23

theorem clampN_le (b : BitVec 32) : clampN b ≤ 23 := Nat.min_le_right _ _

/-- The table column's entry at corner (y, x). -/
def corner (P : Fin 576 → EReal) (y x : BitVec 32) : EReal :=
  P ⟨clampN (wrap y) * 24 + clampN (wrap x), by have := clampN_le (wrap y); have := clampN_le (wrap x); omega⟩

/-- The four corners blended by the fractions. -/
def blend (cx cy : EReal) (P : Fin 576 → EReal) : EReal :=
  ((((one - frac cy) * (one - frac cx)) * corner P (cell cy) (cell cx)
      + ((one - frac cy) * frac cx) * corner P (cell cy) (next (cell cx)))
    + (frac cy * (one - frac cx)) * corner P (next (cell cy)) (cell cx))
    + (frac cy * frac cx) * corner P (next (cell cy)) (next (cell cx))

end Cert.CellSpec

end
-- ==== Proof.LibNary8.lean ====
/-
  A host operation with EIGHT literal operands (an eight-way concatenate) read at its own result: the function applied
  to each operand's contents at that operand's own reference, listed one by one — so that a fold of operations read at
  a buffer goes on through the operands, each a literal reference again. The eight-operand companion of the library's
  four-operand form. Library imports only.
-/
import Idealize.ShloMosaic.Lib.StableHlo.Run

noncomputable section

namespace Idealize.ShloMosaic.StableHlo

variable {τ : Topo} {sig : RefSig} {Val : EltTy → Type}

/-- The result of an eight-operand operation at its result reference. -/
theorem nary8_result {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

/-- The same with the result reference un-indexed, for use as a simp lemma. -/
theorem nary8_result' {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) :=
  nary8_result f hxs hy F

/-- The fold of a line read at a buffer, as one simp pass, going through eight-operand operations. -/
macro "line_results8" : tactic =>
  `(tactic| (simp (disch := decide) only [after_cons, after_nil,
      nullary_result', unary_result', binary_result', ternary_result', quaternary_result', reshape_result', nary8_result',
      nullary_result_ne', unary_result_ne', binary_result_ne', ternary_result_ne', quaternary_result_ne', reshape_result_ne',
      nary_result_ne']))

end Idealize.ShloMosaic.StableHlo

end
-- ==== Proof.HostTail.lean ====
/-
  The last lines of @main before the launch, read as arrays. From the two clipped coordinate arrays cx, cy (one entry
  per token) they compute each token's cell and neighbouring cell along x and y, the four corner places y*24 + x held
  in the float format, and the two fractions, and lay these six columns and two columns of zeros side by side: the
  packed array, 8 numbers per token. Beside it they put the table in its narrow format (the same numbers) and a copy
  of the embeddings for the launch to overwrite. Token r's packed row is the cell specification's packedRow of its two
  coordinates.
-/
import proofs.«124072_j15384572854614_2_alg».proof.Proof.TileIdeal
import proofs.«124072_j15384572854614_2_alg».proof.Proof.CellSpec
import proofs.«124072_j15384572854614_2_alg».proof.Proof.LibNary8
import Idealize.ShloMosaic.Lib.ValueIdx
import Idealize.ShloMosaic.Lib.Pipeline.Value
import Idealize.ShloMosaic.Lib.StableHlo.Run

set_option maxRecDepth 16384

noncomputable section

namespace Cert.KernelIdeal.HostTail

open Cert.KernelIdeal Cert.KernelIdeal.Gen Cert.KernelIdeal.Tile Cert.CellSpec
open Idealize.ShloMosaic Idealize.ShloMosaic.TcCoe Idealize.ShloMosaic.ValueIdx Idealize.SL.Sem Idealize.ShloMosaic.StableHlo

/-! ## The arrays -/

/-- A 32-bit constant, one per token. -/
abbrev bc (b : BitVec 32) : IVec S32768 32 := broadcastInDim S32768 ![] bcast_S_S32768 (constantI S_ 32 b)

def cellA (cx : FVec Ideal S32768 .f32) : IVec S32768 32 := fptosi 32 (Host.floor cx)
def nextA (x : IVec S32768 32) : IVec S32768 32 := minsi (addi x (bc 1#32)) (bc 23#32)
def fracA (cx : FVec Ideal S32768 .f32) : FVec Ideal S32768 .f32 := subf cx (sitofp .f32 (cellA cx))
def placeA (y x : IVec S32768 32) : FVec Ideal S32768 .f32 := sitofp .f32 (addi (muli y (bc 24#32)) x)
def colA (v : FVec Ideal S32768 .f32) : FVec Ideal S32768x1 .f32 := broadcastInDim S32768x1 ![0] bcast_S32768_S32768x1_0 v
def zerosA : FVec Ideal S32768 .f32 := broadcastInDim S32768 ![] bcast_S_S32768 (constant (F := Ideal) S_ .f32 0x00000000#32)

/-- The eight columns, in order. -/
abbrev piecesA (cx cy : FVec Ideal S32768 .f32) : List ((s : Shape) × (s.Idx → EReal)) :=
  [⟨S32768x1, colA (placeA (cellA cy) (cellA cx))⟩, ⟨S32768x1, colA (placeA (cellA cy) (nextA (cellA cx)))⟩, ⟨S32768x1, colA (placeA (nextA (cellA cy)) (cellA cx))⟩, ⟨S32768x1, colA (placeA (nextA (cellA cy)) (nextA (cellA cx)))⟩, ⟨S32768x1, colA (fracA cx)⟩, ⟨S32768x1, colA (fracA cy)⟩, ⟨S32768x1, colA zerosA⟩, ⟨S32768x1, colA zerosA⟩]

/-- The packed array from the two clipped coordinate arrays. -/
def packedA (cx cy : FVec Ideal S32768 .f32) : FVec Ideal S32768x8 .f32 :=
  concatenate S32768x8 1 (piecesA cx cy)
    concatenates_S32768x1_S32768x1_S32768x1_S32768x1_S32768x1_S32768x1_S32768x1_S32768x1_S32768x8_d1

/-! ## The last stretch read at the three arrays the launch takes -/

theorem tail_packed (Wv : Valuation τ sig (Elt Ideal)) :
    StableHlo.after (hostOps0_20 (F := Ideal)) Wv (main_v115 : DevRef τ sig)
      = packedA (Wv (main_v72 : DevRef τ sig)) (Wv (main_v73 : DevRef τ sig)) := by
  line_results8
  rfl

theorem tail_table (Wv : Valuation τ sig (Elt Ideal)) :
    StableHlo.after (hostOps0_20 (F := Ideal)) Wv (main_v116 : DevRef τ sig)
      = (truncf .bf16 (show FVec Ideal S576x1536 .f32 from Wv (main_arg1 : DevRef τ sig)) bitsLt_bf16_f32 : FVec Ideal S576x1536 .bf16) := by
  line_results8

/-! ## A token's packed row -/

theorem colA_apply (v : FVec Ideal S32768 .f32) (r : Fin 32768) : colA v (ix2 r (0 : Fin 1)) = v (ix1 r) := by
  unfold colA
  exact broadcastInDim_apply ![0] bcast_S32768_S32768x1_0 v (ix2 r (0 : Fin 1)) (ix1 r) fun a => by
    match a with
    | ⟨0, _⟩ => rfl

theorem bc_apply (b : BitVec 32) (r : Fin 32768) : bc b (ix1 r) = b := rfl
theorem cellA_apply (cx : FVec Ideal S32768 .f32) (r : Fin 32768) : cellA cx (ix1 r) = cell (cx (ix1 r)) := rfl
theorem nextA_apply (x : IVec S32768 32) (r : Fin 32768) : nextA x (ix1 r) = next (x (ix1 r)) := rfl
theorem fracA_apply (cx : FVec Ideal S32768 .f32) (r : Fin 32768) : fracA cx (ix1 r) = frac (cx (ix1 r)) := rfl
theorem placeA_apply (y x : IVec S32768 32) (r : Fin 32768) : placeA y x (ix1 r) = place (y (ix1 r)) (x (ix1 r)) := rfl
theorem zerosA_apply (r : Fin 32768) : zerosA (ix1 r) = lo := rfl

set_option maxHeartbeats 2000000 in
/-- Eight columns laid side by side: entry (r, j) is column j's entry r. -/
theorem concat8_apply (f0 f1 f2 f3 f4 f5 f6 f7 : S32768x1.Idx → EReal)
    (h : Shape.Concatenates [S32768x1, S32768x1, S32768x1, S32768x1, S32768x1, S32768x1, S32768x1, S32768x1] S32768x8 1)
    (r : Fin 32768) (j : Fin 8) :
    concatenate S32768x8 1 [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r j) = (![f0, f1, f2, f3, f4, f5, f6, f7] j) (ix2 r (0 : Fin 1)) := by
  fin_cases j
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (0 : Fin 8)) 0 (show 0 < 8 by omega) S32768x1 f0 rfl rfl 0 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (1 : Fin 8)) 1 (show 1 < 8 by omega) S32768x1 f1 rfl rfl 1 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (2 : Fin 8)) 2 (show 2 < 8 by omega) S32768x1 f2 rfl rfl 2 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (3 : Fin 8)) 3 (show 3 < 8 by omega) S32768x1 f3 rfl rfl 3 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (4 : Fin 8)) 4 (show 4 < 8 by omega) S32768x1 f4 rfl rfl 4 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (5 : Fin 8)) 5 (show 5 < 8 by omega) S32768x1 f5 rfl rfl 5 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (6 : Fin 8)) 6 (show 6 < 8 by omega) S32768x1 f6 rfl rfl 6 rfl (ix2 r (0 : Fin 1))
      (fun b hb => by
        match b with
        | ⟨0, _⟩ => rfl
        | ⟨1, _⟩ => exact absurd rfl hb) rfl
  · exact concatenate_apply_piece (t := S32768x8) (1 : Fin 2) [⟨S32768x1, f0⟩, ⟨S32768x1, f1⟩, ⟨S32768x1, f2⟩, ⟨S32768x1, f3⟩, ⟨S32768x1, f4⟩, ⟨S32768x1, f5⟩, ⟨S32768x1, f6⟩, ⟨S32768x1, f7⟩] h (ix2 r (7 : Fin 8)) 7 (show 7 < 8 by omega) S32768x1 f7 rfl rfl 7 rfl (ix2 r (0 : Fin 1))
      (fun b hb => by
        match b with
        | ⟨0, _⟩ => rfl
        | ⟨1, _⟩ => exact absurd rfl hb) rfl

theorem packedA_apply (cx cy : FVec Ideal S32768 .f32) (r : Fin 32768) (j : Fin 8) :
    packedA cx cy (ix2 r j) = packedRow (cx (ix1 r)) (cy (ix1 r)) j := by
  unfold packedA piecesA
  rw [concat8_apply]
  fin_cases j
  · show colA (placeA (cellA cy) (cellA cx)) (ix2 r (0 : Fin 1)) = _
    rw [colA_apply, placeA_apply, cellA_apply, cellA_apply]; rfl
  · show colA (placeA (cellA cy) (nextA (cellA cx))) (ix2 r (0 : Fin 1)) = _
    rw [colA_apply, placeA_apply, nextA_apply, cellA_apply, cellA_apply]; rfl
  · show colA (placeA (nextA (cellA cy)) (cellA cx)) (ix2 r (0 : Fin 1)) = _
    rw [colA_apply, placeA_apply, nextA_apply, cellA_apply, cellA_apply]; rfl
  · show colA (placeA (nextA (cellA cy)) (nextA (cellA cx))) (ix2 r (0 : Fin 1)) = _
    rw [colA_apply, placeA_apply, nextA_apply, nextA_apply, cellA_apply, cellA_apply]; rfl
  · show colA (fracA cx) (ix2 r (0 : Fin 1)) = _
    rw [colA_apply, fracA_apply]; rfl
  · show colA (fracA cy) (ix2 r (0 : Fin 1)) = _
    rw [colA_apply, fracA_apply]; rfl
  · show colA zerosA (ix2 r (0 : Fin 1)) = _
    rw [colA_apply, zerosA_apply]; rfl
  · show colA zerosA (ix2 r (0 : Fin 1)) = _
    rw [colA_apply, zerosA_apply]; rfl

end Cert.KernelIdeal.HostTail

end
-- ==== Proof.LaunchArrays.lean ====
/-
  The three arrays the launch reads, as the lines of @main leave them. @main's lines before the launch are its first
  twenty stretches followed by the last one; whatever the first twenty leave (W), the last stretch makes the packed
  array from W's two clipped coordinate arrays, the table in its narrow format from the table argument, and a copy of
  the embeddings. No line writes an argument, so the table read through W is the table as launched.
-/
import proofs.«124072_j15384572854614_2_alg».proof.Proof.HostTail

set_option maxRecDepth 16384

noncomputable section

namespace Cert.KernelIdeal.LaunchArrays

open Cert.KernelIdeal Cert.KernelIdeal.Gen Cert.KernelIdeal.Tile Cert.KernelIdeal.HostTail
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first twenty stretches. -/
abbrev head : List (List (HloOp τ sig (Elt Ideal))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]

/-- What they leave. -/
def W (c : Dev nD) : Valuation τ sig (Elt Ideal) := StableHlo.after (List.flatten head) (fun b => m (c, b))

theorem pre_split : List.flatten (pre (F := Ideal)) = List.flatten head ++ hostOps0_20 := by
  simp only [List.flatten_cons, List.flatten_nil, List.append_nil, List.append_assoc]

/-- The launch finds every array at the last stretch's fold over W. -/
theorem V_split (c : Dev nD) (b : Ref sig .tc) :
    V m c b = StableHlo.after (hostOps0_20 (F := Ideal)) (W m c) (b : DevRef τ sig) := by
  show StableHlo.after (List.flatten (pre (F := Ideal))) (fun b => m (c, b)) (b : DevRef τ sig) = _
  rw [pre_split, StableHlo.after_append]
  rfl

theorem tail_keeps_arg1 (Wv : Valuation τ sig (Elt Ideal)) :
    StableHlo.after (hostOps0_20 (F := Ideal)) Wv (main_arg1 : DevRef τ sig) = Wv (main_arg1 : DevRef τ sig) := by
  line_results8

/-- The packed array the launch reads. -/
theorem V_packed (c : Dev nD) :
    V m c main_v115 = packedA (W m c (main_v72 : DevRef τ sig)) (W m c (main_v73 : DevRef τ sig)) := by
  rw [V_split]
  exact tail_packed (W m c)

/-- The table the launch reads: the table argument, in the narrow format. -/
theorem V_table (c : Dev nD) :
    V m c main_v116 = (truncf .bf16 (show FVec Ideal S576x1536 .f32 from m ((c.tc : Thread nD τ).loc main_arg1)) bitsLt_bf16_f32 : FVec Ideal S576x1536 .bf16) := by
  have h1 : W m c (main_arg1 : DevRef τ sig) = m ((c.tc : Thread nD τ).loc main_arg1) := by
    have e := V_split m c main_arg1
    rw [tail_keeps_arg1, V_main_arg1] at e
    exact e.symm
  rw [V_split, tail_table, h1]

end Cert.KernelIdeal.LaunchArrays

end
-- ==== Proof.LibPlaneGather.lean ====
/-
  Two reads at coordinates, general in every extent.

  (1) A gather of whole first-axis fibres. From a table of shape `[C, N1, N2]` and `R` start pairs (an `R × 2`
  array), the gather with offset axis `[0]`, collapsed axes `[1, 2]`, no batching axes, start index map `[1, 2]`,
  index vector axis 1 and slice sizes `[C, 1, 1]` has result shape `[C, R]`.  Result element `(c, e)` is the table's
  element on channel `c` whose second coordinate is the start index `idx[e, 0]` and whose third is `idx[e, 1]`,
  each read as a signed number and clamped into its axis (`gather_plane_apply`).

  (2) A matrix as a stack of planes. An `[a * b, c]` matrix reshaped to `[a, b, c]` and then transposed by the
  permutation `[2, 0, 1]` to `[c, a, b]` reads, at `(k, i, j)`, the matrix at row `i * b + j` and column `k`
  (`plane_apply`).
-/
import Idealize.ShloMosaic.Lib.ValueIdx
import Idealize.ShloMosaic.Lib.Pipeline.Value
import Idealize.ShloMosaic.Lib.ValueLayout

namespace Cert.LibPlaneGather

open Idealize.ShloMosaic Idealize.ShloMosaic.ValueIdx

variable {α : Type}

/-! ## A gather of first-axis fibres read at coordinates -/

/-- Those dimension numbers for a table `[C, N1, N2]`, start indices `[R, 2]` and result `[C, R]`. -/
abbrev planeDims (C N1 N2 R : Nat)
    (wf : GatherDims.WF ⟨3, ![C, N1, N2]⟩ ⟨2, ![R, 2]⟩ ⟨2, ![C, R]⟩ [0] [1, 2] [] [1, 2] [] 1 ![C, 1, 1]) :
    GatherDims ⟨3, ![C, N1, N2]⟩ ⟨2, ![R, 2]⟩ ⟨2, ![C, R]⟩ where
  offsetDims := [0]
  collapsedSliceDims := [1, 2]
  operandBatchingDims := []
  startIndicesBatchingDims := []
  startIndexMap := [1, 2]
  indexVectorDim := 1
  sliceSizes := ![C, 1, 1]
  wf := wf

section
variable {C N1 N2 R w : Nat}
  (wf : GatherDims.WF ⟨3, ![C, N1, N2]⟩ ⟨2, ![R, 2]⟩ ⟨2, ![C, R]⟩ [0] [1, 2] [] [1, 2] [] 1 ![C, 1, 1])
  (idx : IVec ⟨2, ![R, 2]⟩ w) (c : Fin C) (e : Fin R)

/-- On the first axis, the one kept whole, the operand index is the result's first coordinate: the axis is not in
    the start index map, so the slice starts at `0`, and it is the only offset axis. -/
theorem operand_fibre :
    (planeDims C N1 N2 R wf).start (ix2 c e) idx 0 + (planeDims C N1 N2 R wf).batchCoord (ix2 c e) 0
        + (planeDims C N1 N2 R wf).offCoord (ix2 c e) 0
      = c.val := by
  rw [GatherDims.batchCoord_eq_zero _ _ _ List.not_mem_nil]
  unfold GatherDims.start
  rw [dif_neg (show (0 : Fin 3) ∉ (planeDims C N1 N2 R wf).startIndexMap from by
    show (0 : Fin 3) ∉ [(1 : Fin 3), 2]
    decide)]
  simp only [Nat.add_zero, Nat.zero_add]
  unfold GatherDims.offCoord
  rw [dif_pos ((GatherDims.mem_sKept _ _).mpr ⟨by
    show (0 : Fin 3) ∉ [(1 : Fin 3), 2]
    decide, List.not_mem_nil⟩)]
  have hone : ∀ (q : Nat) (hq : q < [(0 : Fin 2)].length), [(0 : Fin 2)][q]'hq = 0 := by
    intro q hq
    have hq0 : q = 0 := by simpa using hq
    subst hq0
    rfl
  show (ix2 c e ([(0 : Fin 2)][_]'_)).val = c.val
  rw [hone]

/-- On the second axis the operand index is the clamped first component of the start pair. -/
theorem operand_row :
    (planeDims C N1 N2 R wf).start (ix2 c e) idx 1 + (planeDims C N1 N2 R wf).batchCoord (ix2 c e) 1
        + (planeDims C N1 N2 R wf).offCoord (ix2 c e) 1
      = min (idx (ix2 e (0 : Fin 2))).toInt.toNat (N1 - 1) := by
  rw [GatherDims.batchCoord_eq_zero _ _ _ List.not_mem_nil,
    GatherDims.offCoord_eq_zero _ _ _ (fun h => ((GatherDims.mem_sKept _ _).mp h).1 (by
      show (1 : Fin 3) ∈ [(1 : Fin 3), 2]
      decide))]
  simp only [Nat.add_zero]
  unfold GatherDims.start
  rw [dif_pos (show (1 : Fin 3) ∈ (planeDims C N1 N2 R wf).startIndexMap from by
    show (1 : Fin 3) ∈ [(1 : Fin 3), 2]
    decide)]
  have hsi : (planeDims C N1 N2 R wf).siIdx (ix2 c e) ⟨List.idxOf (1 : Fin 3) (planeDims C N1 N2 R wf).startIndexMap,
      List.idxOf_lt_length_iff.2 (by show (1 : Fin 3) ∈ [(1 : Fin 3), 2]; decide)⟩ = ix2 e (0 : Fin 2) := by
    funext b; refine Fin.ext ?_
    match b with
    | ⟨0, _⟩ => rfl
    | ⟨1, _⟩ => rfl
  rw [hsi]
  rfl

/-- On the third axis the operand index is the clamped second component of the start pair. -/
theorem operand_col :
    (planeDims C N1 N2 R wf).start (ix2 c e) idx 2 + (planeDims C N1 N2 R wf).batchCoord (ix2 c e) 2
        + (planeDims C N1 N2 R wf).offCoord (ix2 c e) 2
      = min (idx (ix2 e (1 : Fin 2))).toInt.toNat (N2 - 1) := by
  rw [GatherDims.batchCoord_eq_zero _ _ _ List.not_mem_nil,
    GatherDims.offCoord_eq_zero _ _ _ (fun h => ((GatherDims.mem_sKept _ _).mp h).1 (by
      show (2 : Fin 3) ∈ [(1 : Fin 3), 2]
      decide))]
  simp only [Nat.add_zero]
  unfold GatherDims.start
  rw [dif_pos (show (2 : Fin 3) ∈ (planeDims C N1 N2 R wf).startIndexMap from by
    show (2 : Fin 3) ∈ [(1 : Fin 3), 2]
    decide)]
  have hsi : (planeDims C N1 N2 R wf).siIdx (ix2 c e) ⟨List.idxOf (2 : Fin 3) (planeDims C N1 N2 R wf).startIndexMap,
      List.idxOf_lt_length_iff.2 (by show (2 : Fin 3) ∈ [(1 : Fin 3), 2]; decide)⟩ = ix2 e (1 : Fin 2) := by
    funext b; refine Fin.ext ?_
    match b with
    | ⟨0, _⟩ => rfl
    | ⟨1, _⟩ => rfl
  rw [hsi]
  rfl

end

/-- The gather read at `(c, e)`: the table's element on channel `c` at the second coordinate `idx[e, 0]` and the
    third coordinate `idx[e, 1]`, each read signed and clamped into its axis. -/
theorem gather_plane_apply {C N1 N2 R w : Nat} (h1 : 0 < N1) (h2 : 0 < N2)
    (wf : GatherDims.WF ⟨3, ![C, N1, N2]⟩ ⟨2, ![R, 2]⟩ ⟨2, ![C, R]⟩ [0] [1, 2] [] [1, 2] [] 1 ![C, 1, 1])
    (x : (⟨3, ![C, N1, N2]⟩ : Shape).Idx → α) (idx : IVec ⟨2, ![R, 2]⟩ w) (c : Fin C) (e : Fin R) :
    Host.gather (planeDims C N1 N2 R wf) x idx (ix2 c e)
      = x (ix3 c (⟨min (idx (ix2 e (0 : Fin 2))).toInt.toNat (N1 - 1), by omega⟩ : Fin N1)
                 (⟨min (idx (ix2 e (1 : Fin 2))).toInt.toNat (N2 - 1), by omega⟩ : Fin N2)) := by
  unfold Host.gather
  congr 1
  funext a
  refine Fin.ext ?_
  match a with
  | ⟨0, _⟩ => exact operand_fibre wf idx c e
  | ⟨1, _⟩ => exact operand_row wf idx c e
  | ⟨2, _⟩ => exact operand_col wf idx c e

/-! ## A reshaped and transposed matrix read at coordinates -/

/-- An `[a * b, c]` matrix reshaped to `[a, b, c]` and transposed by `[2, 0, 1]` to `[c, a, b]` reads, at
    `(k, i, j)`, the matrix at `(i * b + j, k)`: the transpose moves the last axis to the front, and the reshape keeps
    the row-major position, which is `(i * b + j) * c + k` on both sides. -/
theorem plane_apply {a b c n : Nat} (hn : n = a * b) (x : (⟨2, ![n, c]⟩ : Shape).Idx → α)
    (hc : (⟨2, ![n, c]⟩ : Shape).ShapeCasts ⟨3, ![a, b, c]⟩)
    (ht : (⟨3, ![a, b, c]⟩ : Shape).Transposes [2, 0, 1] ⟨3, ![c, a, b]⟩)
    (k : Fin c) (i : Fin a) (j : Fin b) (p : Fin n) (hp : p.val = i.val * b + j.val) :
    transpose ⟨3, ![c, a, b]⟩ [2, 0, 1] (shapeCast ⟨3, ![a, b, c]⟩ x hc) ht (ix3 k i j) = x (ix2 p k) := by
  have h1 : transpose ⟨3, ![c, a, b]⟩ [2, 0, 1] (shapeCast ⟨3, ![a, b, c]⟩ x hc) ht (ix3 k i j)
      = shapeCast ⟨3, ![a, b, c]⟩ x hc (ix3 i j k) :=
    transpose_apply _ _ ht _ _ fun d => match d with | ⟨0, _⟩ => rfl | ⟨1, _⟩ => rfl | ⟨2, _⟩ => rfl
  rw [h1]
  exact shapeCast_apply x hc _ _ (by
    rw [Shape.rowMajor_val_two, Shape.rowMajor_val_three]
    show p.val * c + k.val = (i.val * b + j.val) * c + k.val
    rw [hp])

end Cert.LibPlaneGather
-- ==== Proof.RefTail.lean ====
/-
  The reference's last lines, read as arrays and then at an entry. From the two clipped coordinate arrays they compute
  each token's cells, neighbouring cells and fractions, look the four corners up in the table laid out as 1536 planes
  of 24 x 24 (a negative index wrapped, the lookup clamping each index into its axis), blend them by the fractions,
  turn the [1536, tokens] result around and add the embeddings. Entry (r, q) is the embeddings' entry plus the cell
  specification's blend of token r's coordinates against the table's column q.
-/
import proofs.«124072_j15384572854614_2_alg».proof.Proof.RefRun
import proofs.«124072_j15384572854614_2_alg».proof.Proof.CellSpec
import proofs.«124072_j15384572854614_2_alg».proof.Proof.LibPlaneGather
import Idealize.ShloMosaic.Lib.ValueIdx
import Idealize.ShloMosaic.Lib.Pipeline.Value
import Idealize.ShloMosaic.Lib.StableHlo.Run

set_option maxRecDepth 16384

noncomputable section

namespace Cert.ReferenceIdeal.Tail

open Cert.ReferenceIdeal Cert.ReferenceIdeal.Gen Cert.ReferenceIdeal.Hand Cert.CellSpec Cert.RowSpec
open Idealize.ShloMosaic Idealize.ShloMosaic.TcCoe Idealize.ShloMosaic.ValueIdx Idealize.SL.Sem Idealize.ShloMosaic.StableHlo

/-! ## The arrays -/

abbrev bc (b : BitVec 32) : IVec S32768 32 := broadcastInDim S32768 ![] bcast_S_S32768 (constantI S_ 32 b)

def cellA (cx : FVec Ideal S32768 .f32) : IVec S32768 32 := fptosi 32 (Host.floor cx)
def nextA (x : IVec S32768 32) : IVec S32768 32 := minsi (addi x (bc 1#32)) (bc 23#32)
def fracA (cx : FVec Ideal S32768 .f32) : FVec Ideal S32768 .f32 := subf cx (sitofp .f32 (cellA cx))
def wrapA (b : IVec S32768 32) : IVec S32768 32 := select (cmpi .slt b (bc 0#32)) (addi b (bc 24#32)) b
def colI (v : IVec S32768 32) : IVec S32768x1 32 := broadcastInDim S32768x1 ![0] bcast_S32768_S32768x1_0 v
def pairA (y x : IVec S32768 32) : IVec S32768x2 32 :=
  concatenate S32768x2 1 [⟨S32768x1, colI (wrapA y)⟩, ⟨S32768x1, colI (wrapA x)⟩] concatenates_S32768x1_S32768x1_S32768x2_d1
def lookA (planes : FVec Ideal S1536x24x24 .f32) (y x : IVec S32768 32) : FVec Ideal S1536x32768 .f32 :=
  Host.gather gather_S1536x24x24_S32768x2_S1536x32768_0_12_n_n_12_1_153611 planes (pairA y x)
def oneA : FVec Ideal S32768 .f32 := broadcastInDim S32768 ![] bcast_S_S32768 (constant (F := Ideal) S_ .f32 0x3F800000#32)
def spread (w : FVec Ideal S32768 .f32) : FVec Ideal S1536x32768 .f32 :=
  broadcastInDim S1536x32768 ![0, 1] bcast_S1x32768_S1536x32768_0_1 (broadcastInDim S1x32768 ![1] bcast_S32768_S1x32768_1 w)

/-- The table as planes. -/
def planesOf (pos : FVec Ideal S576x1536 .f32) : FVec Ideal S1536x24x24 .f32 :=
  transpose S1536x24x24 [2, 0, 1] (shapeCast S24x24x1536 pos shapeCasts_S576x1536_S24x24x1536) transposes_S24x24x1536_S1536x24x24_2_0_1

/-- The result array from the embeddings, the planes and the two clipped coordinate arrays. -/
def outA (emb : FVec Ideal S32768x1536 .f32) (planes : FVec Ideal S1536x24x24 .f32) (cx cy : FVec Ideal S32768 .f32) : FVec Ideal S32768x1536 .f32 :=
  addf emb (transpose S32768x1536 [1, 0]
    (addf (addf (addf
      (mulf (spread (mulf (subf oneA (fracA cy)) (subf oneA (fracA cx)))) (lookA planes (cellA cy) (cellA cx)))
      (mulf (spread (mulf (subf oneA (fracA cy)) (fracA cx))) (lookA planes (cellA cy) (nextA (cellA cx)))))
      (mulf (spread (mulf (fracA cy) (subf oneA (fracA cx)))) (lookA planes (nextA (cellA cy)) (cellA cx))))
      (mulf (spread (mulf (fracA cy) (fracA cx))) (lookA planes (nextA (cellA cy)) (nextA (cellA cx)))))
    transposes_S1536x32768_S32768x1536_1_0)

/-! ## The lines read at the result -/

set_option maxHeartbeats 2000000 in
theorem tail_out (Wv : Valuation τ sig (Elt Ideal)) :
    StableHlo.after (opsB (F := Ideal)) Wv (main_v176 : DevRef τ sig)
      = outA (Wv (main_arg0 : DevRef τ sig)) (Wv (main_v1 : DevRef τ sig)) (Wv (main_v74 : DevRef τ sig)) (Wv (main_v75 : DevRef τ sig)) := by
  after_results_simp
  rfl

/-! ## Read at an entry -/

theorem spread_apply (w : FVec Ideal S32768 .f32) (q : Fin 1536) (r : Fin 32768) : spread w (ix2 q r) = w (ix1 r) := by
  unfold spread
  refine (broadcastInDim_apply ![0, 1] bcast_S1x32768_S1536x32768_0_1 _ (ix2 q r) (ix2 (0 : Fin 1) r) fun a => by
    match a with
    | ⟨0, _⟩ => rfl
    | ⟨1, _⟩ => rfl).trans ?_
  exact broadcastInDim_apply ![1] bcast_S32768_S1x32768_1 w (ix2 (0 : Fin 1) r) (ix1 r) fun a => by
    match a with
    | ⟨0, _⟩ => rfl

theorem colI_apply (v : IVec S32768 32) (r : Fin 32768) : colI v (ix2 r (0 : Fin 1)) = v (ix1 r) := by
  unfold colI
  exact broadcastInDim_apply ![0] bcast_S32768_S32768x1_0 v (ix2 r (0 : Fin 1)) (ix1 r) fun a => by
    match a with
    | ⟨0, _⟩ => rfl

theorem pairA_left (y x : IVec S32768 32) (r : Fin 32768) : pairA y x (ix2 r (0 : Fin 2)) = wrapA y (ix1 r) := by
  unfold pairA
  refine (concatenate_pair_apply_left (s₁ := S32768x1) (s₂ := S32768x1) (1 : Fin 2) (colI (wrapA y)) (colI (wrapA x)) _ (ix2 r (0 : Fin 2)) rfl (ix2 r (0 : Fin 1)) fun b => by
    match b with
    | ⟨0, _⟩ => rfl
    | ⟨1, _⟩ => rfl).trans ?_
  exact colI_apply _ r

theorem pairA_right (y x : IVec S32768 32) (r : Fin 32768) : pairA y x (ix2 r (1 : Fin 2)) = wrapA x (ix1 r) := by
  unfold pairA
  refine (concatenate_pair_apply_right (s₁ := S32768x1) (s₂ := S32768x1) (1 : Fin 2) (colI (wrapA y)) (colI (wrapA x)) _ (ix2 r (1 : Fin 2)) rfl rfl (ix2 r (0 : Fin 1)) (fun b hb => by
    match b with
    | ⟨0, _⟩ => rfl
    | ⟨1, _⟩ => exact absurd rfl hb) rfl).trans ?_
  exact colI_apply _ r

/-- A corner looked up in the planes of a table. -/
theorem lookA_apply (pos : FVec Ideal S576x1536 .f32) (y x : IVec S32768 32) (q : Fin 1536) (r : Fin 32768) :
    lookA (planesOf pos) y x (ix2 q r) = corner (fun k => pos (ix2 k q)) (y (ix1 r)) (x (ix1 r)) := by
  unfold lookA
  refine (Cert.LibPlaneGather.gather_plane_apply (C := 1536) (N1 := 24) (N2 := 24) (R := 32768) (by decide) (by decide)
    gather_S1536x24x24_S32768x2_S1536x32768_0_12_n_n_12_1_153611_wf (planesOf pos) (pairA y x) q r).trans ?_
  unfold planesOf corner
  show _ = pos (ix2 _ q)
  refine Cert.LibPlaneGather.plane_apply (a := 24) (b := 24) (c := 1536) (n := 576) rfl pos _ _ q _ _ _ ?_
  show clampN (wrap (y (ix1 r))) * 24 + clampN (wrap (x (ix1 r)))
    = min (pairA y x (ix2 r (0 : Fin 2))).toInt.toNat (24 - 1) * 24 + min (pairA y x (ix2 r (1 : Fin 2))).toInt.toNat (24 - 1)
  rw [pairA_left, pairA_right]
  rfl

theorem outA_apply (emb : FVec Ideal S32768x1536 .f32) (pos : FVec Ideal S576x1536 .f32) (cx cy : FVec Ideal S32768 .f32)
    (r : Fin 32768) (q : Fin 1536) :
    outA emb (planesOf pos) cx cy (ix2 r q) = emb (ix2 r q) + blend (cx (ix1 r)) (cy (ix1 r)) (fun k => pos (ix2 k q)) := by
  unfold outA
  show emb (ix2 r q) + transpose S32768x1536 [1, 0] _ transposes_S1536x32768_S32768x1536_1_0 (ix2 r q) = _
  rw [transpose_apply [1, 0] _ transposes_S1536x32768_S32768x1536_1_0 (ix2 r q) (ix2 q r) (fun b => by
    match b with
    | ⟨0, _⟩ => rfl
    | ⟨1, _⟩ => rfl)]
  show emb (ix2 r q) + ((((spread _ (ix2 q r) * lookA _ _ _ (ix2 q r) + spread _ (ix2 q r) * lookA _ _ _ (ix2 q r))
      + spread _ (ix2 q r) * lookA _ _ _ (ix2 q r)) + spread _ (ix2 q r) * lookA _ _ _ (ix2 q r))) = _
  rw [spread_apply, spread_apply, spread_apply, spread_apply, lookA_apply, lookA_apply, lookA_apply, lookA_apply]
  rfl

end Cert.ReferenceIdeal.Tail

end
-- ==== Proof.Coords.lean ====
import proofs.«124072_j15384572854614_2_alg».proof.Proof.TileIdeal
import proofs.«124072_j15384572854614_2_alg».proof.Proof.RefRun
import proofs.«124072_j15384572854614_2_alg».proof.Proof.CellSpec
import Idealize.ShloMosaic.Lib.StableHlo.Run

/-! The two programs compute the same two clipped coordinate arrays.

Before its launch the kernel program runs, on the same arguments, the same host operations as the reference runs
after its first two (the table's reshape and transpose): the per-token normalised coordinates, scaled to the grid and
clamped into [0, 23]. Read at the two clamps' results, both folds are one pure term of the four integer arguments.
Also here: each clamp's result is `clip` of something, pointwise; and in the reference the transposed table is the
transpose of the reshaped table argument, and the first argument is never written. -/

noncomputable section

namespace Cert.Coords

open Idealize.ShloMosaic Idealize.ShloMosaic.TcCoe Idealize.SL.Sem Idealize.ShloMosaic.StableHlo

/-- The kernel program's host operations up to and including the second clamp, stretch by stretch. -/
abbrev headK : List (List (HloOp Cert.KernelIdeal.τ Cert.KernelIdeal.sig (Elt Ideal))) :=
  [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19]

/-! ## The clamps' results are clipped values -/

section Kernel

open Cert.KernelIdeal Cert.KernelIdeal.Gen

/-- The stretches before the one that ends with the first clamp's two bounds. -/
abbrev pre16 : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- The stretches before the second clamp's two bounds. -/
abbrev pre18 : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]

/-- The head cut where the first clamp's bounds are made: what comes before, the stretch ending with the two
    constants, the first clamp, the second clamp's two constants, the second clamp. -/
theorem flatten_headK : List.flatten headK
    = List.flatten pre16 ++ (hostOps0_16 (F := Ideal) ++ (hostOps0_17 ++ (hostOps0_18 ++ hostOps0_19))) := by
  simp only [headK, pre16, List.flatten_cons, List.flatten_nil, List.append_nil, List.append_assoc]

/-- The head cut where the second clamp's bounds are made. -/
theorem flatten_headK' : List.flatten headK = List.flatten pre18 ++ (hostOps0_18 (F := Ideal) ++ hostOps0_19) := by
  simp only [headK, pre18, List.flatten_cons, List.flatten_nil, List.append_nil, List.append_assoc]

set_option maxRecDepth 8192 in
/-- The first clamp's result is, at every token, `clip` of the raw coordinate: the maximum with the lower bound's
    broadcast, then the minimum with the upper bound's. -/
theorem clipped_x (m : (ℓ : Loc nD τ sig) → Buf (Elt Ideal) ℓ) (c : Dev nD) :
    ∃ U : FVec Ideal S32768 .f32,
      (show FVec Ideal S32768 .f32 from after (List.flatten headK) (fun b => m (c, b)) (main_v72 : DevRef τ sig))
        = fun i => Cert.CellSpec.clip (U i) := by
  rw [flatten_headK, after_append]
  generalize after (List.flatten pre16) (fun b => m (c, b)) = W
  rw [after_append]
  have h26 : (show FVec Ideal S_ .f32 from after (hostOps0_16 (F := Ideal)) W (main_cst_26 : DevRef τ sig))
      = constant S_ .f32 0x00000000#32 := by
    simp only [hostOps0_16]
    after_results_simp
  have h27 : (show FVec Ideal S_ .f32 from after (hostOps0_16 (F := Ideal)) W (main_cst_27 : DevRef τ sig))
      = constant S_ .f32 0x41B80000#32 := by
    simp only [hostOps0_16]
    after_results_simp
  generalize after (hostOps0_16 (F := Ideal)) W = X at h26 h27 ⊢
  refine ⟨X (main_v63 : DevRef τ sig), ?_⟩
  simp only [after_append, hostOps0_17, hostOps0_18, hostOps0_19]
  after_results_simp
  dsimp only at h26 h27
  rw [h26, h27]
  funext i
  rfl

set_option maxRecDepth 8192 in
/-- The second clamp's result is, at every token, `clip` of the other raw coordinate. -/
theorem clipped_y (m : (ℓ : Loc nD τ sig) → Buf (Elt Ideal) ℓ) (c : Dev nD) :
    ∃ U : FVec Ideal S32768 .f32,
      (show FVec Ideal S32768 .f32 from after (List.flatten headK) (fun b => m (c, b)) (main_v73 : DevRef τ sig))
        = fun i => Cert.CellSpec.clip (U i) := by
  rw [flatten_headK', after_append]
  generalize after (List.flatten pre18) (fun b => m (c, b)) = W
  rw [after_append]
  have h28 : (show FVec Ideal S_ .f32 from after (hostOps0_18 (F := Ideal)) W (main_cst_28 : DevRef τ sig))
      = constant S_ .f32 0x00000000#32 := by
    simp only [hostOps0_18]
    after_results_simp
  have h29 : (show FVec Ideal S_ .f32 from after (hostOps0_18 (F := Ideal)) W (main_cst_29 : DevRef τ sig))
      = constant S_ .f32 0x41B80000#32 := by
    simp only [hostOps0_18]
    after_results_simp
  generalize after (hostOps0_18 (F := Ideal)) W = X at h28 h29 ⊢
  refine ⟨X (main_v71 : DevRef τ sig), ?_⟩
  simp only [hostOps0_19]
  after_results_simp
  dsimp only at h28 h29
  rw [h28, h29]
  funext i
  rfl

end Kernel

/-! ## The reference's table and first argument -/

section Reference

open Cert.ReferenceIdeal Cert.ReferenceIdeal.Gen Cert.ReferenceIdeal.Hand

/-- The written-reference correspondence, two operations in. -/
theorem forall₂_tail₂ {α β : Type} {R : α → β → Prop} {a b : α} {l : List α} {x y : β} {l' : List β}
    (h : List.Forall₂ R (a :: b :: l) (x :: y :: l')) : List.Forall₂ R l l' := by
  cases h with
  | cons _ h => cases h with
    | cons _ h => exact h

/-- The fold read at a buffer that only the first two operations may write. -/
theorem after_two {op0 op1 : HloOp τ sig (Elt Ideal)} {rest : List (HloOp τ sig (Elt Ideal))} {b : DevRef τ sig}
    (V : Valuation τ sig (Elt Ideal)) (h : ∀ op ∈ rest, b ∉ op.writes) :
    after (op0 :: op1 :: rest) V b = op1.result (op0.result V) b := by
  rw [after_cons, after_cons, after_of_forall_not_mem rest _ h]

set_option maxRecDepth 8192 in
/-- The transposed table is the transpose of the reshaped table argument: the first two operations make it and no
    later one of the first piece writes it. -/
theorem planes_eq (m' : (ℓ : Loc nD τ sig) → Buf (Elt Ideal) ℓ) (c : Dev nD) :
    after (opsA (F := Ideal)) (launchContents m' c) (main_v1 : DevRef τ sig)
      = transpose S1536x24x24 [2, 0, 1]
          (shapeCast S24x24x1536 (show FVec Ideal S576x1536 .f32 from m' ((c.tc : Thread nD τ).loc main_arg1))
            shapeCasts_S576x1536_S24x24x1536)
          transposes_S24x24x1536_S1536x24x24_2_0_1 := by
  have hw := forall₂_tail₂ (opsA_writes (F := Ideal))
  refine (after_two (b := Proc.devRef .tc main_v1) _ (not_mem_writes_of_forall₂ hw (by decide))).trans ?_
  rw [unary_result, reshape_result]
  rfl

set_option maxRecDepth 8192 in
/-- No operation of the first piece writes the first argument. -/
theorem opsA_arg0_eq (m' : (ℓ : Loc nD τ sig) → Buf (Elt Ideal) ℓ) (c : Dev nD) :
    after (opsA (F := Ideal)) (launchContents m' c) (main_arg0 : DevRef τ sig)
      = m' ((c.tc : Thread nD τ).loc main_arg0) :=
  after_of_forall_not_mem (b := Proc.devRef .tc main_arg0) _ _
    (not_mem_writes_of_forall₂ (opsA_writes (F := Ideal)) (by decide))

end Reference

end Cert.Coords

end
-- ==== Proof.CoordsStaged.lean ====
import proofs.«124072_j15384572854614_2_alg».proof.Proof.Coords
import proofs.«124072_j15384572854614_2_alg».proof.Proof.TileIdeal
import proofs.«124072_j15384572854614_2_alg».proof.Proof.RefRun

/-! The two programs compute the same two clipped coordinate arrays, read in three stages.

The kernel program's host operations before its launch and the reference's after its first two (the table's
reshape and transpose) are the same text over buffers numbered two apart. Each side is cut at the same two
places: after the first repeated image extent, after the second, and then the float arithmetic with the two
clamps. At each cut the earlier fold is forgotten except for what the next stage reads. -/

noncomputable section

namespace Cert.CoordsStaged

open Idealize.ShloMosaic Idealize.ShloMosaic.TcCoe Idealize.SL.Sem Idealize.ShloMosaic.StableHlo

/-! ## The reference's first piece, cut in three -/

section Reference

open Cert.ReferenceIdeal Cert.ReferenceIdeal.Gen Cert.ReferenceIdeal.Hand

variable {F : FTy → Type} [FloatOps F]

/-- The table's reshape and transpose, then the first image extent repeated per token. -/
abbrev r1 : List (HloOp τ sig (Elt F)) :=
  [ StableHlo.reshape main_arg1 main_v0 rfl shapeCasts_S576x1536_S24x24x1536,
    StableHlo.unary main_v0 main_v1 ((transpose S1536x24x24 [2, 0, 1] · transposes_S24x24x1536_S1536x24x24_2_0_1) : (⟨S24x24x1536, .f32⟩ : BufTy).Contents (Elt F) → (⟨S1536x24x24, .f32⟩ : BufTy).Contents (Elt F)),
    StableHlo.unary main_arg3 main_v2 ((extractStridedSlice S8x1 ![0, 1] · slices_S8x3_S8x1_0_1) : (⟨S8x3, .i32⟩ : BufTy).Contents (Elt F) → (⟨S8x1, .i32⟩ : BufTy).Contents (Elt F)),
    StableHlo.reshape main_v2 main_v3 rfl shapeCasts_S8x1_S8,
    StableHlo.TRef.unary (.of main_arg2 : StableHlo.TRef sig ⟨S8, .i32⟩) main_call0.v0 (extractStridedSlice S1 ![7] · slices_S8_S1_7),
    StableHlo.TRef.unary (.of main_arg2 : StableHlo.TRef sig ⟨S8, .i32⟩) main_call0.v1 (extractStridedSlice S7 ![0] · slices_S8_S7_0),
    StableHlo.TRef.binary main_call0.v0 main_call0.v1 main_call0.v2 (fun a b => concatenate S8 0 [⟨S1, a⟩, ⟨S7, b⟩] concatenates_S1_S7_S8_d0),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v4 main_v5 main_c_0 main_v6 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v6 : StableHlo.TRef sig ⟨S8, .i32⟩) main_call1.call0.v0 main_call1.call0.v1 (fun x v => Host.reduceWindow IntOp.addi ![8] ![1] ![7] ![0] x v reduceWindows_S8_S8_w8s1p7_0 h_S_),
    StableHlo.nullary main_c_1 (constantI S_ 32 0#32),
    StableHlo.unary main_c_1 main_v8 (broadcastInDim S32768 ![] bcast_S_S32768 : (⟨S_, .i32⟩ : BufTy).Contents (Elt F) → (⟨S32768, .i32⟩ : BufTy).Contents (Elt F)),
    StableHlo.nullary main_c_2 (constantI S_ 32 0#32),
    StableHlo.unary main_c_2 main_v9 (broadcastInDim S8 ![] bcast_S_S8 : (⟨S_, .i32⟩ : BufTy).Contents (Elt F) → (⟨S8, .i32⟩ : BufTy).Contents (Elt F)),
    StableHlo.binary main_v7 main_v9 main_v10 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 32768#32),
    StableHlo.unary main_c_3 main_v11 (broadcastInDim S8 ![] bcast_S_S8 : (⟨S_, .i32⟩ : BufTy).Contents (Elt F) → (⟨S8, .i32⟩ : BufTy).Contents (Elt F)),
    StableHlo.binary main_v7 main_v11 main_v12 (addi : (⟨S8, .i32⟩ : BufTy).Contents (Elt F) → (⟨S8, .i32⟩ : BufTy).Contents (Elt F) → (⟨S8, .i32⟩ : BufTy).Contents (Elt F)),
    StableHlo.ternary main_v10 main_v12 main_v7 main_v13 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v13 main_v14 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v15 (broadcastInDim S8 ![] bcast_S_S8 : (⟨S_, .i32⟩ : BufTy).Contents (Elt F) → (⟨S8, .i32⟩ : BufTy).Contents (Elt F)),
    StableHlo.ternary main_v8 main_v14 main_v15 main_v16 ((fun x i u => Host.scatter scatter_S32768_S8x1_S8_n_0_0_1 IntOp.addi x i u) : (⟨S32768, .i32⟩ : BufTy).Contents (Elt F) → (⟨S8x1, .i32⟩ : BufTy).Contents (Elt F) → (⟨S8, .i32⟩ : BufTy).Contents (Elt F) → (⟨S32768, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v16 : StableHlo.TRef sig ⟨S32768, .i32⟩) main_call2.call0.v0 main_call2.call0.v1 (fun x v => Host.reduceWindow IntOp.addi ![32768] ![1] ![32767] ![0] x v reduceWindows_S32768_S32768_w32768s1p32767_0 h_S_),
    StableHlo.nullary main_c_5 (constantI S_ 32 1#32),
    StableHlo.unary main_c_5 main_v18 (broadcastInDim S32768 ![] bcast_S_S32768 : (⟨S_, .i32⟩ : BufTy).Contents (Elt F) → (⟨S32768, .i32⟩ : BufTy).Contents (Elt F)),
    StableHlo.binary main_v17 main_v18 main_v19 (subi : (⟨S32768, .i32⟩ : BufTy).Contents (Elt F) → (⟨S32768, .i32⟩ : BufTy).Contents (Elt F) → (⟨S32768, .i32⟩ : BufTy).Contents (Elt F)),
    StableHlo.TRef.nullary main_call3.c (constantI S_ 32 0#32),
    StableHlo.TRef.unary main_call3.c main_call3.v0 (broadcastInDim S32768 ![] bcast_S_S32768),
    StableHlo.TRef.binary (.of main_v19 : StableHlo.TRef sig ⟨S32768, .i32⟩) main_call3.v0 main_call3.v1 (cmpi .slt),
    StableHlo.TRef.nullary main_call3.c_0 (constantI S_ 32 8#32),
    StableHlo.TRef.unary main_call3.c_0 main_call3.v2 (broadcastInDim S32768 ![] bcast_S_S32768),
    StableHlo.TRef.binary (.of main_v19 : StableHlo.TRef sig ⟨S32768, .i32⟩) main_call3.v2 main_call3.v3 addi,
    StableHlo.TRef.ternary main_call3.v1 main_call3.v3 (.of main_v19 : StableHlo.TRef sig ⟨S32768, .i32⟩) main_call3.call0.v0 select,
    StableHlo.TRef.unary main_call3.call0.v0 main_call3.v5 (broadcastInDim S32768x1 ![0] bcast_S32768_S32768x1_0),
    StableHlo.TRef.nullary main_call3.c_1 (constantI S1 32 7#32),
    StableHlo.TRef.nullary main_call3.c_2 (constantI S_ 32 0#32),
    StableHlo.TRef.unary main_call3.c_2 main_call3.v6 (broadcastInDim S32768x1 ![] bcast_S_S32768x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S32768x1 ![0, 1] bcast_S1x1_S32768x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S32768x1_S32768_d1 h_S_),
    StableHlo.TRef.binary (.of main_v3 : StableHlo.TRef sig ⟨S8, .i32⟩) main_call3.v5 main_call3.v13 (fun x i => Host.gather gather_S8_S32768x1_S32768_n_0_n_n_0_1_1 x i),
    StableHlo.TRef.nullary main_call3.c_4 (constantI S_ 32 2147483648#32),
    StableHlo.TRef.unary main_call3.c_4 main_call3.v14 (broadcastInDim S32768 ![] bcast_S_S32768),
    StableHlo.TRef.ternary main_call3.v12 main_call3.v13 main_call3.v14 main_call3.v15 select ]

/-- The first extent as a float, then the second image extent repeated per token. -/
abbrev r2 : List (HloOp τ sig (Elt F)) :=
  [ StableHlo.unary main_v20 main_v21 (sitofp .f32 : (⟨S32768, .i32⟩ : BufTy).Contents (Elt F) → (⟨S32768, .f32⟩ : BufTy).Contents (Elt F)),
    StableHlo.unary main_arg3 main_v22 ((extractStridedSlice S8x1 ![0, 2] · slices_S8x3_S8x1_0_2) : (⟨S8x3, .i32⟩ : BufTy).Contents (Elt F) → (⟨S8x1, .i32⟩ : BufTy).Contents (Elt F)),
    StableHlo.reshape main_v22 main_v23 rfl shapeCasts_S8x1_S8,
    StableHlo.TRef.unary (.of main_arg2 : StableHlo.TRef sig ⟨S8, .i32⟩) main_call4.v0 (extractStridedSlice S1 ![7] · slices_S8_S1_7),
    StableHlo.TRef.unary (.of main_arg2 : StableHlo.TRef sig ⟨S8, .i32⟩) main_call4.v1 (extractStridedSlice S7 ![0] · slices_S8_S7_0),
    StableHlo.TRef.binary main_call4.v0 main_call4.v1 main_call4.v2 (fun a b => concatenate S8 0 [⟨S1, a⟩, ⟨S7, b⟩] concatenates_S1_S7_S8_d0),
    StableHlo.nullary main_c_6 (constantI S_ 32 0#32),
    StableHlo.unary main_c_6 main_v25 (broadcastInDim S1 ![] bcast_S_S1 : (⟨S_, .i32⟩ : BufTy).Contents (Elt F) → (⟨S1, .i32⟩ : BufTy).Contents (Elt F)),
    StableHlo.nullary main_c_7 (constantI S_ 32 0#32),
    StableHlo.ternary main_v24 main_v25 main_c_7 main_v26 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v26 : StableHlo.TRef sig ⟨S8, .i32⟩) main_call5.call0.v0 main_call5.call0.v1 (fun x v => Host.reduceWindow IntOp.addi ![8] ![1] ![7] ![0] x v reduceWindows_S8_S8_w8s1p7_0 h_S_),
    StableHlo.nullary main_c_8 (constantI S_ 32 0#32),
    StableHlo.unary main_c_8 main_v28 (broadcastInDim S32768 ![] bcast_S_S32768 : (⟨S_, .i32⟩ : BufTy).Contents (Elt F) → (⟨S32768, .i32⟩ : BufTy).Contents (Elt F)),
    StableHlo.nullary main_c_9 (constantI S_ 32 0#32),
    StableHlo.unary main_c_9 main_v29 (broadcastInDim S8 ![] bcast_S_S8 : (⟨S_, .i32⟩ : BufTy).Contents (Elt F) → (⟨S8, .i32⟩ : BufTy).Contents (Elt F)),
    StableHlo.binary main_v27 main_v29 main_v30 (cmpi .slt : (⟨S8, .i32⟩ : BufTy).Contents (Elt F) → (⟨S8, .i32⟩ : BufTy).Contents (Elt F) → (⟨S8, .i1⟩ : BufTy).Contents (Elt F)),
    StableHlo.nullary main_c_10 (constantI S_ 32 32768#32),
    StableHlo.unary main_c_10 main_v31 (broadcastInDim S8 ![] bcast_S_S8 : (⟨S_, .i32⟩ : BufTy).Contents (Elt F) → (⟨S8, .i32⟩ : BufTy).Contents (Elt F)),
    StableHlo.binary main_v27 main_v31 main_v32 (addi : (⟨S8, .i32⟩ : BufTy).Contents (Elt F) → (⟨S8, .i32⟩ : BufTy).Contents (Elt F) → (⟨S8, .i32⟩ : BufTy).Contents (Elt F)),
    StableHlo.ternary main_v30 main_v32 main_v27 main_v33 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v33 main_v34 (broadcastInDim S8x1 ![0] bcast_S8_S8x1_0 : (⟨S8, .i32⟩ : BufTy).Contents (Elt F) → (⟨S8x1, .i32⟩ : BufTy).Contents (Elt F)),
    StableHlo.nullary main_c_11 (constantI S_ 32 1#32),
    StableHlo.unary main_c_11 main_v35 (broadcastInDim S8 ![] bcast_S_S8 : (⟨S_, .i32⟩ : BufTy).Contents (Elt F) → (⟨S8, .i32⟩ : BufTy).Contents (Elt F)),
    StableHlo.ternary main_v28 main_v34 main_v35 main_v36 ((fun x i u => Host.scatter scatter_S32768_S8x1_S8_n_0_0_1 IntOp.addi x i u) : (⟨S32768, .i32⟩ : BufTy).Contents (Elt F) → (⟨S8x1, .i32⟩ : BufTy).Contents (Elt F) → (⟨S8, .i32⟩ : BufTy).Contents (Elt F) → (⟨S32768, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v36 : StableHlo.TRef sig ⟨S32768, .i32⟩) main_call6.call0.v0 main_call6.call0.v1 (fun x v => Host.reduceWindow IntOp.addi ![32768] ![1] ![32767] ![0] x v reduceWindows_S32768_S32768_w32768s1p32767_0 h_S_),
    StableHlo.nullary main_c_12 (constantI S_ 32 1#32),
    StableHlo.unary main_c_12 main_v38 (broadcastInDim S32768 ![] bcast_S_S32768 : (⟨S_, .i32⟩ : BufTy).Contents (Elt F) → (⟨S32768, .i32⟩ : BufTy).Contents (Elt F)),
    StableHlo.binary main_v37 main_v38 main_v39 (subi : (⟨S32768, .i32⟩ : BufTy).Contents (Elt F) → (⟨S32768, .i32⟩ : BufTy).Contents (Elt F) → (⟨S32768, .i32⟩ : BufTy).Contents (Elt F)),
    StableHlo.TRef.nullary main_call7.c (constantI S_ 32 0#32),
    StableHlo.TRef.unary main_call7.c main_call7.v0 (broadcastInDim S32768 ![] bcast_S_S32768),
    StableHlo.TRef.binary (.of main_v39 : StableHlo.TRef sig ⟨S32768, .i32⟩) main_call7.v0 main_call7.v1 (cmpi .slt),
    StableHlo.TRef.nullary main_call7.c_0 (constantI S_ 32 8#32),
    StableHlo.TRef.unary main_call7.c_0 main_call7.v2 (broadcastInDim S32768 ![] bcast_S_S32768),
    StableHlo.TRef.binary (.of main_v39 : StableHlo.TRef sig ⟨S32768, .i32⟩) main_call7.v2 main_call7.v3 addi,
    StableHlo.TRef.ternary main_call7.v1 main_call7.v3 (.of main_v39 : StableHlo.TRef sig ⟨S32768, .i32⟩) main_call7.call0.v0 select,
    StableHlo.TRef.unary main_call7.call0.v0 main_call7.v5 (broadcastInDim S32768x1 ![0] bcast_S32768_S32768x1_0),
    StableHlo.TRef.nullary main_call7.c_1 (constantI S1 32 7#32),
    StableHlo.TRef.nullary main_call7.c_2 (constantI S_ 32 0#32),
    StableHlo.TRef.unary main_call7.c_2 main_call7.v6 (broadcastInDim S32768x1 ![] bcast_S_S32768x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S32768x1 ![0, 1] bcast_S1x1_S32768x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S32768x1_S32768_d1 h_S_),
    StableHlo.TRef.binary (.of main_v23 : StableHlo.TRef sig ⟨S8, .i32⟩) main_call7.v5 main_call7.v13 (fun x i => Host.gather gather_S8_S32768x1_S32768_n_0_n_n_0_1_1 x i),
    StableHlo.TRef.nullary main_call7.c_4 (constantI S_ 32 2147483648#32),
    StableHlo.TRef.unary main_call7.c_4 main_call7.v14 (broadcastInDim S32768 ![] bcast_S_S32768),
    StableHlo.TRef.ternary main_call7.v12 main_call7.v13 main_call7.v14 main_call7.v15 select ]

/-- The float arithmetic on the two extents and the two position arrays, and the two clamps. -/
abbrev r3 : List (HloOp τ sig (Elt F)) :=
  [ StableHlo.unary main_v40 main_v41 (sitofp .f32 : (⟨S32768, .i32⟩ : BufTy).Contents (Elt F) → (⟨S32768, .f32⟩ : BufTy).Contents (Elt F)),
    StableHlo.unary main_arg5 main_v42 (sitofp .f32 : (⟨S32768, .i32⟩ : BufTy).Contents (Elt F) → (⟨S32768, .f32⟩ : BufTy).Contents (Elt F)),
    StableHlo.nullary main_cst (constant S_ .f32 0x3F000000#32),
    StableHlo.unary main_cst main_v43 (broadcastInDim S32768 ![] bcast_S_S32768 : (⟨S_, .f32⟩ : BufTy).Contents (Elt F) → (⟨S32768, .f32⟩ : BufTy).Contents (Elt F)),
    StableHlo.binary main_v42 main_v43 main_v44 (addf : (⟨S32768, .f32⟩ : BufTy).Contents (Elt F) → (⟨S32768, .f32⟩ : BufTy).Contents (Elt F) → (⟨S32768, .f32⟩ : BufTy).Contents (Elt F)),
    StableHlo.binary main_v44 main_v41 main_v45 (Host.divf : (⟨S32768, .f32⟩ : BufTy).Contents (Elt F) → (⟨S32768, .f32⟩ : BufTy).Contents (Elt F) → (⟨S32768, .f32⟩ : BufTy).Contents (Elt F)),
    StableHlo.nullary main_cst_13 (constant S_ .f32 0x40000000#32),
    StableHlo.unary main_cst_13 main_v46 (broadcastInDim S32768 ![] bcast_S_S32768 : (⟨S_, .f32⟩ : BufTy).Contents (Elt F) → (⟨S32768, .f32⟩ : BufTy).Contents (Elt F)),
    StableHlo.binary main_v45 main_v46 main_v47 (mulf : (⟨S32768, .f32⟩ : BufTy).Contents (Elt F) → (⟨S32768, .f32⟩ : BufTy).Contents (Elt F) → (⟨S32768, .f32⟩ : BufTy).Contents (Elt F)),
    StableHlo.nullary main_cst_14 (constant S_ .f32 0x3F800000#32),
    StableHlo.unary main_cst_14 main_v48 (broadcastInDim S32768 ![] bcast_S_S32768 : (⟨S_, .f32⟩ : BufTy).Contents (Elt F) → (⟨S32768, .f32⟩ : BufTy).Contents (Elt F)),
    StableHlo.binary main_v47 main_v48 main_v49 (subf : (⟨S32768, .f32⟩ : BufTy).Contents (Elt F) → (⟨S32768, .f32⟩ : BufTy).Contents (Elt F) → (⟨S32768, .f32⟩ : BufTy).Contents (Elt F)),
    StableHlo.unary main_arg4 main_v50 (sitofp .f32 : (⟨S32768, .i32⟩ : BufTy).Contents (Elt F) → (⟨S32768, .f32⟩ : BufTy).Contents (Elt F)),
    StableHlo.nullary main_cst_15 (constant S_ .f32 0x3F000000#32),
    StableHlo.unary main_cst_15 main_v51 (broadcastInDim S32768 ![] bcast_S_S32768 : (⟨S_, .f32⟩ : BufTy).Contents (Elt F) → (⟨S32768, .f32⟩ : BufTy).Contents (Elt F)),
    StableHlo.binary main_v50 main_v51 main_v52 (addf : (⟨S32768, .f32⟩ : BufTy).Contents (Elt F) → (⟨S32768, .f32⟩ : BufTy).Contents (Elt F) → (⟨S32768, .f32⟩ : BufTy).Contents (Elt F)),
    StableHlo.binary main_v52 main_v21 main_v53 (Host.divf : (⟨S32768, .f32⟩ : BufTy).Contents (Elt F) → (⟨S32768, .f32⟩ : BufTy).Contents (Elt F) → (⟨S32768, .f32⟩ : BufTy).Contents (Elt F)),
    StableHlo.nullary main_cst_16 (constant S_ .f32 0x40000000#32),
    StableHlo.unary main_cst_16 main_v54 (broadcastInDim S32768 ![] bcast_S_S32768 : (⟨S_, .f32⟩ : BufTy).Contents (Elt F) → (⟨S32768, .f32⟩ : BufTy).Contents (Elt F)),
    StableHlo.binary main_v53 main_v54 main_v55 (mulf : (⟨S32768, .f32⟩ : BufTy).Contents (Elt F) → (⟨S32768, .f32⟩ : BufTy).Contents (Elt F) → (⟨S32768, .f32⟩ : BufTy).Contents (Elt F)),
    StableHlo.nullary main_cst_17 (constant S_ .f32 0x3F800000#32),
    StableHlo.unary main_cst_17 main_v56 (broadcastInDim S32768 ![] bcast_S_S32768 : (⟨S_, .f32⟩ : BufTy).Contents (Elt F) → (⟨S32768, .f32⟩ : BufTy).Contents (Elt F)),
    StableHlo.binary main_v55 main_v56 main_v57 (subf : (⟨S32768, .f32⟩ : BufTy).Contents (Elt F) → (⟨S32768, .f32⟩ : BufTy).Contents (Elt F) → (⟨S32768, .f32⟩ : BufTy).Contents (Elt F)),
    StableHlo.nullary main_cst_18 (constant S_ .f32 0x3F800000#32),
    StableHlo.unary main_cst_18 main_v58 (broadcastInDim S32768 ![] bcast_S_S32768 : (⟨S_, .f32⟩ : BufTy).Contents (Elt F) → (⟨S32768, .f32⟩ : BufTy).Contents (Elt F)),
    StableHlo.binary main_v49 main_v58 main_v59 (addf : (⟨S32768, .f32⟩ : BufTy).Contents (Elt F) → (⟨S32768, .f32⟩ : BufTy).Contents (Elt F) → (⟨S32768, .f32⟩ : BufTy).Contents (Elt F)),
    StableHlo.nullary main_cst_19 (constant S_ .f32 0x41C00000#32),
    StableHlo.unary main_cst_19 main_v60 (broadcastInDim S32768 ![] bcast_S_S32768 : (⟨S_, .f32⟩ : BufTy).Contents (Elt F) → (⟨S32768, .f32⟩ : BufTy).Contents (Elt F)),
    StableHlo.binary main_v59 main_v60 main_v61 (mulf : (⟨S32768, .f32⟩ : BufTy).Contents (Elt F) → (⟨S32768, .f32⟩ : BufTy).Contents (Elt F) → (⟨S32768, .f32⟩ : BufTy).Contents (Elt F)),
    StableHlo.nullary main_cst_20 (constant S_ .f32 0x3F800000#32),
    StableHlo.unary main_cst_20 main_v62 (broadcastInDim S32768 ![] bcast_S_S32768 : (⟨S_, .f32⟩ : BufTy).Contents (Elt F) → (⟨S32768, .f32⟩ : BufTy).Contents (Elt F)),
    StableHlo.binary main_v61 main_v62 main_v63 (subf : (⟨S32768, .f32⟩ : BufTy).Contents (Elt F) → (⟨S32768, .f32⟩ : BufTy).Contents (Elt F) → (⟨S32768, .f32⟩ : BufTy).Contents (Elt F)),
    StableHlo.nullary main_cst_21 (constant S_ .f32 0x3F000000#32),
    StableHlo.unary main_cst_21 main_v64 (broadcastInDim S32768 ![] bcast_S_S32768 : (⟨S_, .f32⟩ : BufTy).Contents (Elt F) → (⟨S32768, .f32⟩ : BufTy).Contents (Elt F)),
    StableHlo.binary main_v63 main_v64 main_v65 (mulf : (⟨S32768, .f32⟩ : BufTy).Contents (Elt F) → (⟨S32768, .f32⟩ : BufTy).Contents (Elt F) → (⟨S32768, .f32⟩ : BufTy).Contents (Elt F)),
    StableHlo.nullary main_cst_22 (constant S_ .f32 0x3F800000#32),
    StableHlo.unary main_cst_22 main_v66 (broadcastInDim S32768 ![] bcast_S_S32768 : (⟨S_, .f32⟩ : BufTy).Contents (Elt F) → (⟨S32768, .f32⟩ : BufTy).Contents (Elt F)),
    StableHlo.binary main_v57 main_v66 main_v67 (addf : (⟨S32768, .f32⟩ : BufTy).Contents (Elt F) → (⟨S32768, .f32⟩ : BufTy).Contents (Elt F) → (⟨S32768, .f32⟩ : BufTy).Contents (Elt F)),
    StableHlo.nullary main_cst_23 (constant S_ .f32 0x41C00000#32),
    StableHlo.unary main_cst_23 main_v68 (broadcastInDim S32768 ![] bcast_S_S32768 : (⟨S_, .f32⟩ : BufTy).Contents (Elt F) → (⟨S32768, .f32⟩ : BufTy).Contents (Elt F)),
    StableHlo.binary main_v67 main_v68 main_v69 (mulf : (⟨S32768, .f32⟩ : BufTy).Contents (Elt F) → (⟨S32768, .f32⟩ : BufTy).Contents (Elt F) → (⟨S32768, .f32⟩ : BufTy).Contents (Elt F)),
    StableHlo.nullary main_cst_24 (constant S_ .f32 0x3F800000#32),
    StableHlo.unary main_cst_24 main_v70 (broadcastInDim S32768 ![] bcast_S_S32768 : (⟨S_, .f32⟩ : BufTy).Contents (Elt F) → (⟨S32768, .f32⟩ : BufTy).Contents (Elt F)),
    StableHlo.binary main_v69 main_v70 main_v71 (subf : (⟨S32768, .f32⟩ : BufTy).Contents (Elt F) → (⟨S32768, .f32⟩ : BufTy).Contents (Elt F) → (⟨S32768, .f32⟩ : BufTy).Contents (Elt F)),
    StableHlo.nullary main_cst_25 (constant S_ .f32 0x3F000000#32),
    StableHlo.unary main_cst_25 main_v72 (broadcastInDim S32768 ![] bcast_S_S32768 : (⟨S_, .f32⟩ : BufTy).Contents (Elt F) → (⟨S32768, .f32⟩ : BufTy).Contents (Elt F)),
    StableHlo.binary main_v71 main_v72 main_v73 (mulf : (⟨S32768, .f32⟩ : BufTy).Contents (Elt F) → (⟨S32768, .f32⟩ : BufTy).Contents (Elt F) → (⟨S32768, .f32⟩ : BufTy).Contents (Elt F)),
    StableHlo.nullary main_cst_26 (constant S_ .f32 0x00000000#32),
    StableHlo.nullary main_cst_27 (constant S_ .f32 0x41B80000#32),
    StableHlo.TRef.unary (.of main_cst_26 : StableHlo.TRef sig ⟨S_, .f32⟩) main_call8.v0 id,
    StableHlo.TRef.unary main_call8.v0 main_call8.v1 (broadcastInDim S32768 ![] bcast_S_S32768),
    StableHlo.TRef.binary main_call8.v1 (.of main_v65 : StableHlo.TRef sig ⟨S32768, .f32⟩) main_call8.v2 maximumf,
    StableHlo.TRef.unary (.of main_cst_27 : StableHlo.TRef sig ⟨S_, .f32⟩) main_call8.v3 id,
    StableHlo.TRef.unary main_call8.v3 main_call8.v4 (broadcastInDim S32768 ![] bcast_S_S32768),
    StableHlo.TRef.binary main_call8.v4 main_call8.v2 main_call8.v5 minimumf,
    StableHlo.nullary main_cst_28 (constant S_ .f32 0x00000000#32),
    StableHlo.nullary main_cst_29 (constant S_ .f32 0x41B80000#32),
    StableHlo.TRef.unary (.of main_cst_28 : StableHlo.TRef sig ⟨S_, .f32⟩) main_call9.v0 id,
    StableHlo.TRef.unary main_call9.v0 main_call9.v1 (broadcastInDim S32768 ![] bcast_S_S32768),
    StableHlo.TRef.binary main_call9.v1 (.of main_v73 : StableHlo.TRef sig ⟨S32768, .f32⟩) main_call9.v2 maximumf,
    StableHlo.TRef.unary (.of main_cst_29 : StableHlo.TRef sig ⟨S_, .f32⟩) main_call9.v3 id,
    StableHlo.TRef.unary main_call9.v3 main_call9.v4 (broadcastInDim S32768 ![] bcast_S_S32768),
    StableHlo.TRef.binary main_call9.v4 main_call9.v2 main_call9.v5 minimumf ]

/-- The first piece is the three stages in order. -/
theorem opsA_cut : (opsA : List (HloOp τ sig (Elt F))) = r1 ++ (r2 ++ r3) := rfl

end Reference

/-! ## The kernel program's head, cut in three -/

section Kernel

open Cert.KernelIdeal Cert.KernelIdeal.Gen

variable {F : FTy → Type} [FloatOps F]

/-- The first image extent repeated per token. -/
abbrev k1 : List (HloOp τ sig (Elt F)) :=
  hostOps0 ++ (hostOps0_1 ++ (hostOps0_2 ++ (hostOps0_3 ++ (hostOps0_4 ++ (hostOps0_5 ++ (hostOps0_6 ++ hostOps0_7))))))
/-- The first extent as a float, then the second image extent repeated per token. -/
abbrev k2 : List (HloOp τ sig (Elt F)) :=
  hostOps0_8 ++ (hostOps0_9 ++ (hostOps0_10 ++ (hostOps0_11 ++ (hostOps0_12 ++ (hostOps0_13 ++ (hostOps0_14 ++ hostOps0_15))))))
/-- The float arithmetic and the two clamps. -/
abbrev k3 : List (HloOp τ sig (Elt F)) :=
  hostOps0_16 ++ (hostOps0_17 ++ (hostOps0_18 ++ hostOps0_19))

/-- The head is the three stages in order. -/
theorem headK_cut : List.flatten Cert.Coords.headK = (k1 (F := Ideal)) ++ (k2 ++ k3) := by
  simp only [Cert.Coords.headK, k1, k2, k3, List.flatten_cons, List.flatten_nil, List.append_nil, List.append_assoc]

end Kernel

/-! ## The two-piece concatenation as a function of its pieces -/

/-- A one-element piece followed by a seven-element piece, as an eight-element array. -/
def join {α : Type} (a : Cert.KernelIdeal.S1.Idx → α) (b : Cert.KernelIdeal.S7.Idx → α) : Cert.KernelIdeal.S8.Idx → α :=
  concatenate Cert.KernelIdeal.S8 0 [⟨Cert.KernelIdeal.S1, a⟩, ⟨Cert.KernelIdeal.S7, b⟩]
    Cert.KernelIdeal.Gen.concatenates_S1_S7_S8_d0

theorem joinK_eq {α : Type} (a : Cert.KernelIdeal.S1.Idx → α) (b : Cert.KernelIdeal.S7.Idx → α) :
    concatenate Cert.KernelIdeal.S8 0 [⟨Cert.KernelIdeal.S1, a⟩, ⟨Cert.KernelIdeal.S7, b⟩]
      Cert.KernelIdeal.Gen.concatenates_S1_S7_S8_d0 = join a b := rfl

theorem joinR_eq {α : Type} (a : Cert.ReferenceIdeal.S1.Idx → α) (b : Cert.ReferenceIdeal.S7.Idx → α) :
    concatenate Cert.ReferenceIdeal.S8 0 [⟨Cert.ReferenceIdeal.S1, a⟩, ⟨Cert.ReferenceIdeal.S7, b⟩]
      Cert.ReferenceIdeal.Gen.concatenates_S1_S7_S8_d0 = join a b := rfl

/-- The fold read at a buffer, the two-piece concatenation kept as `join` so that its pieces are read too. -/
macro "read_stage" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joinK_eq, joinR_eq]))

/-! ## The third stage: float arithmetic and the clamps -/

local notation "Kτ" => Cert.KernelIdeal.τ
local notation "Ksig" => Cert.KernelIdeal.sig
local notation "Rτ" => Cert.ReferenceIdeal.τ
local notation "Rsig" => Cert.ReferenceIdeal.sig
local notation "KS" => Cert.KernelIdeal.S32768

set_option maxRecDepth 16384 in
/-- From contents that agree on the two repeated extents (one already a float) and the two position arrays, the
    third stage leaves the same first clamped coordinate. -/
theorem stage3_x (W : Valuation Kτ Ksig (Elt Ideal)) (W' : Valuation Rτ Rsig (Elt Ideal))
    (h38 : @Eq (IVec KS 32) (W' (Cert.ReferenceIdeal.main_v40 : DevRef Rτ Rsig)) (W (Cert.KernelIdeal.main_v38 : DevRef Kτ Ksig)))
    (h19 : @Eq (FVec Ideal KS .f32) (W' (Cert.ReferenceIdeal.main_v21 : DevRef Rτ Rsig)) (W (Cert.KernelIdeal.main_v19 : DevRef Kτ Ksig)))
    (h4 : @Eq (IVec KS 32) (W' (Cert.ReferenceIdeal.main_arg4 : DevRef Rτ Rsig)) (W (Cert.KernelIdeal.main_arg4 : DevRef Kτ Ksig)))
    (h5 : @Eq (IVec KS 32) (W' (Cert.ReferenceIdeal.main_arg5 : DevRef Rτ Rsig)) (W (Cert.KernelIdeal.main_arg5 : DevRef Kτ Ksig))) :
    @Eq (FVec Ideal KS .f32) (after (k3 (F := Ideal)) W (Cert.KernelIdeal.main_v72 : DevRef Kτ Ksig))
      (after (r3 (F := Ideal)) W' (Cert.ReferenceIdeal.main_v74 : DevRef Rτ Rsig)) := by
  simp only [k3, r3, Cert.KernelIdeal.Gen.hostOps0_16, Cert.KernelIdeal.Gen.hostOps0_17, Cert.KernelIdeal.Gen.hostOps0_18,
    Cert.KernelIdeal.Gen.hostOps0_19, List.cons_append, List.nil_append]
  after_results_simp
  rw [h38, h5]

set_option maxRecDepth 16384 in
/-- … and the same second clamped coordinate. -/
theorem stage3_y (W : Valuation Kτ Ksig (Elt Ideal)) (W' : Valuation Rτ Rsig (Elt Ideal))
    (h38 : @Eq (IVec KS 32) (W' (Cert.ReferenceIdeal.main_v40 : DevRef Rτ Rsig)) (W (Cert.KernelIdeal.main_v38 : DevRef Kτ Ksig)))
    (h19 : @Eq (FVec Ideal KS .f32) (W' (Cert.ReferenceIdeal.main_v21 : DevRef Rτ Rsig)) (W (Cert.KernelIdeal.main_v19 : DevRef Kτ Ksig)))
    (h4 : @Eq (IVec KS 32) (W' (Cert.ReferenceIdeal.main_arg4 : DevRef Rτ Rsig)) (W (Cert.KernelIdeal.main_arg4 : DevRef Kτ Ksig)))
    (h5 : @Eq (IVec KS 32) (W' (Cert.ReferenceIdeal.main_arg5 : DevRef Rτ Rsig)) (W (Cert.KernelIdeal.main_arg5 : DevRef Kτ Ksig))) :
    @Eq (FVec Ideal KS .f32) (after (k3 (F := Ideal)) W (Cert.KernelIdeal.main_v73 : DevRef Kτ Ksig))
      (after (r3 (F := Ideal)) W' (Cert.ReferenceIdeal.main_v75 : DevRef Rτ Rsig)) := by
  simp only [k3, r3, Cert.KernelIdeal.Gen.hostOps0_16, Cert.KernelIdeal.Gen.hostOps0_17, Cert.KernelIdeal.Gen.hostOps0_18,
    Cert.KernelIdeal.Gen.hostOps0_19, List.cons_append, List.nil_append]
  after_results_simp
  rw [h19, h4]

/-! ## The first stage: one image extent repeated per token -/

local notation "KS8" => Cert.KernelIdeal.S8
local notation "KS8x3" => Cert.KernelIdeal.S8x3

set_option maxRecDepth 16384 in
/-- From contents that agree on the lengths and the image extents, the first stage leaves the same repeated
    first extent. -/
theorem stage1 (W : Valuation Kτ Ksig (Elt Ideal)) (W' : Valuation Rτ Rsig (Elt Ideal))
    (h2 : @Eq (IVec KS8 32) (W' (Cert.ReferenceIdeal.main_arg2 : DevRef Rτ Rsig)) (W (Cert.KernelIdeal.main_arg2 : DevRef Kτ Ksig)))
    (h3 : @Eq (IVec KS8x3 32) (W' (Cert.ReferenceIdeal.main_arg3 : DevRef Rτ Rsig)) (W (Cert.KernelIdeal.main_arg3 : DevRef Kτ Ksig))) :
    @Eq (IVec KS 32) (after (k1 (F := Ideal)) W (Cert.KernelIdeal.main_v18 : DevRef Kτ Ksig))
      (after (r1 (F := Ideal)) W' (Cert.ReferenceIdeal.main_v20 : DevRef Rτ Rsig)) := by
  simp only [k1, r1, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, List.cons_append, List.nil_append]
  read_stage
  rw [h2, h3]
  rfl

/-! ## The second stage: the first extent as a float, the other extent repeated per token -/

set_option maxRecDepth 16384 in
/-- From contents that agree on the lengths and the image extents, the second stage leaves the same repeated
    second extent. -/
theorem stage2_ext (W : Valuation Kτ Ksig (Elt Ideal)) (W' : Valuation Rτ Rsig (Elt Ideal))
    (h2 : @Eq (IVec KS8 32) (W' (Cert.ReferenceIdeal.main_arg2 : DevRef Rτ Rsig)) (W (Cert.KernelIdeal.main_arg2 : DevRef Kτ Ksig)))
    (h3 : @Eq (IVec KS8x3 32) (W' (Cert.ReferenceIdeal.main_arg3 : DevRef Rτ Rsig)) (W (Cert.KernelIdeal.main_arg3 : DevRef Kτ Ksig))) :
    @Eq (IVec KS 32) (after (k2 (F := Ideal)) W (Cert.KernelIdeal.main_v38 : DevRef Kτ Ksig))
      (after (r2 (F := Ideal)) W' (Cert.ReferenceIdeal.main_v40 : DevRef Rτ Rsig)) := by
  simp only [k2, r2, Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    Cert.KernelIdeal.Gen.hostOps0_14, Cert.KernelIdeal.Gen.hostOps0_15, List.cons_append, List.nil_append]
  read_stage
  rw [h2, h3]
  rfl

set_option maxRecDepth 16384 in
/-- From contents that agree on the first repeated extent, the second stage leaves the same float array of it. -/
theorem stage2_flt (W : Valuation Kτ Ksig (Elt Ideal)) (W' : Valuation Rτ Rsig (Elt Ideal))
    (h18 : @Eq (IVec KS 32) (W' (Cert.ReferenceIdeal.main_v20 : DevRef Rτ Rsig)) (W (Cert.KernelIdeal.main_v18 : DevRef Kτ Ksig))) :
    @Eq (FVec Ideal KS .f32) (after (k2 (F := Ideal)) W (Cert.KernelIdeal.main_v19 : DevRef Kτ Ksig))
      (after (r2 (F := Ideal)) W' (Cert.ReferenceIdeal.main_v21 : DevRef Rτ Rsig)) := by
  simp only [k2, r2, Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    Cert.KernelIdeal.Gen.hostOps0_14, Cert.KernelIdeal.Gen.hostOps0_15, List.cons_append, List.nil_append]
  read_stage
  rw [h18]

/-! ## No stage writes an argument -/

set_option maxRecDepth 16384 in
theorem k1_arg2 (W : Valuation Kτ Ksig (Elt Ideal)) :
    @Eq (IVec KS8 32) (after (k1 (F := Ideal)) W (Cert.KernelIdeal.main_arg2 : DevRef Kτ Ksig)) (W (Cert.KernelIdeal.main_arg2 : DevRef Kτ Ksig)) := by
  simp only [k1, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, List.cons_append, List.nil_append]
  read_stage

set_option maxRecDepth 16384 in
theorem k1_arg3 (W : Valuation Kτ Ksig (Elt Ideal)) :
    @Eq (IVec KS8x3 32) (after (k1 (F := Ideal)) W (Cert.KernelIdeal.main_arg3 : DevRef Kτ Ksig)) (W (Cert.KernelIdeal.main_arg3 : DevRef Kτ Ksig)) := by
  simp only [k1, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, List.cons_append, List.nil_append]
  read_stage

set_option maxRecDepth 16384 in
theorem k1_arg4 (W : Valuation Kτ Ksig (Elt Ideal)) :
    @Eq (IVec KS 32) (after (k1 (F := Ideal)) W (Cert.KernelIdeal.main_arg4 : DevRef Kτ Ksig)) (W (Cert.KernelIdeal.main_arg4 : DevRef Kτ Ksig)) := by
  simp only [k1, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, List.cons_append, List.nil_append]
  read_stage

set_option maxRecDepth 16384 in
theorem k1_arg5 (W : Valuation Kτ Ksig (Elt Ideal)) :
    @Eq (IVec KS 32) (after (k1 (F := Ideal)) W (Cert.KernelIdeal.main_arg5 : DevRef Kτ Ksig)) (W (Cert.KernelIdeal.main_arg5 : DevRef Kτ Ksig)) := by
  simp only [k1, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, List.cons_append, List.nil_append]
  read_stage

set_option maxRecDepth 16384 in
theorem k2_arg4 (W : Valuation Kτ Ksig (Elt Ideal)) :
    @Eq (IVec KS 32) (after (k2 (F := Ideal)) W (Cert.KernelIdeal.main_arg4 : DevRef Kτ Ksig)) (W (Cert.KernelIdeal.main_arg4 : DevRef Kτ Ksig)) := by
  simp only [k2, Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    Cert.KernelIdeal.Gen.hostOps0_14, Cert.KernelIdeal.Gen.hostOps0_15, List.cons_append, List.nil_append]
  read_stage

set_option maxRecDepth 16384 in
theorem k2_arg5 (W : Valuation Kτ Ksig (Elt Ideal)) :
    @Eq (IVec KS 32) (after (k2 (F := Ideal)) W (Cert.KernelIdeal.main_arg5 : DevRef Kτ Ksig)) (W (Cert.KernelIdeal.main_arg5 : DevRef Kτ Ksig)) := by
  simp only [k2, Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    Cert.KernelIdeal.Gen.hostOps0_14, Cert.KernelIdeal.Gen.hostOps0_15, List.cons_append, List.nil_append]
  read_stage

set_option maxRecDepth 16384 in
theorem r1_arg2 (W' : Valuation Rτ Rsig (Elt Ideal)) :
    @Eq (IVec KS8 32) (after (r1 (F := Ideal)) W' (Cert.ReferenceIdeal.main_arg2 : DevRef Rτ Rsig)) (W' (Cert.ReferenceIdeal.main_arg2 : DevRef Rτ Rsig)) := by
  simp only [r1]
  read_stage

set_option maxRecDepth 16384 in
theorem r1_arg3 (W' : Valuation Rτ Rsig (Elt Ideal)) :
    @Eq (IVec KS8x3 32) (after (r1 (F := Ideal)) W' (Cert.ReferenceIdeal.main_arg3 : DevRef Rτ Rsig)) (W' (Cert.ReferenceIdeal.main_arg3 : DevRef Rτ Rsig)) := by
  simp only [r1]
  read_stage

set_option maxRecDepth 16384 in
theorem r1_arg4 (W' : Valuation Rτ Rsig (Elt Ideal)) :
    @Eq (IVec KS 32) (after (r1 (F := Ideal)) W' (Cert.ReferenceIdeal.main_arg4 : DevRef Rτ Rsig)) (W' (Cert.ReferenceIdeal.main_arg4 : DevRef Rτ Rsig)) := by
  simp only [r1]
  read_stage

set_option maxRecDepth 16384 in
theorem r1_arg5 (W' : Valuation Rτ Rsig (Elt Ideal)) :
    @Eq (IVec KS 32) (after (r1 (F := Ideal)) W' (Cert.ReferenceIdeal.main_arg5 : DevRef Rτ Rsig)) (W' (Cert.ReferenceIdeal.main_arg5 : DevRef Rτ Rsig)) := by
  simp only [r1]
  read_stage

set_option maxRecDepth 16384 in
theorem r2_arg4 (W' : Valuation Rτ Rsig (Elt Ideal)) :
    @Eq (IVec KS 32) (after (r2 (F := Ideal)) W' (Cert.ReferenceIdeal.main_arg4 : DevRef Rτ Rsig)) (W' (Cert.ReferenceIdeal.main_arg4 : DevRef Rτ Rsig)) := by
  simp only [r2]
  read_stage

set_option maxRecDepth 16384 in
theorem r2_arg5 (W' : Valuation Rτ Rsig (Elt Ideal)) :
    @Eq (IVec KS 32) (after (r2 (F := Ideal)) W' (Cert.ReferenceIdeal.main_arg5 : DevRef Rτ Rsig)) (W' (Cert.ReferenceIdeal.main_arg5 : DevRef Rτ Rsig)) := by
  simp only [r2]
  read_stage

/-! ## The two clipped coordinate arrays agree -/

set_option maxRecDepth 16384 in
/-- Over any two valuations that agree on the four integer arguments. -/
theorem coords_core (V : Valuation Kτ Ksig (Elt Ideal)) (V' : Valuation Rτ Rsig (Elt Ideal))
    (e2 : @Eq (IVec KS8 32) (V' (Cert.ReferenceIdeal.main_arg2 : DevRef Rτ Rsig)) (V (Cert.KernelIdeal.main_arg2 : DevRef Kτ Ksig)))
    (e3 : @Eq (IVec KS8x3 32) (V' (Cert.ReferenceIdeal.main_arg3 : DevRef Rτ Rsig)) (V (Cert.KernelIdeal.main_arg3 : DevRef Kτ Ksig)))
    (e4 : @Eq (IVec KS 32) (V' (Cert.ReferenceIdeal.main_arg4 : DevRef Rτ Rsig)) (V (Cert.KernelIdeal.main_arg4 : DevRef Kτ Ksig)))
    (e5 : @Eq (IVec KS 32) (V' (Cert.ReferenceIdeal.main_arg5 : DevRef Rτ Rsig)) (V (Cert.KernelIdeal.main_arg5 : DevRef Kτ Ksig))) :
    @Eq (FVec Ideal KS .f32) (after (List.flatten Cert.Coords.headK) V (Cert.KernelIdeal.main_v72 : DevRef Kτ Ksig))
        (after (Cert.ReferenceIdeal.Hand.opsA (F := Ideal)) V' (Cert.ReferenceIdeal.main_v74 : DevRef Rτ Rsig))
      ∧ @Eq (FVec Ideal KS .f32) (after (List.flatten Cert.Coords.headK) V (Cert.KernelIdeal.main_v73 : DevRef Kτ Ksig))
        (after (Cert.ReferenceIdeal.Hand.opsA (F := Ideal)) V' (Cert.ReferenceIdeal.main_v75 : DevRef Rτ Rsig)) := by
  rw [headK_cut, opsA_cut, after_append (k1 (F := Ideal)) (k2 ++ k3) V, after_append (k2 (F := Ideal)) k3,
    after_append (r1 (F := Ideal)) (r2 ++ r3) V', after_append (r2 (F := Ideal)) r3]
  -- the first stage's results and the arguments after it
  have a18 := stage1 V V' e2 e3
  have f2 : @Eq (IVec KS8 32) (after (r1 (F := Ideal)) V' (Cert.ReferenceIdeal.main_arg2 : DevRef Rτ Rsig))
      (after (k1 (F := Ideal)) V (Cert.KernelIdeal.main_arg2 : DevRef Kτ Ksig)) :=
    (r1_arg2 V').trans (e2.trans (k1_arg2 V).symm)
  have f3 : @Eq (IVec KS8x3 32) (after (r1 (F := Ideal)) V' (Cert.ReferenceIdeal.main_arg3 : DevRef Rτ Rsig))
      (after (k1 (F := Ideal)) V (Cert.KernelIdeal.main_arg3 : DevRef Kτ Ksig)) :=
    (r1_arg3 V').trans (e3.trans (k1_arg3 V).symm)
  have f4 : @Eq (IVec KS 32) (after (r1 (F := Ideal)) V' (Cert.ReferenceIdeal.main_arg4 : DevRef Rτ Rsig))
      (after (k1 (F := Ideal)) V (Cert.KernelIdeal.main_arg4 : DevRef Kτ Ksig)) :=
    (r1_arg4 V').trans (e4.trans (k1_arg4 V).symm)
  have f5 : @Eq (IVec KS 32) (after (r1 (F := Ideal)) V' (Cert.ReferenceIdeal.main_arg5 : DevRef Rτ Rsig))
      (after (k1 (F := Ideal)) V (Cert.KernelIdeal.main_arg5 : DevRef Kτ Ksig)) :=
    (r1_arg5 V').trans (e5.trans (k1_arg5 V).symm)
  generalize after (k1 (F := Ideal)) V = W1 at a18 f2 f3 f4 f5 ⊢
  generalize after (r1 (F := Ideal)) V' = W1' at a18 f2 f3 f4 f5 ⊢
  -- the second stage's results and the arguments after it
  have a38 := stage2_ext W1 W1' f2 f3
  have a19 := stage2_flt W1 W1' a18.symm
  have g4 : @Eq (IVec KS 32) (after (r2 (F := Ideal)) W1' (Cert.ReferenceIdeal.main_arg4 : DevRef Rτ Rsig))
      (after (k2 (F := Ideal)) W1 (Cert.KernelIdeal.main_arg4 : DevRef Kτ Ksig)) :=
    (r2_arg4 W1').trans (f4.trans (k2_arg4 W1).symm)
  have g5 : @Eq (IVec KS 32) (after (r2 (F := Ideal)) W1' (Cert.ReferenceIdeal.main_arg5 : DevRef Rτ Rsig))
      (after (k2 (F := Ideal)) W1 (Cert.KernelIdeal.main_arg5 : DevRef Kτ Ksig)) :=
    (r2_arg5 W1').trans (f5.trans (k2_arg5 W1).symm)
  generalize after (k2 (F := Ideal)) W1 = W2 at a38 a19 g4 g5 ⊢
  generalize after (r2 (F := Ideal)) W1' = W2' at a38 a19 g4 g5 ⊢
  exact ⟨stage3_x W2 W2' a38.symm a19.symm g4 g5, stage3_y W2 W2' a38.symm a19.symm g4 g5⟩

/-- The statement over the two programs' launch contents. -/
theorem coords_agree
    (m : (ℓ : Loc Cert.KernelIdeal.nD Kτ Ksig) → Buf (Elt Ideal) ℓ)
    (m' : (ℓ : Loc Cert.ReferenceIdeal.nD Rτ Rsig) → Buf (Elt Ideal) ℓ) (c : Dev Cert.KernelIdeal.nD)
    (h2 : m' ((c.tc : Thread Cert.ReferenceIdeal.nD Rτ).loc Cert.ReferenceIdeal.main_arg2) = m ((c.tc : Thread Cert.KernelIdeal.nD Kτ).loc Cert.KernelIdeal.main_arg2))
    (h3 : m' ((c.tc : Thread Cert.ReferenceIdeal.nD Rτ).loc Cert.ReferenceIdeal.main_arg3) = m ((c.tc : Thread Cert.KernelIdeal.nD Kτ).loc Cert.KernelIdeal.main_arg3))
    (h4 : m' ((c.tc : Thread Cert.ReferenceIdeal.nD Rτ).loc Cert.ReferenceIdeal.main_arg4) = m ((c.tc : Thread Cert.KernelIdeal.nD Kτ).loc Cert.KernelIdeal.main_arg4))
    (h5 : m' ((c.tc : Thread Cert.ReferenceIdeal.nD Rτ).loc Cert.ReferenceIdeal.main_arg5) = m ((c.tc : Thread Cert.KernelIdeal.nD Kτ).loc Cert.KernelIdeal.main_arg5)) :
    (show FVec Ideal Cert.KernelIdeal.S32768 .f32 from StableHlo.after (List.flatten Cert.Coords.headK) (fun b => m (c, b)) (Cert.KernelIdeal.main_v72 : DevRef Kτ Ksig))
        = (show FVec Ideal Cert.KernelIdeal.S32768 .f32 from StableHlo.after (Cert.ReferenceIdeal.Hand.opsA (F := Ideal)) (StableHlo.launchContents m' c) (Cert.ReferenceIdeal.main_v74 : DevRef Rτ Rsig))
      ∧ (show FVec Ideal Cert.KernelIdeal.S32768 .f32 from StableHlo.after (List.flatten Cert.Coords.headK) (fun b => m (c, b)) (Cert.KernelIdeal.main_v73 : DevRef Kτ Ksig))
        = (show FVec Ideal Cert.KernelIdeal.S32768 .f32 from StableHlo.after (Cert.ReferenceIdeal.Hand.opsA (F := Ideal)) (StableHlo.launchContents m' c) (Cert.ReferenceIdeal.main_v75 : DevRef Rτ Rsig)) :=
  coords_core (fun b => m (c, b)) (StableHlo.launchContents m' c) h2 h3 h4 h5

end Cert.CoordsStaged

end
-- ==== Proof.Bilinear.lean ====
/- Scalar facts about bilinear interpolation on a 24x24 grid, over the extended reals and
   32-bit words: the constants of the clip, the cell of a clipped coordinate and its neighbour,
   the row-major position of a cell, and a row of four weights summed against a column. -/
import Mathlib
import Idealize.ShloMosaic.PureOps.Ideal

noncomputable section

namespace Cert.Bilinear

open Idealize.ShloMosaic

/-- The pattern of `23.0` denotes the real `23`. -/
theorem w23 : Ideal.ofBits .f32 0x41B80000#32 = ((23 : ℝ) : EReal) := by
  simp [Ideal.ofBits, Ideal.ieee, -EReal.coe_mul]; norm_num

/-- The pattern of `1.0` denotes the real `1`. -/
theorem w1 : Ideal.ofBits .f32 0x3F800000#32 = ((1 : ℝ) : EReal) := by
  simp [Ideal.ofBits, Ideal.ieee, -EReal.coe_mul]; norm_num

/-- The pattern of `+0.0` denotes the real `0`. -/
theorem w0 : Ideal.ofBits .f32 0x00000000#32 = ((0 : ℝ) : EReal) := by
  simp [Ideal.ofBits, Ideal.ieee]

/-- The half-width pattern of `+0.0` denotes the real `0`. -/
theorem w0h : Ideal.ofBits .bf16 0x0000#16 = ((0 : ℝ) : EReal) := by
  simp [Ideal.ofBits, Ideal.ieee]

theorem toInt_ofNat (n : ℕ) (h : n < 2 ^ 31) : (BitVec.ofNat 32 n).toInt = (n : ℤ) := by
  rw [BitVec.toInt_eq_toNat_cond, BitVec.toNat_ofNat]
  have h2 : n % 2 ^ 32 = n := Nat.mod_eq_of_lt (by omega)
  rw [h2, if_pos (by omega)]

/-- The neighbouring cell, kept inside the grid. -/
theorem next_cell (n : ℕ) (h : n ≤ 23) :
    IntOp.minsi (BitVec.ofNat 32 n + 1#32) 23#32 = BitVec.ofNat 32 (min (n + 1) 23) := by
  interval_cases n <;> decide

/-- Row-major position of cell (a, b) in the 24x24 grid, in 32-bit arithmetic: no wrap. -/
theorem row_index (a b : ℕ) (ha : a ≤ 23) (hb : b ≤ 23) :
    BitVec.ofNat 32 a * 24#32 + BitVec.ofNat 32 b = BitVec.ofNat 32 (a * 24 + b) := by
  apply BitVec.eq_of_toNat_eq
  simp only [BitVec.toNat_add, BitVec.toNat_mul, BitVec.toNat_ofNat]
  omega

theorem word_eq (k p : ℕ) (hk : k < 576) (hp : p < 576) :
    (BitVec.ofNat 32 k == BitVec.ofNat 32 p) = decide (k = p) := by
  by_cases hkp : k = p
  · subst hkp; simp
  · have hne : BitVec.ofNat 32 k ≠ BitVec.ofNat 32 p := by
      intro he
      have ht := congrArg BitVec.toNat he
      simp only [BitVec.toNat_ofNat] at ht
      omega
    simp [hkp, hne]

theorem not_neg (n : ℕ) (h : n ≤ 23) : (BitVec.ofNat 32 n).slt 0#32 = false := by
  interval_cases n <;> decide

theorem toNat_cell (n : ℕ) (h : n ≤ 23) : min (BitVec.ofNat 32 n).toInt.toNat 23 = n := by
  rw [toInt_ofNat n (by omega), Int.toNat_natCast]
  omega

private theorem coe_min_real (a b : ℝ) : min ((a : ℝ) : EReal) ((b : ℝ) : EReal) = ((min a b : ℝ) : EReal) :=
  (EReal.coe_strictMono.monotone.map_min).symm

private theorem coe_max_real (a b : ℝ) : max ((a : ℝ) : EReal) ((b : ℝ) : EReal) = ((max a b : ℝ) : EReal) :=
  (EReal.coe_strictMono.monotone.map_max).symm

/-- A value clipped into [0, 23] is a real number of that interval, whatever it was (an infinity included). -/
theorem clip_real (u : EReal) :
    ∃ r : ℝ, 0 ≤ r ∧ r ≤ 23 ∧ min (((23 : ℝ)) : EReal) (max (((0 : ℝ)) : EReal) u) = (r : EReal) := by
  induction u using EReal.rec with
  | bot =>
    refine ⟨0, le_refl _, by norm_num, ?_⟩
    rw [max_eq_left bot_le, coe_min_real]
    norm_num
  | top =>
    refine ⟨23, by norm_num, le_refl _, ?_⟩
    rw [max_eq_right le_top, min_eq_left le_top]
  | coe x =>
    refine ⟨min 23 (max 0 x), le_min (by norm_num) (le_max_left _ _), min_le_left _ _, ?_⟩
    rw [coe_max_real, coe_min_real]

/-- The grid cell of a coordinate in [0, 23]: its floor, as a 32-bit word. -/
theorem cell (r : ℝ) (h0 : 0 ≤ r) (h1 : r ≤ 23) :
    Ideal.fptosi 32 (Ideal.liftRound Int.floor (r : EReal)) = BitVec.ofNat 32 ⌊r⌋₊ ∧ ⌊r⌋₊ ≤ 23 := by
  have hn : ⌊r⌋₊ ≤ 23 := Nat.floor_le_of_le (by exact_mod_cast h1)
  refine ⟨?_, hn⟩
  have hfl : ⌊r⌋ = ((⌊r⌋₊ : ℕ) : ℤ) := (Int.natCast_floor_eq_floor h0).symm
  rw [Ideal.liftRound_coe, Ideal.fptosi, Ideal.toIntClamped_coe, hfl]
  have hpos : (0 : ℝ) ≤ (((⌊r⌋₊ : ℕ) : ℤ) : ℝ) := by positivity
  rw [if_pos hpos, Int.floor_intCast]
  have hmm : max (-((2 ^ (32 - 1) : ℕ) : ℤ)) (min (((2 ^ (32 - 1) : ℕ) : ℤ) - 1) ((⌊r⌋₊ : ℕ) : ℤ)) = ((⌊r⌋₊ : ℕ) : ℤ) := by
    norm_num
    omega
  rw [hmm, BitVec.ofInt_natCast]

/-- A position sent through the float format and back is itself. -/
theorem roundtrip (p : ℕ) (hp : p < 576) :
    Ideal.fptosi 32 ((((BitVec.ofNat 32 p).toInt : ℝ)) : EReal) = BitVec.ofNat 32 p := by
  rw [toInt_ofNat p (by omega), Ideal.fptosi, Ideal.toIntClamped_coe]
  have hpos : (0 : ℝ) ≤ (((p : ℕ) : ℤ) : ℝ) := by positivity
  rw [if_pos hpos, Int.floor_intCast]
  have hmm : max (-((2 ^ (32 - 1) : ℕ) : ℤ)) (min (((2 ^ (32 - 1) : ℕ) : ℤ) - 1) ((p : ℕ) : ℤ)) = ((p : ℕ) : ℤ) := by
    norm_num
    omega
  rw [hmm, BitVec.ofInt_natCast]

private theorem coe_sum_real {ι : Type*} (s : Finset ι) (f : ι → ℝ) :
    ((∑ k ∈ s, f k : ℝ) : EReal) = ∑ k ∈ s, ((f k : ℝ) : EReal) := by
  classical
  induction s using Finset.induction_on with
  | empty => simp
  | insert i s hi ih => rw [Finset.sum_insert hi, Finset.sum_insert hi, EReal.coe_add, ih]

private theorem coe_ite_real (c : Prop) [Decidable c] (w : ℝ) :
    (if c then ((w : ℝ) : EReal) else 0) = (((if c then w else 0 : ℝ)) : EReal) := by
  split_ifs <;> simp

/-- A row with at most four nonzero weights, summed against a column of reals: the weights may fall on the same place and then add up. -/
theorem onehot_sum (P : Fin 576 → ℝ) (w00 w01 w10 w11 : ℝ) (a b c d : Fin 576) :
    ∑ k : Fin 576, ((((if k = a then ((w00 : ℝ) : EReal) else 0) + (if k = b then ((w01 : ℝ) : EReal) else 0)) + (if k = c then ((w10 : ℝ) : EReal) else 0)) + (if k = d then ((w11 : ℝ) : EReal) else 0)) * ((P k : ℝ) : EReal)
      = ((((w00 : ℝ) : EReal) * ((P a : ℝ) : EReal) + ((w01 : ℝ) : EReal) * ((P b : ℝ) : EReal)) + ((w10 : ℝ) : EReal) * ((P c : ℝ) : EReal)) + ((w11 : ℝ) : EReal) * ((P d : ℝ) : EReal) := by
  have hreal : ∑ k : Fin 576, ((((if k = a then w00 else 0) + (if k = b then w01 else 0)) + (if k = c then w10 else 0)) + (if k = d then w11 else 0)) * P k
      = ((w00 * P a + w01 * P b) + w10 * P c) + w11 * P d := by
    simp only [add_mul, ite_mul, zero_mul, Finset.sum_add_distrib, Finset.sum_ite_eq', Finset.mem_univ, if_true]
  simp only [coe_ite_real, ← EReal.coe_add, ← EReal.coe_mul]
  rw [← coe_sum_real, hreal]

end Cert.Bilinear

end
-- ==== Proof.Bridge.lean ====
/-
  The scalar law that joins the two programs, over plain numbers. For two coordinates clipped into the 24 x 24
  grid and a real table column, the packed row's weights summed against the column are the four corners blended
  by the fractions: each packed place, sent through the float format and back, is found again at exactly its own
  place; corners that coincide at the border add up on both sides.
-/
import proofs.«124072_j15384572854614_2_alg».proof.Proof.CellSpec
import proofs.«124072_j15384572854614_2_alg».proof.Proof.Bilinear

noncomputable section

namespace Cert.Bridge

open Idealize.ShloMosaic Cert.RowSpec Cert.CellSpec Cert.Bilinear
open scoped BigOperators

/-- The neighbour of cell `n` is cell `n + 1`, or the last cell. -/
private theorem next_nat (n : ℕ) (h : n ≤ 23) :
    next (BitVec.ofNat 32 n) = BitVec.ofNat 32 (min (n + 1) 23) := by
  unfold next IntOp.addi
  exact next_cell n h

/-- The place of cell `(a, b)` is the whole number `a * 24 + b`, held as the signed reading of its 32-bit word. -/
private theorem place_nat (a b : ℕ) (ha : a ≤ 23) (hb : b ≤ 23) :
    place (BitVec.ofNat 32 a) (BitVec.ofNat 32 b) = ((((BitVec.ofNat 32 (a * 24 + b)).toInt : ℝ)) : EReal) := by
  unfold place IntOp.addi IntOp.muli
  rw [row_index a b ha hb]

/-- A corner's real weight is counted at place `k` exactly when `k` is the corner's own place. -/
private theorem pick_place (k : Fin 576) (a b : ℕ) (ha : a ≤ 23) (hb : b ≤ 23) (w : ℝ) :
    pick k (place (BitVec.ofNat 32 a) (BitVec.ofNat 32 b)) ((w : ℝ) : EReal)
      = if k = (⟨a * 24 + b, by omega⟩ : Fin 576) then ((w : ℝ) : EReal) else 0 := by
  have hz : zeroH = ((0 : ℝ) : EReal) := w0h
  unfold pick
  rw [place_nat a b ha hb, roundtrip (a * 24 + b) (by omega), hz]
  show Scalar.select (BitVec.ofBool (BitVec.ofNat 32 k.val == BitVec.ofNat 32 (a * 24 + b))) _ _ = _
  rw [word_eq k.val (a * 24 + b) k.isLt (by omega)]
  by_cases hk : k.val = a * 24 + b
  · have hk' : k = (⟨a * 24 + b, by omega⟩ : Fin 576) := Fin.ext hk
    rw [if_pos hk', decide_eq_true hk]
    exact if_pos rfl
  · have hk' : ¬ k = (⟨a * 24 + b, by omega⟩ : Fin 576) := fun h => hk (congrArg Fin.val h)
    rw [if_neg hk', decide_eq_false hk]
    exact (if_neg (by decide)).trans EReal.coe_zero

/-- A cell number is not negative, so the wrap leaves it alone. -/
private theorem wrap_nat (n : ℕ) (h : n ≤ 23) : wrap (BitVec.ofNat 32 n) = BitVec.ofNat 32 n := by
  unfold wrap
  show Scalar.select (BitVec.ofBool ((BitVec.ofNat 32 n).slt 0#32)) _ _ = _
  rw [not_neg n h]
  exact if_neg (by decide)

/-- The lookup's entry at cells `(a, b)` is the column's entry at place `a * 24 + b`. -/
private theorem corner_nat (T : Fin 576 → EReal) (a b : ℕ) (ha : a ≤ 23) (hb : b ≤ 23) :
    corner T (BitVec.ofNat 32 a) (BitVec.ofNat 32 b) = T (⟨a * 24 + b, by omega⟩ : Fin 576) := by
  unfold corner
  refine congrArg T (Fin.ext ?_)
  show clampN (wrap (BitVec.ofNat 32 a)) * 24 + clampN (wrap (BitVec.ofNat 32 b)) = a * 24 + b
  rw [wrap_nat a ha, wrap_nat b hb]
  unfold clampN
  rw [toNat_cell a ha, toNat_cell b hb]

/-- The fraction of a real coordinate whose cell is `n` is the coordinate minus `n`. -/
private theorem frac_real (r : ℝ) (n : ℕ) (hn : n ≤ 23) (hc : CellSpec.cell (r : EReal) = BitVec.ofNat 32 n) :
    frac (r : EReal) = ((r - (n : ℝ) : ℝ) : EReal) := by
  unfold frac
  rw [hc, toInt_ofNat n (by omega), Int.cast_natCast, ← EReal.coe_sub]

/-- The weight row of eight packed numbers whose places are cells `(a, b)`, `(a, b')`, `(a', b)`, `(a', b')` and whose
    fractions are the reals `fx`, `fy`: four real weights, each at its corner's place. -/
private theorem wrow_nat (a b a' b' : ℕ) (ha : a ≤ 23) (hb : b ≤ 23) (ha' : a' ≤ 23) (hb' : b' ≤ 23) (fx fy : ℝ)
    (p : Fin 8 → EReal)
    (h0 : p 0 = place (BitVec.ofNat 32 a) (BitVec.ofNat 32 b))
    (h1 : p 1 = place (BitVec.ofNat 32 a) (BitVec.ofNat 32 b'))
    (h2 : p 2 = place (BitVec.ofNat 32 a') (BitVec.ofNat 32 b))
    (h3 : p 3 = place (BitVec.ofNat 32 a') (BitVec.ofNat 32 b'))
    (h4 : p 4 = ((fx : ℝ) : EReal)) (h5 : p 5 = ((fy : ℝ) : EReal)) (k : Fin 576) :
    wrow p k
      = (((if k = (⟨a * 24 + b, by omega⟩ : Fin 576) then ((((1 - fy) * (1 - fx) : ℝ)) : EReal) else 0)
          + (if k = (⟨a * 24 + b', by omega⟩ : Fin 576) then ((((1 - fy) * fx : ℝ)) : EReal) else 0))
          + (if k = (⟨a' * 24 + b, by omega⟩ : Fin 576) then (((fy * (1 - fx) : ℝ)) : EReal) else 0))
          + (if k = (⟨a' * 24 + b', by omega⟩ : Fin 576) then (((fy * fx : ℝ)) : EReal) else 0) := by
  have hone : one = ((1 : ℝ) : EReal) := w1
  unfold wrow
  rw [h0, h1, h2, h3, h4, h5, hone]
  simp only [← EReal.coe_sub, ← EReal.coe_mul]
  rw [pick_place k a b ha hb, pick_place k a b' ha hb', pick_place k a' b ha' hb, pick_place k a' b' ha' hb']

/-- The law for two coordinates whose cells are `nx`, `ny` and whose fractions are the reals `fx`, `fy`. -/
private theorem bridge_nat (e : EReal) (P : Fin 576 → ℝ) (cx cy : EReal) (nx ny : ℕ) (fx fy : ℝ)
    (hnx : nx ≤ 23) (hny : ny ≤ 23)
    (hcx : CellSpec.cell cx = BitVec.ofNat 32 nx) (hcy : CellSpec.cell cy = BitVec.ofNat 32 ny)
    (hfx : frac cx = ((fx : ℝ) : EReal)) (hfy : frac cy = ((fy : ℝ) : EReal)) :
    rowval e (packedRow cx cy) (fun k => ((P k : ℝ) : EReal))
      = e + blend cx cy (fun k => ((P k : ℝ) : EReal)) := by
  have hnx' : min (nx + 1) 23 ≤ 23 := Nat.min_le_right _ _
  have hny' : min (ny + 1) 23 ≤ 23 := Nat.min_le_right _ _
  have hxn : next (CellSpec.cell cx) = BitVec.ofNat 32 (min (nx + 1) 23) := by rw [hcx]; exact next_nat nx hnx
  have hyn : next (CellSpec.cell cy) = BitVec.ofNat 32 (min (ny + 1) 23) := by rw [hcy]; exact next_nat ny hny
  have hone : one = ((1 : ℝ) : EReal) := w1
  have hw : ∀ k : Fin 576, wrow (packedRow cx cy) k = _ := fun k =>
    wrow_nat ny nx (min (ny + 1) 23) (min (nx + 1) 23) hny hnx hny' hnx' fx fy (packedRow cx cy)
      (by show place (CellSpec.cell cy) (CellSpec.cell cx) = _; rw [hcy, hcx])
      (by show place (CellSpec.cell cy) (next (CellSpec.cell cx)) = _; rw [hcy, hxn])
      (by show place (next (CellSpec.cell cy)) (CellSpec.cell cx) = _; rw [hyn, hcx])
      (by show place (next (CellSpec.cell cy)) (next (CellSpec.cell cx)) = _; rw [hyn, hxn])
      (by show frac cx = _; exact hfx)
      (by show frac cy = _; exact hfy) k
  unfold rowval blend
  simp only [hw]
  rw [onehot_sum, hxn, hyn, hcx, hcy, hfx, hfy, hone,
    corner_nat _ ny nx hny hnx, corner_nat _ ny (min (nx + 1) 23) hny hnx',
    corner_nat _ (min (ny + 1) 23) nx hny' hnx, corner_nat _ (min (ny + 1) 23) (min (nx + 1) 23) hny' hnx']
  simp only [← EReal.coe_sub, ← EReal.coe_mul]

/-- For coordinates clipped into the grid and a real table column, the weights summed against the column are the four corners blended: each packed place, sent through the float format and back, is found again at exactly its own place k; corners that coincide add up on both sides. -/
theorem bridge (u v e : EReal) (P : Fin 576 → ℝ) :
    rowval e (packedRow (clip u) (clip v)) (fun k => ((P k : ℝ) : EReal)) = e + blend (clip u) (clip v) (fun k => ((P k : ℝ) : EReal)) := by
  have hlo : lo = ((0 : ℝ) : EReal) := w0
  have hhi : hi = ((23 : ℝ) : EReal) := w23
  obtain ⟨rx, hx0, hx1, hrx⟩ := clip_real u
  obtain ⟨ry, hy0, hy1, hry⟩ := clip_real v
  have hcu : clip u = (rx : EReal) := by unfold clip; rw [hlo, hhi]; exact hrx
  have hcv : clip v = (ry : EReal) := by unfold clip; rw [hlo, hhi]; exact hry
  rw [hcu, hcv]
  obtain ⟨hcx, hnx⟩ := Bilinear.cell rx hx0 hx1
  obtain ⟨hcy, hny⟩ := Bilinear.cell ry hy0 hy1
  exact bridge_nat e P (rx : EReal) (ry : EReal) ⌊rx⌋₊ ⌊ry⌋₊ (rx - (⌊rx⌋₊ : ℝ)) (ry - (⌊ry⌋₊ : ℝ)) hnx hny hcx hcy
    (frac_real rx ⌊rx⌋₊ hnx hcx) (frac_real ry ⌊ry⌋₊ hny hcy)

end Cert.Bridge

end
-- ==== Proof.FiniteTable.lean ====
/-
  From "every float input is finite" to "every entry of the position table is a real number". The precondition
  is the conjunction of two tests, one per float argument, each saying that every entry `x` of the array passes
  `|x| < +inf`. Over the extended reals the absolute value is `max x (-x)` and the word of `+inf` denotes `⊤`, so
  an entry that passes is neither infinity: it is a real number.
-/
import proofs.«124072_j15384572854614_2_alg».proof.Defs
import proofs.«124072_j15384572854614_2_alg».proof.Proof.Gen.Pre_finite_inputs
import proofs.«124072_j15384572854614_2_alg».proof.Proof.Gen.KernelIdeal
import Idealize.ShloMosaic.Lib.ReduceAll
import Idealize.ShloMosaic.Lib.ValueIdx

noncomputable section

namespace Cert.FiniteTable

open Idealize.ShloMosaic Idealize.SL.Sem

/-- The word of `+inf` denotes `⊤`. -/
private theorem ofBits_pos_inf : Ideal.ofBits .f32 0x7F800000#32 = ⊤ := by
  simp [Ideal.ofBits, Ideal.ieee]

/-- An entry that the test `|x| < +inf` accepts is a real number: at either infinity the absolute value is `⊤`,
    which is not below `⊤`. -/
private theorem real_of_test {x : EReal}
    (h : Ideal.cmp .olt (max x (-x)) (Ideal.ofBits .f32 0x7F800000#32) = 1#1) : ∃ a : ℝ, x = ((a : ℝ) : EReal) := by
  rw [ofBits_pos_inf] at h
  induction x using EReal.rec with
  | bot =>
    exfalso
    have hm : max (⊥ : EReal) (-⊥) = ⊤ := by simp
    rw [hm] at h
    simp [Ideal.cmp] at h
  | top =>
    exfalso
    have hm : max (⊤ : EReal) (-⊤) = ⊤ := by simp
    rw [hm] at h
    simp [Ideal.cmp] at h
  | coe a => exact ⟨a, rfl⟩

/-- The one index of the scalar shape. -/
private theorem subsingleton_scalar : Subsingleton Cert.Pre_finite_inputs.S_.Idx :=
  ⟨fun _ _ => funext fun d => d.elim0⟩

theorem table_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S576x1536.Idx) :
    ∃ x : ℝ, m ((c.tc : Thread Cert.KernelIdeal.nD Cert.KernelIdeal.τ).loc Cert.KernelIdeal.main_arg1) i = ((x : ℝ) : EReal) := by
  have h0 := congrFun (h c) ValueIdx.ix0
  dsimp only [Cert.Pre_finite_inputs.fn] at h0
  obtain ⟨_, h2⟩ := IntOp.andi_eq_one.1 h0
  haveI := subsingleton_scalar
  have hi := Host.reduce_andi_all _ _ _ _ _ h2 i
  exact real_of_test hi

end Cert.FiniteTable

end
-- ==== Proof.Join.lean ====
/-
  The reference's result is the kernel's. Entry (r, q) of the reference's result is the embeddings' entry plus the blend
  of token r's four corners of the table's column q; entry (r, q) of what the kernel's tiles assemble to is the
  embeddings' entry plus token r's weight row summed against that column, the weight row built from the packed row of
  the same two clipped coordinates. The two programs compute the same clipped coordinates from the same integer
  arguments, the table is finite, and then the scalar law joins the two sides.
-/
import proofs.«124072_j15384572854614_2_alg».proof.Proof.TileValue
import proofs.«124072_j15384572854614_2_alg».proof.Proof.LaunchArrays
import proofs.«124072_j15384572854614_2_alg».proof.Proof.RefTail
import proofs.«124072_j15384572854614_2_alg».proof.Proof.Coords
import proofs.«124072_j15384572854614_2_alg».proof.Proof.CoordsStaged
import proofs.«124072_j15384572854614_2_alg».proof.Proof.Bridge
import proofs.«124072_j15384572854614_2_alg».proof.Proof.FiniteTable

set_option maxRecDepth 16384

noncomputable section

namespace Cert.Join

open Idealize.ShloMosaic Idealize.ShloMosaic.TcCoe Idealize.ShloMosaic.ValueIdx Idealize.SL.Sem Idealize.ShloMosaic.StableHlo
open Cert.RowSpec Cert.CellSpec

/-- What the kernel's first twenty stretches leave at a buffer. -/
abbrev Wk (m : (ℓ : Loc Cert.KernelIdeal.nD Cert.KernelIdeal.τ Cert.KernelIdeal.sig) → Buf (Elt Ideal) ℓ) (c : Dev Cert.KernelIdeal.nD) (b : Ref Cert.KernelIdeal.sig .tc) :=
  StableHlo.after (List.flatten Cert.Coords.headK) (fun b => m (c, b)) (b : DevRef Cert.KernelIdeal.τ Cert.KernelIdeal.sig)

/-- What the reference's lines up to the second clamp leave at a buffer. -/
abbrev Wr (m' : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc) :=
  StableHlo.after (Cert.ReferenceIdeal.Hand.opsA (F := Ideal)) (StableHlo.launchContents m' c) (b : DevRef Cert.ReferenceIdeal.τ Cert.ReferenceIdeal.sig)

set_option maxHeartbeats 2000000 in
/-- The joining lemma, given that the two programs' clipped coordinate arrays agree. -/
theorem result_eq_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hx : (show FVec Ideal Cert.KernelIdeal.S32768 .f32 from Wk m c Cert.KernelIdeal.main_v72) = (show FVec Ideal Cert.KernelIdeal.S32768 .f32 from Wr m' c Cert.ReferenceIdeal.main_v74))
    (hy : (show FVec Ideal Cert.KernelIdeal.S32768 .f32 from Wk m c Cert.KernelIdeal.main_v73) = (show FVec Ideal Cert.KernelIdeal.S32768 .f32 from Wr m' c Cert.ReferenceIdeal.main_v75)) :
    StableHlo.after (Cert.ReferenceIdeal.Hand.opsA (F := Ideal) ++ Cert.ReferenceIdeal.Hand.opsB) (StableHlo.launchContents m' c) (Cert.ReferenceIdeal.main_v176 : DevRef Cert.ReferenceIdeal.τ Cert.ReferenceIdeal.sig)
      = Cert.KernelIdeal.TileValue.G (Cert.KernelIdeal.Tile.V m c Cert.KernelIdeal.main_arg0) (Cert.KernelIdeal.Tile.V m c Cert.KernelIdeal.main_v116) (Cert.KernelIdeal.Tile.V m c Cert.KernelIdeal.main_v115) := by
  rw [StableHlo.after_append, Cert.ReferenceIdeal.Tail.tail_out, Cert.Coords.opsA_arg0_eq, Cert.Coords.planes_eq]
  obtain ⟨Ux, hUx⟩ := Cert.Coords.clipped_x m c
  obtain ⟨Uy, hUy⟩ := Cert.Coords.clipped_y m c
  funext i
  obtain ⟨r, q, rfl⟩ : ∃ (r : Fin 32768) (q : Fin 1536), i = ix2 r q := ⟨i 0, i 1, eq_ix2 i⟩
  choose P hP using fun k : Fin 576 => Cert.FiniteTable.table_real m hpre c (ix2 k q)
  -- the reference's entry
  have hL := Cert.ReferenceIdeal.Tail.outA_apply (m' ((c.tc : Thread Cert.ReferenceIdeal.nD Cert.ReferenceIdeal.τ).loc Cert.ReferenceIdeal.main_arg0))
    (show FVec Ideal Cert.ReferenceIdeal.S576x1536 .f32 from m' ((c.tc : Thread Cert.ReferenceIdeal.nD Cert.ReferenceIdeal.τ).loc Cert.ReferenceIdeal.main_arg1))
    (Wr m' c Cert.ReferenceIdeal.main_v74) (Wr m' c Cert.ReferenceIdeal.main_v75) r q
  refine hL.trans ?_
  -- the kernel's entry
  unfold Cert.KernelIdeal.TileValue.G
  show _ = rowval (Cert.KernelIdeal.Tile.V m c Cert.KernelIdeal.main_arg0 (ix2 r q)) (fun j => Cert.KernelIdeal.Tile.V m c Cert.KernelIdeal.main_v115 (ix2 r j))
      (fun k => Cert.KernelIdeal.Tile.V m c Cert.KernelIdeal.main_v116 (ix2 k q))
  rw [Cert.KernelIdeal.Tile.V_main_arg0, Cert.KernelIdeal.LaunchArrays.V_packed, Cert.KernelIdeal.LaunchArrays.V_table]
  have hrow : (fun j => Cert.KernelIdeal.HostTail.packedA (Cert.KernelIdeal.LaunchArrays.W m c (Cert.KernelIdeal.main_v72 : DevRef Cert.KernelIdeal.τ Cert.KernelIdeal.sig))
        (Cert.KernelIdeal.LaunchArrays.W m c (Cert.KernelIdeal.main_v73 : DevRef Cert.KernelIdeal.τ Cert.KernelIdeal.sig)) (ix2 r j))
      = packedRow (clip (Ux (ix1 r))) (clip (Uy (ix1 r))) := by
    funext j
    rw [Cert.KernelIdeal.HostTail.packedA_apply]
    exact congrArg₂ (fun a b => packedRow a b j) (congrFun hUx (ix1 r)) (congrFun hUy (ix1 r))
  rw [hrow]
  have hcol : (fun k : Fin 576 => (truncf .bf16 (show FVec Ideal Cert.KernelIdeal.S576x1536 .f32 from m ((c.tc : Thread Cert.KernelIdeal.nD Cert.KernelIdeal.τ).loc Cert.KernelIdeal.main_arg1))
        Cert.KernelIdeal.Gen.bitsLt_bf16_f32 : FVec Ideal Cert.KernelIdeal.S576x1536 .bf16) (ix2 k q)) = fun k => ((P k : ℝ) : EReal) :=
    funext fun k => hP k
  rw [hcol]
  -- the reference's side in the same terms
  have hcx : (Wr m' c Cert.ReferenceIdeal.main_v74 : FVec Ideal Cert.KernelIdeal.S32768 .f32) (ix1 r) = clip (Ux (ix1 r)) :=
    (congrFun hx (ix1 r)).symm.trans (congrFun hUx (ix1 r))
  have hcy : (Wr m' c Cert.ReferenceIdeal.main_v75 : FVec Ideal Cert.KernelIdeal.S32768 .f32) (ix1 r) = clip (Uy (ix1 r)) :=
    (congrFun hy (ix1 r)).symm.trans (congrFun hUy (ix1 r))
  have hcolr : (fun k : Fin 576 => (show FVec Ideal Cert.ReferenceIdeal.S576x1536 .f32 from m' ((c.tc : Thread Cert.ReferenceIdeal.nD Cert.ReferenceIdeal.τ).loc Cert.ReferenceIdeal.main_arg1)) (ix2 k q))
      = fun k => ((P k : ℝ) : EReal) := by
    funext k
    rw [h1]
    exact hP k
  rw [hcx, hcy, hcolr, h0]
  exact (Cert.Bridge.bridge (Ux (ix1 r)) (Uy (ix1 r)) _ P).symm

/-- The joining lemma: the reference's result is the kernel's array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.Hand.opsA (F := Ideal) ++ Cert.ReferenceIdeal.Hand.opsB) (StableHlo.launchContents m' c) (Cert.ReferenceIdeal.main_v176 : DevRef Cert.ReferenceIdeal.τ Cert.ReferenceIdeal.sig)
      = Cert.KernelIdeal.TileValue.G (Cert.KernelIdeal.Tile.V m c Cert.KernelIdeal.main_arg0) (Cert.KernelIdeal.Tile.V m c Cert.KernelIdeal.main_v116) (Cert.KernelIdeal.Tile.V m c Cert.KernelIdeal.main_v115) :=
  result_eq_of m m' c hpre h0 h1 (Cert.CoordsStaged.coords_agree m m' c h2 h3 h4 h5).1 (Cert.CoordsStaged.coords_agree m m' c h2 h3 h4 h5).2

end Cert.Join

end
-- ==== Proof.lean ====
/-
  A 32768-token embedding lookup with bilinear interpolation on a 24 x 24 grid of positions: each token's output row is its
  embedding row plus a blend of four rows of a 576-row position table, the four corners of the grid cell its clipped
  coordinates fall in, weighted by the fractions.

  The kernel program computes the cells, corner places and fractions on the host, packs them eight numbers per token,
  and in 64 tiles of 512 tokens turns each token's packed row into a row of 576 weights — each corner's weight
  counted at its place, coinciding corners adding up — which it multiplies into the table and adds to the
  embeddings. The reference looks the four corners up directly and blends them. Over the extended reals the two agree
  entry by entry: the coordinates are clipped into [0, 23], so cells, places and fractions are honest numbers whatever
  the integer inputs are, each place survives its trip through the float format, and with a finite table the sum of
  the weight row against a column is the blend of the four corners (a finite sum over real numbers distributes).

  The three frames: the kernel's launch is run tile by tile (for both readings of the kernel, words and extended
  reals), the reference is a straight line of host operations; no line of either writes an argument. The idealized
  kernel is the kernel's own text, so nothing is owed for it.
-/
import proofs.«124072_j15384572854614_2_alg».proof.Defs
import proofs.«124072_j15384572854614_2_alg».proof.Proof.Gen.Kernel
import proofs.«124072_j15384572854614_2_alg».proof.Proof.Gen.KernelIdeal
import proofs.«124072_j15384572854614_2_alg».proof.Proof.Gen.ReferenceIdeal
import proofs.«124072_j15384572854614_2_alg».proof.Proof.Gen.Pre_finite_inputs
import proofs.«124072_j15384572854614_2_alg».proof.Proof.TileBits
import proofs.«124072_j15384572854614_2_alg».proof.Proof.TileIdeal
import proofs.«124072_j15384572854614_2_alg».proof.Proof.TileValue
import proofs.«124072_j15384572854614_2_alg».proof.Proof.RefRun
import proofs.«124072_j15384572854614_2_alg».proof.Proof.Join
import Idealize.ShloMosaic.Adequacy
import Idealize.ShloMosaic.Init

noncomputable section

namespace Cert.Proof

open Idealize.ShloMosaic Idealize.ShloMosaic.TcCoe Idealize.SL.Sem

/-- The kernel read at words: every execution ends and leaves the six arguments as they were. -/
theorem frame_k : Cert.frame_Kernel := fun m ρ _ => Cert.Kernel.Tile.frame m ρ

/-- The same for the kernel read at the extended reals. -/
theorem frame_ki : Cert.frame_KernelIdeal := fun m ρ _ => Cert.KernelIdeal.Tile.frame m ρ

/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _)⟩)
    (Cert.ReferenceIdeal.Hand.run_main (F := Ideal) m ρ)

/-- The idealized kernel is the kernel's own text: no rewrite to account for. -/
theorem preserves : Cert.preserves_Kernel_KernelIdeal := trivial

/-- Both programs run, the arguments unchanged, and end at the same array: the kernel's tiles assemble to one function of
    the arrays the launch reads, and the reference's result is that function (the joining lemma). -/
theorem algebraic : Cert.algebraic_KernelIdeal_ReferenceIdeal := by
  intro m ρ m' ρ' hpre hagree
  refine ⟨fun c => Cert.KernelIdeal.TileValue.G (Cert.KernelIdeal.Tile.V m c Cert.KernelIdeal.main_arg0)
      (Cert.KernelIdeal.Tile.V m c Cert.KernelIdeal.main_v116) (Cert.KernelIdeal.Tile.V m c Cert.KernelIdeal.main_v115),
    Cert.KernelIdeal.TileValue.run m ρ, ?_⟩
  refine (θ_run Cert.ReferenceIdeal.defs _ _).mono (fun _ h c =>
    ⟨(h c Cert.ReferenceIdeal.main_v176).trans
        (Cert.Join.result_eq m m' c hpre (hagree c).1 (hagree c).2.1 (hagree c).2.2.1 (hagree c).2.2.2.1 (hagree c).2.2.2.2.1 (hagree c).2.2.2.2.2),
     (h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _)⟩)
    (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
